-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x49x512 : Shape := ⟨3, ![2048, 49, 512]⟩
abbrev S64x49x49 : Shape := ⟨3, ![64, 49, 49]⟩
abbrev S1536x512 : Shape := ⟨2, ![1536, 512]⟩
abbrev S1536 : Shape := ⟨1, ![1536]⟩
abbrev S169x16 : Shape := ⟨2, ![169, 16]⟩
abbrev S_ : Shape := ⟨0, ![]⟩

class Facts : Prop where
  bcast_S_S2048x49x512 : S_.BroadcastsInDim S2048x49x512 (![] : Fin 0 → Fin S2048x49x512.rank)
  reducesTo_S2048x49x512_S_d0_1_2 : S2048x49x512.ReducesTo [0, 1, 2] S_
  h_S_ : 0 < S_.numel
  bcast_S_S64x49x49 : S_.BroadcastsInDim S64x49x49 (![] : Fin 0 → Fin S64x49x49.rank)
  reducesTo_S64x49x49_S_d0_1_2 : S64x49x49.ReducesTo [0, 1, 2] S_
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S169x16 : S_.BroadcastsInDim S169x16 (![] : Fin 0 → Fin S169x16.rank)
  reducesTo_S169x16_S_d0_1 : S169x16.ReducesTo [0, 1] S_

variable [Facts]

def fn_part1 {F : FTy → Type} [FloatOps F] (main_arg4 : FVec F S169x16 .f32) (main_v13 : IVec S_ 1) (main_v16 : IVec S1536 1) : IVec S_ 1 :=
  let main_c_5 : IVec S_ 1 := constantI S_ 1 1#1
  let main_v17 : IVec S_ 1 := (fun x v => Host.reduce IntOp.andi x v reducesTo_S1536_S_d0 h_S_) main_v16 main_c_5
  let main_v18 : IVec S_ 1 := andi main_v13 main_v17
  let main_v19 : FVec F S169x16 .f32 := Host.absf main_arg4
  let main_cst_6 : FVec F S_ .f32 := constant S_ .f32 0x7F800000#32
  let main_v20 : FVec F S169x16 .f32 := broadcastInDim S169x16 ![] bcast_S_S169x16 main_cst_6
  let main_v21 : IVec S169x16 1 := cmpf .olt main_v19 main_v20
  let main_c_7 : IVec S_ 1 := constantI S_ 1 1#1
  let main_v22 : IVec S_ 1 := (fun x v => Host.reduce IntOp.andi x v reducesTo_S169x16_S_d0_1 h_S_) main_v21 main_c_7
  let main_v23 : IVec S_ 1 := andi main_v18 main_v22
  main_v23

def fn {F : FTy → Type} [FloatOps F] (main_arg0 : FVec F S2048x49x512 .f32) (main_arg1 : FVec F S64x49x49 .f32) (main_arg2 : FVec F S1536x512 .f32) (main_arg3 : FVec F S1536 .f32) (main_arg4 : FVec F S169x16 .f32) : IVec S_ 1 :=
  let main_v0 : FVec F S2048x49x512 .f32 := Host.absf main_arg0
  let main_cst : FVec F S_ .f32 := constant S_ .f32 0x7F800000#32
  let main_v1 : FVec F S2048x49x512 .f32 := broadcastInDim S2048x49x512 ![] bcast_S_S2048x49x512 main_cst
  let main_v2 : IVec S2048x49x512 1 := cmpf .olt main_v0 main_v1
  let main_c : IVec S_ 1 := constantI S_ 1 1#1
  let main_v3 : IVec S_ 1 := (fun x v => Host.reduce IntOp.andi x v reducesTo_S2048x49x512_S_d0_1_2 h_S_) main_v2 main_c
  let main_v4 : FVec F S64x49x49 .f32 := Host.absf main_arg1
  let main_cst_0 : FVec F S_ .f32 := constant S_ .f32 0x7F800000#32
  let main_v5 : FVec F S64x49x49 .f32 := broadcastInDim S64x49x49 ![] bcast_S_S64x49x49 main_cst_0
  let main_v6 : IVec S64x49x49 1 := cmpf .olt main_v4 main_v5
  let main_c_1 : IVec S_ 1 := constantI S_ 1 1#1
  let main_v7 : IVec S_ 1 := (fun x v => Host.reduce IntOp.andi x v reducesTo_S64x49x49_S_d0_1_2 h_S_) main_v6 main_c_1
  let main_v8 : IVec S_ 1 := andi main_v3 main_v7
  let main_v9 : FVec F S1536x512 .f32 := Host.absf main_arg2
  let main_cst_2 : FVec F S_ .f32 := constant S_ .f32 0x7F800000#32
  let main_v10 : FVec F S1536x512 .f32 := broadcastInDim S1536x512 ![] bcast_S_S1536x512 main_cst_2
  let main_v11 : IVec S1536x512 1 := cmpf .olt main_v9 main_v10
  let main_c_3 : IVec S_ 1 := constantI S_ 1 1#1
  let main_v12 : IVec S_ 1 := (fun x v => Host.reduce IntOp.andi x v reducesTo_S1536x512_S_d0_1 h_S_) main_v11 main_c_3
  let main_v13 : IVec S_ 1 := andi main_v8 main_v12
  let main_v14 : FVec F S1536 .f32 := Host.absf main_arg3
  let main_cst_4 : FVec F S_ .f32 := constant S_ .f32 0x7F800000#32
  let main_v15 : FVec F S1536 .f32 := broadcastInDim S1536 ![] bcast_S_S1536 main_cst_4
  let main_v16 : IVec S1536 1 := cmpf .olt main_v14 main_v15
  fn_part1 (F := F) main_arg4 main_v13 main_v16
-- ==== Kernel.lean ====
abbrev S2048x49x512 : Shape := ⟨3, ![2048, 49, 512]⟩
abbrev S64x49x49 : Shape := ⟨3, ![64, 49, 49]⟩
abbrev S1536x512 : Shape := ⟨2, ![1536, 512]⟩
abbrev S1536 : Shape := ⟨1, ![1536]⟩
abbrev S169x16 : Shape := ⟨2, ![169, 16]⟩
abbrev S49x49 : Shape := ⟨2, ![49, 49]⟩
abbrev S2401 : Shape := ⟨1, ![2401]⟩
abbrev S_ : Shape := ⟨0, ![]⟩
abbrev S2401x1 : Shape := ⟨2, ![2401, 1]⟩
abbrev S2401x16 : Shape := ⟨2, ![2401, 16]⟩
abbrev S49x49x16 : Shape := ⟨3, ![49, 49, 16]⟩
abbrev S16x49x49 : Shape := ⟨3, ![16, 49, 49]⟩
abbrev S100352x512 : Shape := ⟨2, ![100352, 512]⟩
abbrev S1x1536 : Shape := ⟨2, ![1, 1536]⟩
abbrev S100352x1536 : Shape := ⟨2, ![100352, 1536]⟩
abbrev S1024x512 : Shape := ⟨2, ![1024, 512]⟩
abbrev S1024x1536 : Shape := ⟨2, ![1024, 1536]⟩
abbrev S2048x49x3x16x32 : Shape := ⟨5, ![2048, 49, 3, 16, 32]⟩
abbrev S2048x49x1x16x32 : Shape := ⟨5, ![2048, 49, 1, 16, 32]⟩
abbrev S2048x49x16x32 : Shape := ⟨4, ![2048, 49, 16, 32]⟩
abbrev S2048x16x49x32 : Shape := ⟨4, ![2048, 16, 49, 32]⟩
abbrev S32768x49x32 : Shape := ⟨3, ![32768, 49, 32]⟩
abbrev S128x49x32 : Shape := ⟨3, ![128, 49, 32]⟩
abbrev S8x49x49 : Shape := ⟨3, ![8, 49, 49]⟩
abbrev S128x49x49 : Shape := ⟨3, ![128, 49, 49]⟩
abbrev S8x16x49x49 : Shape := ⟨4, ![8, 16, 49, 49]⟩
abbrev S1x16x49x49 : Shape := ⟨4, ![1, 16, 49, 49]⟩
abbrev S8x1x49x49 : Shape := ⟨4, ![8, 1, 49, 49]⟩
abbrev S128x49 : Shape := ⟨2, ![128, 49]⟩
abbrev S128x49x1 : Shape := ⟨3, ![128, 49, 1]⟩

abbrev nBuf : Space → Nat
  | .hbm => 39
  | .vmem => 17
  | .smem => 0
  | _ => 0

abbrev bufTy : (tb : Table) → Fin (tcTables nBuf tb) → BufTy
  | .hbm, ⟨0, _⟩ => ⟨S2048x49x512, .f32⟩
  | .hbm, ⟨1, _⟩ => ⟨S64x49x49, .f32⟩
  | .hbm, ⟨2, _⟩ => ⟨S1536x512, .f32⟩
  | .hbm, ⟨3, _⟩ => ⟨S1536, .f32⟩
  | .hbm, ⟨4, _⟩ => ⟨S169x16, .f32⟩
  | .hbm, ⟨5, _⟩ => ⟨S49x49, .i32⟩
  | .hbm, ⟨6, _⟩ => ⟨S2401, .i32⟩
  | .hbm, ⟨7, _⟩ => ⟨S_, .i32⟩
  | .hbm, ⟨8, _⟩ => ⟨S2401, .i32⟩
  | .hbm, ⟨9, _⟩ => ⟨S2401, .i1⟩
  | .hbm, ⟨10, _⟩ => ⟨S_, .i32⟩
  | .hbm, ⟨11, _⟩ => ⟨S2401, .i32⟩
  | .hbm, ⟨12, _⟩ => ⟨S2401, .i32⟩
  | .hbm, ⟨13, _⟩ => ⟨S2401, .i32⟩
  | .hbm, ⟨14, _⟩ => ⟨S2401x1, .i32⟩
  | .hbm, ⟨15, _⟩ => ⟨S2401x16, .f32⟩
  | .hbm, ⟨16, _⟩ => ⟨S49x49x16, .f32⟩
  | .hbm, ⟨17, _⟩ => ⟨S16x49x49, .f32⟩
  | .hbm, ⟨18, _⟩ => ⟨S100352x512, .f32⟩
  | .hbm, ⟨19, _⟩ => ⟨S1536x512, .bf16⟩
  | .hbm, ⟨20, _⟩ => ⟨S1x1536, .f32⟩
  | .hbm, ⟨21, _⟩ => ⟨S100352x1536, .bf16⟩
  | .hbm, ⟨22, _⟩ => ⟨S2048x49x3x16x32, .bf16⟩
  | .hbm, ⟨23, _⟩ => ⟨S2048x49x1x16x32, .bf16⟩
  | .hbm, ⟨24, _⟩ => ⟨S2048x49x16x32, .bf16⟩
  | .hbm, ⟨25, _⟩ => ⟨S2048x49x1x16x32, .bf16⟩
  | .hbm, ⟨26, _⟩ => ⟨S2048x49x16x32, .bf16⟩
  | .hbm, ⟨27, _⟩ => ⟨S2048x49x1x16x32, .bf16⟩
  | .hbm, ⟨28, _⟩ => ⟨S2048x49x16x32, .bf16⟩
  | .hbm, ⟨29, _⟩ => ⟨S2048x16x49x32, .bf16⟩
  | .hbm, ⟨30, _⟩ => ⟨S32768x49x32, .bf16⟩
  | .hbm, ⟨31, _⟩ => ⟨S2048x16x49x32, .bf16⟩
  | .hbm, ⟨32, _⟩ => ⟨S32768x49x32, .bf16⟩
  | .hbm, ⟨33, _⟩ => ⟨S2048x16x49x32, .bf16⟩
  | .hbm, ⟨34, _⟩ => ⟨S32768x49x32, .bf16⟩
  | .hbm, ⟨35, _⟩ => ⟨S32768x49x32, .f32⟩
  | .hbm, ⟨36, _⟩ => ⟨S2048x16x49x32, .f32⟩
  | .hbm, ⟨37, _⟩ => ⟨S2048x49x16x32, .f32⟩
  | .hbm, ⟨38, _⟩ => ⟨S2048x49x512, .f32⟩
  | .local _ .vmem, ⟨0, _⟩ => ⟨S1024x512, .f32⟩
  | .local _ .vmem, ⟨1, _⟩ => ⟨S1024x512, .f32⟩
  | .local _ .vmem, ⟨2, _⟩ => ⟨S1536x512, .bf16⟩
  | .local _ .vmem, ⟨3, _⟩ => ⟨S1x1536, .f32⟩
  | .local _ .vmem, ⟨4, _⟩ => ⟨S1024x1536, .bf16⟩
  | .local _ .vmem, ⟨5, _⟩ => ⟨S1024x1536, .bf16⟩
  | .local _ .vmem, ⟨6, _⟩ => ⟨S128x49x32, .bf16⟩
  | .local _ .vmem, ⟨7, _⟩ => ⟨S128x49x32, .bf16⟩
  | .local _ .vmem, ⟨8, _⟩ => ⟨S128x49x32, .bf16⟩
  | .local _ .vmem, ⟨9, _⟩ => ⟨S128x49x32, .bf16⟩
  | .local _ .vmem, ⟨10, _⟩ => ⟨S128x49x32, .bf16⟩
  | .local _ .vmem, ⟨11, _⟩ => ⟨S128x49x32, .bf16⟩
  | .local _ .vmem, ⟨12, _⟩ => ⟨S16x49x49, .f32⟩
  | .local _ .vmem, ⟨13, _⟩ => ⟨S8x49x49, .f32⟩
  | .local _ .vmem, ⟨14, _⟩ => ⟨S8x49x49, .f32⟩
  | .local _ .vmem, ⟨15, _⟩ => ⟨S128x49x32, .f32⟩
  | .local _ .vmem, ⟨16, _⟩ => ⟨S128x49x32, .f32⟩
  | _, _ => ⟨S2048x49x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![32, 8], ![false, false]⟩

def cc1_transform_0 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage1_0 : Fin 2 → Memref sig .tc .vmem S128x49x32 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x49x32 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x49x32 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S16x49x49 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S8x49x49 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S128x49x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S49x49_S2401 : S49x49.ShapeCasts S2401
  bcast_S_S2401 : S_.BroadcastsInDim S2401 (![] : Fin 0 → Fin S2401.rank)
  bcast_S2401_S2401x1_0 : S2401.BroadcastsInDim S2401x1 (![0] : Fin 1 → Fin S2401x1.rank)
  shapeCasts_S2401x16_S49x49x16 : S2401x16.ShapeCasts S49x49x16
  transposes_S49x49x16_S16x49x49_2_0_1 : S49x49x16.Transposes [2, 0, 1] S16x49x49
  shapeCasts_S2048x49x512_S100352x512 : S2048x49x512.ShapeCasts S100352x512
  bitsLt_bf16_f32 : FTy.bits .bf16 < FTy.bits .f32
  shapeCasts_S1536_S1x1536 : S1536.ShapeCasts S1x1536
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1536x512_S1536x512_0_0 : ∀ a, (![0, 0] : Fin 2 → Nat) a + S1536x512.size a ≤ S1536x512.size a
  h_S1536x512 : 0 < S1536x512.numel
  shapeCasts_S1536x512_S1536x512 : S1536x512.ShapeCasts S1536x512
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  inb_S1024x1536_S1024x1536_0_0 : ∀ a, (![0, 0] : Fin 2 → Nat) a + S1024x1536.size a ≤ S1024x1536.size a
  h_S1024x1536 : 0 < S1024x1536.numel
  packedbf16_S1024x1536_S1024x1536_0_0 : (Rect.unit (s := S1024x1536) ![0, 0] S1024x1536.size inb_S1024x1536_S1024x1536_0_0).PackedRows (EltTy.packing .bf16)
  shapeCasts_S100352x1536_S2048x49x3x16x32 : S100352x1536.ShapeCasts S2048x49x3x16x32
  slices_S2048x49x3x16x32_S2048x49x1x16x32_0_0_0_0_0 : S2048x49x3x16x32.Slices ![0, 0, 0, 0, 0] S2048x49x1x16x32
  shapeCasts_S2048x49x1x16x32_S2048x49x16x32 : S2048x49x1x16x32.ShapeCasts S2048x49x16x32
  slices_S2048x49x3x16x32_S2048x49x1x16x32_0_0_1_0_0 : S2048x49x3x16x32.Slices ![0, 0, 1, 0, 0] S2048x49x1x16x32
  slices_S2048x49x3x16x32_S2048x49x1x16x32_0_0_2_0_0 : S2048x49x3x16x32.Slices ![0, 0, 2, 0, 0] S2048x49x1x16x32
  transposes_S2048x49x16x32_S2048x16x49x32_0_2_1_3 : S2048x49x16x32.Transposes [0, 2, 1, 3] S2048x16x49x32
  shapeCasts_S2048x16x49x32_S32768x49x32 : S2048x16x49x32.ShapeCasts S32768x49x32
  inb_S128x49x32_S128x49x32_0_0_0 : ∀ a, (![0, 0, 0] : Fin 3 → Nat) a + S128x49x32.size a ≤ S128x49x32.size a
  h_S128x49x32 : 0 < S128x49x32.numel
  shapeCasts_S128x49x32_S128x49x32 : S128x49x32.ShapeCasts S128x49x32
  shapeCasts_S128x49x49_S8x16x49x49 : S128x49x49.ShapeCasts S8x16x49x49
  inb_S16x49x49_S16x49x49_0_0_0 : ∀ a, (![0, 0, 0] : Fin 3 → Nat) a + S16x49x49.size a ≤ S16x49x49.size a
  h_S16x49x49 : 0 < S16x49x49.numel
  shapeCasts_S16x49x49_S16x49x49 : S16x49x49.ShapeCasts S16x49x49
  inb_S8x49x49_S8x49x49_0_0_0 : ∀ a, (![0, 0, 0] : Fin 3 → Nat) a + S8x49x49.size a ≤ S8x49x49.size a
  h_S8x49x49 : 0 < S8x49x49.numel
  shapeCasts_S16x49x49_S1x16x49x49 : S16x49x49.ShapeCasts S1x16x49x49
  broadcasts_S1x16x49x49_S8x16x49x49 : S1x16x49x49.Broadcasts S8x16x49x49
  shapeCasts_S8x49x49_S8x1x49x49 : S8x49x49.ShapeCasts S8x1x49x49
  broadcasts_S8x1x49x49_S8x16x49x49 : S8x1x49x49.Broadcasts S8x16x49x49
  shapeCasts_S8x16x49x49_S128x49x49 : S8x16x49x49.ShapeCasts S128x49x49
  reduces_S128x49x49_S128x49 : S128x49x49.Reduces [2] S128x49
  shapeCasts_S128x49_S128x49x1 : S128x49.ShapeCasts S128x49x1
  broadcasts_S128x49x1_S128x49x49 : S128x49x1.Broadcasts S128x49x49
  shapeCasts_S32768x49x32_S2048x16x49x32 : S32768x49x32.ShapeCasts S2048x16x49x32
  transposes_S2048x16x49x32_S2048x49x16x32_0_2_1_3 : S2048x16x49x32.Transposes [0, 2, 1, 3] S2048x49x16x32
  shapeCasts_S2048x49x16x32_S2048x49x512 : S2048x49x16x32.ShapeCasts S2048x49x512
  gather_S169x16_S2401x1_S2401x16_1_0_n_n_0_1_116_wf : GatherDims.WF S169x16 S2401x1 S2401x16 [1] [0] [] [0] [] 1 ![1, 16]
  dot_S1024x512_S1536x512_S1024x1536_1_1_0_0_n_n_wf : DotDims.WF S1024x512 S1536x512 S1024x1536 [1] [1] [0] [0] [] []
  dot_S128x49x32_S128x49x32_S128x49x49_2_2_1_1_0_0_wf : DotDims.WF S128x49x32 S128x49x32 S128x49x49 [2] [2] [1] [1] [0] [0]
  dot_S128x49x49_S128x49x32_S128x49x32_2_1_1_2_0_0_wf : DotDims.WF S128x49x49 S128x49x32 S128x49x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S100352x512.size a
  hwx0_0 : ∀ i : grid0.Coords, EltTy.bits .f32 = 32 ∨ (Rect.block (s := S100352x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x512.size a ≤ S1536x512.size a
  hwx0_1 : ∀ i : grid0.Coords, EltTy.bits .bf16 = 32 ∨ (Rect.block (s := S1536x512) S1536x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1536.size a ≤ S1x1536.size a
  hwx0_2 : ∀ i : grid0.Coords, EltTy.bits .f32 = 32 ∨ (Rect.block (s := S1x1536) S1x1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1536.size a ≤ S100352x1536.size a
  hwx0_3 : ∀ i : grid0.Coords, EltTy.bits .bf16 = 32 ∨ (Rect.block (s := S100352x1536) S1024x1536.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x49x32.size a ≤ S32768x49x32.size a
  hwx1_0 : ∀ i : grid1.Coords, EltTy.bits .bf16 = 32 ∨ (Rect.block (s := S32768x49x32) S128x49x32.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x49x32.size a ≤ S32768x49x32.size a
  hwx1_1 : ∀ i : grid1.Coords, EltTy.bits .bf16 = 32 ∨ (Rect.block (s := S32768x49x32) S128x49x32.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x49x32.size a ≤ S32768x49x32.size a
  hwx1_2 : ∀ i : grid1.Coords, EltTy.bits .bf16 = 32 ∨ (Rect.block (s := S32768x49x32) S128x49x32.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x49x49.size a ≤ S16x49x49.size a
  hwx1_3 : ∀ i : grid1.Coords, EltTy.bits .f32 = 32 ∨ (Rect.block (s := S16x49x49) S16x49x49.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x49x49.size a ≤ S64x49x49.size a
  hwx1_4 : ∀ i : grid1.Coords, EltTy.bits .f32 = 32 ∨ (Rect.block (s := S64x49x49) S8x49x49.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x49x32.size a ≤ S32768x49x32.size a
  hwx1_5 : ∀ i : grid1.Coords, EltTy.bits .f32 = 32 ∨ (Rect.block (s := S32768x49x32) S128x49x32.size (cc1_transform_5 i) (hinb1_5 i)).WholeWords (EltTy.packing .f32)

variable [Facts₀]

def gather_S169x16_S2401x1_S2401x16_1_0_n_n_0_1_116 : GatherDims S169x16 S2401x1 S2401x16 where
  offsetDims := [1]
  collapsedSliceDims := [0]
  operandBatchingDims := []
  startIndicesBatchingDims := []
  startIndexMap := [0]
  indexVectorDim := 1
  sliceSizes := ![1, 16]
  wf := gather_S169x16_S2401x1_S2401x16_1_0_n_n_0_1_116_wf
def dot_S1024x512_S1536x512_S1024x1536_1_1_0_0_n_n : DotDims S1024x512 S1536x512 S1024x1536 where
  lhsContracting := [1]
  rhsContracting := [1]
  lhsNonContracting := [0]
  rhsNonContracting := [0]
  lhsBatch := []
  rhsBatch := []
  wf := dot_S1024x512_S1536x512_S1024x1536_1_1_0_0_n_n_wf
def dot_S128x49x32_S128x49x32_S128x49x49_2_2_1_1_0_0 : DotDims S128x49x32 S128x49x32 S128x49x49 where
  lhsContracting := [2]
  rhsContracting := [2]
  lhsNonContracting := [1]
  rhsNonContracting := [1]
  lhsBatch := [0]
  rhsBatch := [0]
  wf := dot_S128x49x32_S128x49x32_S128x49x49_2_2_1_1_0_0_wf
def dot_S128x49x49_S128x49x32_S128x49x32_2_1_1_2_0_0 : DotDims S128x49x49 S128x49x32 S128x49x32 where
  lhsContracting := [2]
  rhsContracting := [1]
  lhsNonContracting := [1]
  rhsNonContracting := [2]
  lhsBatch := [0]
  rhsBatch := [0]
  wf := dot_S128x49x49_S128x49x32_S128x49x32_2_1_1_2_0_0_wf

abbrev win0_0 : Pipeline.Window sig grid0 :=
  Pipeline.Window.ofSpec (Memref.whole main_v10) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1536x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1024x1536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S128x49x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S128x49x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S128x49x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S16x49x49.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg1) S8x49x49.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v27) S128x49x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2048x49x512 : Shape := ⟨3, ![2048, 49, 512]⟩
abbrev S64x49x49 : Shape := ⟨3, ![64, 49, 49]⟩
abbrev S1536x512 : Shape := ⟨2, ![1536, 512]⟩
abbrev S1536 : Shape := ⟨1, ![1536]⟩
abbrev S169x16 : Shape := ⟨2, ![169, 16]⟩
abbrev S49x49 : Shape := ⟨2, ![49, 49]⟩
abbrev S2048x49x1536 : Shape := ⟨3, ![2048, 49, 1536]⟩
abbrev S1x1x1536 : Shape := ⟨3, ![1, 1, 1536]⟩
abbrev S2048x49x3x16x32 : Shape := ⟨5, ![2048, 49, 3, 16, 32]⟩
abbrev S3x2048x16x49x32 : Shape := ⟨5, ![3, 2048, 16, 49, 32]⟩
abbrev S1x2048x16x49x32 : Shape := ⟨5, ![1, 2048, 16, 49, 32]⟩
abbrev S2048x16x49x32 : Shape := ⟨4, ![2048, 16, 49, 32]⟩
abbrev S_ : Shape := ⟨0, ![]⟩
abbrev S2048x16x49x49 : Shape := ⟨4, ![2048, 16, 49, 49]⟩
abbrev S2401 : Shape := ⟨1, ![2401]⟩
abbrev S2401x1 : Shape := ⟨2, ![2401, 1]⟩
abbrev S2401x16 : Shape := ⟨2, ![2401, 16]⟩
abbrev S49x49x16 : Shape := ⟨3, ![49, 49, 16]⟩
abbrev S16x49x49 : Shape := ⟨3, ![16, 49, 49]⟩
abbrev S1x16x49x49 : Shape := ⟨4, ![1, 16, 49, 49]⟩
abbrev S32x64x16x49x49 : Shape := ⟨5, ![32, 64, 16, 49, 49]⟩
abbrev S1x64x1x49x49 : Shape := ⟨5, ![1, 64, 1, 49, 49]⟩
abbrev S2048x16x49 : Shape := ⟨3, ![2048, 16, 49]⟩
abbrev S2048x16x49x1 : Shape := ⟨4, ![2048, 16, 49, 1]⟩
abbrev S2048x49x16x32 : Shape := ⟨4, ![2048, 49, 16, 32]⟩

abbrev nBuf : Space → Nat
  | .hbm => 59
  | .vmem => 0
  | .smem => 0
  | _ => 0

abbrev bufTy : (tb : Table) → Fin (tcTables nBuf tb) → BufTy
  | .hbm, ⟨0, _⟩ => ⟨S2048x49x512, .f32⟩
  | .hbm, ⟨1, _⟩ => ⟨S64x49x49, .f32⟩
  | .hbm, ⟨2, _⟩ => ⟨S1536x512, .f32⟩
  | .hbm, ⟨3, _⟩ => ⟨S1536, .f32⟩
  | .hbm, ⟨4, _⟩ => ⟨S169x16, .f32⟩
  | .hbm, ⟨5, _⟩ => ⟨S49x49, .i32⟩
  | .hbm, ⟨6, _⟩ => ⟨S2048x49x1536, .f32⟩
  | .hbm, ⟨7, _⟩ => ⟨S1x1x1536, .f32⟩
  | .hbm, ⟨8, _⟩ => ⟨S2048x49x1536, .f32⟩
  | .hbm, ⟨9, _⟩ => ⟨S2048x49x1536, .f32⟩
  | .hbm, ⟨10, _⟩ => ⟨S2048x49x3x16x32, .f32⟩
  | .hbm, ⟨11, _⟩ => ⟨S3x2048x16x49x32, .f32⟩
  | .hbm, ⟨12, _⟩ => ⟨S1x2048x16x49x32, .f32⟩
  | .hbm, ⟨13, _⟩ => ⟨S2048x16x49x32, .f32⟩
  | .hbm, ⟨14, _⟩ => ⟨S1x2048x16x49x32, .f32⟩
  | .hbm, ⟨15, _⟩ => ⟨S2048x16x49x32, .f32⟩
  | .hbm, ⟨16, _⟩ => ⟨S1x2048x16x49x32, .f32⟩
  | .hbm, ⟨17, _⟩ => ⟨S2048x16x49x32, .f32⟩
  | .hbm, ⟨18, _⟩ => ⟨S_, .f32⟩
  | .hbm, ⟨19, _⟩ => ⟨S2048x16x49x32, .f32⟩
  | .hbm, ⟨20, _⟩ => ⟨S2048x16x49x32, .f32⟩
  | .hbm, ⟨21, _⟩ => ⟨S2048x16x49x49, .f32⟩
  | .hbm, ⟨22, _⟩ => ⟨S2401, .i32⟩
  | .hbm, ⟨23, _⟩ => ⟨S_, .i32⟩
  | .hbm, ⟨24, _⟩ => ⟨S2401, .i32⟩
  | .hbm, ⟨25, _⟩ => ⟨S2401, .i1⟩
  | .hbm, ⟨26, _⟩ => ⟨S_, .i32⟩
  | .hbm, ⟨27, _⟩ => ⟨S2401, .i32⟩
  | .hbm, ⟨28, _⟩ => ⟨S2401, .i32⟩
  | .hbm, ⟨29, _⟩ => ⟨S2401, .i32⟩
  | .hbm, ⟨30, _⟩ => ⟨S2401x1, .i32⟩
  | .hbm, ⟨31, _⟩ => ⟨S2401x16, .f32⟩
  | .hbm, ⟨32, _⟩ => ⟨S49x49x16, .f32⟩
  | .hbm, ⟨33, _⟩ => ⟨S16x49x49, .f32⟩
  | .hbm, ⟨34, _⟩ => ⟨S1x16x49x49, .f32⟩
  | .hbm, ⟨35, _⟩ => ⟨S2048x16x49x49, .f32⟩
  | .hbm, ⟨36, _⟩ => ⟨S2048x16x49x49, .f32⟩
  | .hbm, ⟨37, _⟩ => ⟨S32x64x16x49x49, .f32⟩
  | .hbm, ⟨38, _⟩ => ⟨S1x64x1x49x49, .f32⟩
  | .hbm, ⟨39, _⟩ => ⟨S32x64x16x49x49, .f32⟩
  | .hbm, ⟨40, _⟩ => ⟨S32x64x16x49x49, .f32⟩
  | .hbm, ⟨41, _⟩ => ⟨S2048x16x49x49, .f32⟩
  | .hbm, ⟨42, _⟩ => ⟨S_, .f32⟩
  | .hbm, ⟨43, _⟩ => ⟨S2048x16x49, .f32⟩
  | .hbm, ⟨44, _⟩ => ⟨S_, .f32⟩
  | .hbm, ⟨45, _⟩ => ⟨S2048x16x49, .f32⟩
  | .hbm, ⟨46, _⟩ => ⟨S2048x16x49, .f32⟩
  | .hbm, ⟨47, _⟩ => ⟨S2048x16x49x1, .f32⟩
  | .hbm, ⟨48, _⟩ => ⟨S2048x16x49x49, .f32⟩
  | .hbm, ⟨49, _⟩ => ⟨S2048x16x49x49, .f32⟩
  | .hbm, ⟨50, _⟩ => ⟨S2048x16x49x49, .f32⟩
  | .hbm, ⟨51, _⟩ => ⟨S_, .f32⟩
  | .hbm, ⟨52, _⟩ => ⟨S2048x16x49, .f32⟩
  | .hbm, ⟨53, _⟩ => ⟨S2048x16x49x1, .f32⟩
  | .hbm, ⟨54, _⟩ => ⟨S2048x16x49x49, .f32⟩
  | .hbm, ⟨55, _⟩ => ⟨S2048x16x49x49, .f32⟩
  | .hbm, ⟨56, _⟩ => ⟨S2048x16x49x32, .f32⟩
  | .hbm, ⟨57, _⟩ => ⟨S2048x49x16x32, .f32⟩
  | .hbm, ⟨58, _⟩ => ⟨S2048x49x512, .f32⟩
  | _, _ => ⟨S2048x49x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]

class Facts₀ : Prop where
  bcast_S1536_S1x1x1536_2 : S1536.BroadcastsInDim S1x1x1536 (![2] : Fin 1 → Fin S1x1x1536.rank)
  bcast_S1x1x1536_S2048x49x1536_0_1_2 : S1x1x1536.BroadcastsInDim S2048x49x1536 (![0, 1, 2] : Fin 3 → Fin S2048x49x1536.rank)
  shapeCasts_S2048x49x1536_S2048x49x3x16x32 : S2048x49x1536.ShapeCasts S2048x49x3x16x32
  transposes_S2048x49x3x16x32_S3x2048x16x49x32_2_0_3_1_4 : S2048x49x3x16x32.Transposes [2, 0, 3, 1, 4] S3x2048x16x49x32
  slices_S3x2048x16x49x32_S1x2048x16x49x32_0_0_0_0_0 : S3x2048x16x49x32.Slices ![0, 0, 0, 0, 0] S1x2048x16x49x32
  shapeCasts_S1x2048x16x49x32_S2048x16x49x32 : S1x2048x16x49x32.ShapeCasts S2048x16x49x32
  slices_S3x2048x16x49x32_S1x2048x16x49x32_1_0_0_0_0 : S3x2048x16x49x32.Slices ![1, 0, 0, 0, 0] S1x2048x16x49x32
  slices_S3x2048x16x49x32_S1x2048x16x49x32_2_0_0_0_0 : S3x2048x16x49x32.Slices ![2, 0, 0, 0, 0] S1x2048x16x49x32
  bcast_S_S2048x16x49x32 : S_.BroadcastsInDim S2048x16x49x32 (![] : Fin 0 → Fin S2048x16x49x32.rank)
  shapeCasts_S49x49_S2401 : S49x49.ShapeCasts S2401
  bcast_S_S2401 : S_.BroadcastsInDim S2401 (![] : Fin 0 → Fin S2401.rank)
  bcast_S2401_S2401x1_0 : S2401.BroadcastsInDim S2401x1 (![0] : Fin 1 → Fin S2401x1.rank)
  shapeCasts_S2401x16_S49x49x16 : S2401x16.ShapeCasts S49x49x16
  transposes_S49x49x16_S16x49x49_2_0_1 : S49x49x16.Transposes [2, 0, 1] S16x49x49
  bcast_S16x49x49_S1x16x49x49_1_2_3 : S16x49x49.BroadcastsInDim S1x16x49x49 (![1, 2, 3] : Fin 3 → Fin S1x16x49x49.rank)
  bcast_S1x16x49x49_S2048x16x49x49_0_1_2_3 : S1x16x49x49.BroadcastsInDim S2048x16x49x49 (![0, 1, 2, 3] : Fin 4 → Fin S2048x16x49x49.rank)
  shapeCasts_S2048x16x49x49_S32x64x16x49x49 : S2048x16x49x49.ShapeCasts S32x64x16x49x49
  bcast_S64x49x49_S1x64x1x49x49_1_3_4 : S64x49x49.BroadcastsInDim S1x64x1x49x49 (![1, 3, 4] : Fin 3 → Fin S1x64x1x49x49.rank)
  bcast_S1x64x1x49x49_S32x64x16x49x49_0_1_2_3_4 : S1x64x1x49x49.BroadcastsInDim S32x64x16x49x49 (![0, 1, 2, 3, 4] : Fin 5 → Fin S32x64x16x49x49.rank)
  shapeCasts_S32x64x16x49x49_S2048x16x49x49 : S32x64x16x49x49.ShapeCasts S2048x16x49x49
  reducesTo_S2048x16x49x49_S2048x16x49_d3 : S2048x16x49x49.ReducesTo [3] S2048x16x49
  h_S_ : 0 < S_.numel
  bcast_S_S2048x16x49 : S_.BroadcastsInDim S2048x16x49 (![] : Fin 0 → Fin S2048x16x49.rank)
  bcast_S2048x16x49_S2048x16x49x1_0_1_2 : S2048x16x49.BroadcastsInDim S2048x16x49x1 (![0, 1, 2] : Fin 3 → Fin S2048x16x49x1.rank)
  bcast_S2048x16x49x1_S2048x16x49x49_0_1_2_3 : S2048x16x49x1.BroadcastsInDim S2048x16x49x49 (![0, 1, 2, 3] : Fin 4 → Fin S2048x16x49x49.rank)
  transposes_S2048x16x49x32_S2048x49x16x32_0_2_1_3 : S2048x16x49x32.Transposes [0, 2, 1, 3] S2048x49x16x32
  shapeCasts_S2048x49x16x32_S2048x49x512 : S2048x49x16x32.ShapeCasts S2048x49x512
  dot_S2048x49x512_S1536x512_S2048x49x1536_2_1_01_0_n_n_wf : DotDims.WF S2048x49x512 S1536x512 S2048x49x1536 [2] [1] [0, 1] [0] [] []
  dot_S2048x16x49x32_S2048x16x49x32_S2048x16x49x49_3_3_2_2_01_01_wf : DotDims.WF S2048x16x49x32 S2048x16x49x32 S2048x16x49x49 [3] [3] [2] [2] [0, 1] [0, 1]
  gather_S169x16_S2401x1_S2401x16_1_0_n_n_0_1_116_wf : GatherDims.WF S169x16 S2401x1 S2401x16 [1] [0] [] [0] [] 1 ![1, 16]
  dot_S2048x16x49x49_S2048x16x49x32_S2048x16x49x32_3_2_2_3_01_01_wf : DotDims.WF S2048x16x49x49 S2048x16x49x32 S2048x16x49x32 [3] [2] [2] [3] [0, 1] [0, 1]

variable [Facts₀]

def dot_S2048x49x512_S1536x512_S2048x49x1536_2_1_01_0_n_n : DotDims S2048x49x512 S1536x512 S2048x49x1536 where
  lhsContracting := [2]
  rhsContracting := [1]
  lhsNonContracting := [0, 1]
  rhsNonContracting := [0]
  lhsBatch := []
  rhsBatch := []
  wf := dot_S2048x49x512_S1536x512_S2048x49x1536_2_1_01_0_n_n_wf
def dot_S2048x16x49x32_S2048x16x49x32_S2048x16x49x49_3_3_2_2_01_01 : DotDims S2048x16x49x32 S2048x16x49x32 S2048x16x49x49 where
  lhsContracting := [3]
  rhsContracting := [3]
  lhsNonContracting := [2]
  rhsNonContracting := [2]
  lhsBatch := [0, 1]
  rhsBatch := [0, 1]
  wf := dot_S2048x16x49x32_S2048x16x49x32_S2048x16x49x49_3_3_2_2_01_01_wf
def gather_S169x16_S2401x1_S2401x16_1_0_n_n_0_1_116 : GatherDims S169x16 S2401x1 S2401x16 where
  offsetDims := [1]
  collapsedSliceDims := [0]
  operandBatchingDims := []
  startIndicesBatchingDims := []
  startIndexMap := [0]
  indexVectorDim := 1
  sliceSizes := ![1, 16]
  wf := gather_S169x16_S2401x1_S2401x16_1_0_n_n_0_1_116_wf
def dot_S2048x16x49x49_S2048x16x49x32_S2048x16x49x32_3_2_2_3_01_01 : DotDims S2048x16x49x49 S2048x16x49x32 S2048x16x49x32 where
  lhsContracting := [3]
  rhsContracting := [2]
  lhsNonContracting := [2]
  rhsNonContracting := [3]
  lhsBatch := [0, 1]
  rhsBatch := [0, 1]
  wf := dot_S2048x16x49x49_S2048x16x49x32_S2048x16x49x32_3_2_2_3_01_01_wf

class Facts : Prop extends Facts₀ where

variable [Facts]
-- ==== Proof.KRun.lean ====
/-
  The kernel's program run from launch to return with its RESULT array named: every weakly fair execution ends,
  nothing faulting, with the result buffer holding the last boundary's contents there — the fold of the host
  operations after the second region over what that region's write-backs leave — and the five arguments as launched.
  The boundary contents are the ones the frame is built over (host stretch, first region, host stretch, second region,
  host stretch); only the final read-out differs: one more buffer is read against the final state.
-/
import proofs.«110809_j36352603193925_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments as launched. -/
theorem run_main : θ_run defs (onTc (τ := τ) (main (F := F))) ⟨m, fun _ => 0, ρ⟩ (fun r => ∀ c : Dev nD,
      r.2.mem ((c.tc : Thread nD τ).loc main_v30) = W5 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v30 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Run

end
-- ==== Proof.KHost.lean ====
/-
  The host operations around the kernel's two regions, read back. Before the first region: the input batch flattened
  to rows, the weight narrowed, the projection bias as one row, and the relative-position bias gathered from its table.
  Between the regions: the projected rows cut into queries, keys and values and moved to head-major rows. After the
  second region: the attention rows moved back to (window, token, channel).
-/
import proofs.«110809_j36352603193925_2_alg».proof.Proof.Gen.KernelIdeal.Frame
import Idealize.ShloMosaic.Lib.StableHlo.Run
import Idealize.ShloMosaic.PureOps.Ideal

noncomputable section

namespace Cert.KernelIdeal.Host

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The fixed table of relative-position indices, flattened, with negative entries wrapped by the table's length. -/
def relIdx : IVec S2401x1 32 :=
  let t : IVec S49x49 32 := fun i => lit0 (S49x49.rowMajor i)
  let v0 : IVec S2401 32 := shapeCast S2401 t shapeCasts_S49x49_S2401
  let v1 : IVec S2401 32 := broadcastInDim S2401 ![] bcast_S_S2401 (constantI S_ 32 0#32)
  let v2 : IVec S2401 1 := cmpi .slt v0 v1
  let v3 : IVec S2401 32 := broadcastInDim S2401 ![] bcast_S_S2401 (constantI S_ 32 169#32)
  let v4 : IVec S2401 32 := addi v0 v3
  let v5 : IVec S2401 32 := select v2 v4 v0
  broadcastInDim S2401x1 ![0] bcast_S2401_S2401x1_0 v5

/-- The bias: the table's rows at the fixed indices, as (head, token, token). -/
def biasK (tbl : FVec Ideal S169x16 .f32) : FVec Ideal S16x49x49 .f32 :=
  transpose S16x49x49 [2, 0, 1]
    (shapeCast S49x49x16 (Host.gather gather_S169x16_S2401x1_S2401x16_1_0_n_n_0_1_116 tbl relIdx) shapeCasts_S2401x16_S49x49x16)
    transposes_S49x49x16_S16x49x49_2_0_1

theorem V1_v10 : (V1 m ρ c main_v10 : S100352x512.Idx → EReal)
    = shapeCast S100352x512 (m ((c : Thread nD τ).loc main_arg0)) shapeCasts_S2048x49x512_S100352x512 := by
  show StableHlo.after hostOps0 (W0 m ρ c) (Proc.devRef .tc main_v10) = _
  after_results
  rfl

theorem V1_v11 : (V1 m ρ c main_v11 : S1536x512.Idx → EReal)
    = (truncf (F := Ideal) .bf16 (m ((c : Thread nD τ).loc main_arg2) : FVec Ideal S1536x512 .f32) bitsLt_bf16_f32 : FVec Ideal S1536x512 .bf16) := by
  show StableHlo.after hostOps0 (W0 m ρ c) (Proc.devRef .tc main_v11) = _
  after_results

theorem V1_v12 : (V1 m ρ c main_v12 : S1x1536.Idx → EReal)
    = shapeCast S1x1536 (m ((c : Thread nD τ).loc main_arg3)) shapeCasts_S1536_S1x1536 := by
  show StableHlo.after hostOps0 (W0 m ρ c) (Proc.devRef .tc main_v12) = _
  after_results
  rfl

theorem V1_v9 : (V1 m ρ c main_v9 : S16x49x49.Idx → EReal) = biasK (m ((c : Thread nD τ).loc main_arg4)) := by
  show StableHlo.after hostOps0 (W0 m ρ c) (Proc.devRef .tc main_v9) = _
  after_results
  rfl

theorem V1_arg1 : V1 m ρ c main_arg1 = m ((c : Thread nD τ).loc main_arg1) := by
  show StableHlo.after hostOps0 (W0 m ρ c) (Proc.devRef .tc main_arg1) = _
  after_results

/-- The second region finds the bias and the mask as the first stretch left them. -/
theorem V3_v9 : V3 m ρ c main_v9 = V1 m ρ c main_v9 := by
  show StableHlo.after hostOps1 (W2 m ρ c) (Proc.devRef .tc main_v9) = _
  after_results
  exact W2_of_ne m ρ c main_v9 (by decide)

theorem V3_arg1 : V3 m ρ c main_arg1 = V1 m ρ c main_arg1 := by
  show StableHlo.after hostOps1 (W2 m ρ c) (Proc.devRef .tc main_arg1) = _
  after_results
  exact W2_of_ne m ρ c main_arg1 (by decide)

/-- Queries, keys and values as rows (window · 16 + head, token, lane), from the first region's output rows. -/
theorem V3_v22 : (V3 m ρ c main_v22 : S32768x49x32.Idx → EReal)
    = shapeCast S32768x49x32 (transpose S2048x16x49x32 [0, 2, 1, 3] (shapeCast S2048x49x16x32
        (extractStridedSlice S2048x49x1x16x32 ![0, 0, 0, 0, 0]
          (shapeCast S2048x49x3x16x32 ((dat0 (F := Ideal) (V1 m ρ) c).arrAt 3 cfg0.N : S100352x1536.Idx → EReal) shapeCasts_S100352x1536_S2048x49x3x16x32)
          slices_S2048x49x3x16x32_S2048x49x1x16x32_0_0_0_0_0)
        shapeCasts_S2048x49x1x16x32_S2048x49x16x32) transposes_S2048x49x16x32_S2048x16x49x32_0_2_1_3)
      shapeCasts_S2048x16x49x32_S32768x49x32 := by
  show StableHlo.after hostOps1 (W2 m ρ c) (Proc.devRef .tc main_v22) = _
  after_results
  rw [show W2 m ρ c (Proc.devRef .tc main_v13) = _ from W2_arr m ρ c 3]
  rfl

theorem V3_v24 : (V3 m ρ c main_v24 : S32768x49x32.Idx → EReal)
    = shapeCast S32768x49x32 (transpose S2048x16x49x32 [0, 2, 1, 3] (shapeCast S2048x49x16x32
        (extractStridedSlice S2048x49x1x16x32 ![0, 0, 1, 0, 0]
          (shapeCast S2048x49x3x16x32 ((dat0 (F := Ideal) (V1 m ρ) c).arrAt 3 cfg0.N : S100352x1536.Idx → EReal) shapeCasts_S100352x1536_S2048x49x3x16x32)
          slices_S2048x49x3x16x32_S2048x49x1x16x32_0_0_1_0_0)
        shapeCasts_S2048x49x1x16x32_S2048x49x16x32) transposes_S2048x49x16x32_S2048x16x49x32_0_2_1_3)
      shapeCasts_S2048x16x49x32_S32768x49x32 := by
  show StableHlo.after hostOps1 (W2 m ρ c) (Proc.devRef .tc main_v24) = _
  after_results
  rw [show W2 m ρ c (Proc.devRef .tc main_v13) = _ from W2_arr m ρ c 3]
  rfl

theorem V3_v26 : (V3 m ρ c main_v26 : S32768x49x32.Idx → EReal)
    = shapeCast S32768x49x32 (transpose S2048x16x49x32 [0, 2, 1, 3] (shapeCast S2048x49x16x32
        (extractStridedSlice S2048x49x1x16x32 ![0, 0, 2, 0, 0]
          (shapeCast S2048x49x3x16x32 ((dat0 (F := Ideal) (V1 m ρ) c).arrAt 3 cfg0.N : S100352x1536.Idx → EReal) shapeCasts_S100352x1536_S2048x49x3x16x32)
          slices_S2048x49x3x16x32_S2048x49x1x16x32_0_0_2_0_0)
        shapeCasts_S2048x49x1x16x32_S2048x49x16x32) transposes_S2048x49x16x32_S2048x16x49x32_0_2_1_3)
      shapeCasts_S2048x16x49x32_S32768x49x32 := by
  show StableHlo.after hostOps1 (W2 m ρ c) (Proc.devRef .tc main_v26) = _
  after_results
  rw [show W2 m ρ c (Proc.devRef .tc main_v13) = _ from W2_arr m ρ c 3]
  rfl

/-- The result: the second region's output rows moved back to (window, token, channel). -/
theorem W5_v30 : (W5 m ρ c (Proc.devRef .tc main_v30) : S2048x49x512.Idx → EReal)
    = shapeCast S2048x49x512 (transpose S2048x49x16x32 [0, 2, 1, 3]
        (shapeCast S2048x16x49x32 ((dat1 (F := Ideal) (V3 m ρ) c).arrAt 5 cfg1.N : S32768x49x32.Idx → EReal) shapeCasts_S32768x49x32_S2048x16x49x32)
        transposes_S2048x16x49x32_S2048x49x16x32_0_2_1_3) shapeCasts_S2048x49x16x32_S2048x49x512 := by
  show StableHlo.after hostOps2 (W4 m ρ c) (Proc.devRef .tc main_v30) = _
  after_results
  rw [show W4 m ρ c (Proc.devRef .tc main_v27) = _ from W4_arr m ρ c 5]
  rfl

end Cert.KernelIdeal.Host

end
-- ==== Proof.LibLinearNT.lean ====
/- A dense layer whose weight is stored output-major, read at one entry, at the ideal values.

   For x : [m, k], w : [n, k] the product x · wᵀ at (a, b) is the sum over c of x[a, c] · w[b, c]. A tile computes it as
   a matrix product into the zero accumulator, the host as a `dot_general` contracting the last axis of both operands,
   either of a matrix or of a batch of matrices [B, m, k]; at the ideal values all of them are that one sum. The
   exponential linear unit y ↦ y if y > 0, eʸ − 1 otherwise is spelt by a tile with the exponential and a subtraction
   and by the host with `expm1` of a guarded argument times one: the same value on every extended real. -/
import Idealize.ShloMosaic.Lib.ValueIdx
import Idealize.ShloMosaic.Lib.ValueLayout
import Idealize.ShloMosaic.Lib.Pipeline.Value
import Idealize.ShloMosaic.PureOps.Ideal.Laws

noncomputable section

namespace Cert.Lib.LinearNT

open Idealize.ShloMosaic Idealize.ShloMosaic.ValueIdx

variable {B m k n : Nat}

/-! ## x · wᵀ for matrices -/

/-- The dimension numbers of [m, k] × [n, k] → [m, n]: contract axis 1 of both operands. -/
abbrev DNT (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

/-- The left operand's index at output (a, b) and contracted coordinate c is (a, c). -/
theorem lhsIdx_DNT (w : DotDims.WF ⟨2, ![m, k]⟩ ⟨2, ![n, k]⟩ ⟨2, ![m, n]⟩ [1] [1] [0] [0] [] []) (a : Fin m) (b : Fin n) (c : Fin k) :
    (DNT w).lhsIdx (ix2 a b) ((contrEquiv1 (DNT w) k rfl rfl).symm c) = ix2 a c := by
  have c2 := contrEquiv1_symm_val (DNT w) k rfl rfl c
  funext ax; apply Fin.ext
  match ax with
  | ⟨0, _⟩ => simp [DotDims.lhsIdx]; rfl
  | ⟨1, _⟩ => simp [DotDims.lhsIdx]; exact c2

/-- The right operand's index at output (a, b) and contracted coordinate c is (b, c). -/
theorem rhsIdx_DNT (w : DotDims.WF ⟨2, ![m, k]⟩ ⟨2, ![n, k]⟩ ⟨2, ![m, n]⟩ [1] [1] [0] [0] [] []) (a : Fin m) (b : Fin n) (c : Fin k) :
    (DNT w).rhsIdx (ix2 a b) ((contrEquiv1 (DNT w) k rfl rfl).symm c) = ix2 b c := by
  have c2 := contrEquiv1_symm_val (DNT w) k rfl rfl c
  funext ax; apply Fin.ext
  match ax with
  | ⟨0, _⟩ => simp [DotDims.rhsIdx]; rfl
  | ⟨1, _⟩ => simp [DotDims.rhsIdx]; exact c2

/-- A tile's product into the zero accumulator at (a, b). -/
theorem matmulNT_zero_at {φ₁ φ₂ : FTy} (w : DotDims.WF ⟨2, ![m, k]⟩ ⟨2, ![n, k]⟩ ⟨2, ![m, n]⟩ [1] [1] [0] [0] [] [])
    (prec : Option ContractPrecision) (A : FVec Ideal ⟨2, ![m, k]⟩ φ₁) (W : FVec Ideal ⟨2, ![n, k]⟩ φ₂) (a : Fin m) (b : Fin n) :
    matmul (DNT w) prec A W (constant ⟨2, ![m, n]⟩ .f32 0x00000000#32) (ix2 a b) = ∑ c : Fin k, A (ix2 a c) * W (ix2 b c) := by
  show FloatOps.matmul _ prec A W _ (ix2 a b) = _
  rw [Ideal.matmul_constant_zero_apply, ← Equiv.sum_comp (contrEquiv1 (DNT w) k rfl rfl).symm]
  refine Finset.sum_congr rfl fun c _ => ?_
  rw [lhsIdx_DNT, rhsIdx_DNT]

/-- The host's product of two matrices at (a, b). -/
theorem dotGeneralNT_at {φ₁ φ₂ : FTy} (w : DotDims.WF ⟨2, ![m, k]⟩ ⟨2, ![n, k]⟩ ⟨2, ![m, n]⟩ [1] [1] [0] [0] [] [])
    (prec : Option ContractPrecision) (A : FVec Ideal ⟨2, ![m, k]⟩ φ₁) (W : FVec Ideal ⟨2, ![n, k]⟩ φ₂) (a : Fin m) (b : Fin n) :
    Host.dotGeneral (DNT w) prec A W (ix2 a b) = ∑ c : Fin k, A (ix2 a c) * W (ix2 b c) := by
  show FloatOps.dotGeneral _ prec _ A W (ix2 a b) = _
  rw [Ideal.dotGeneral_apply, ← Equiv.sum_comp (contrEquiv1 (DNT w) k rfl rfl).symm]
  refine Finset.sum_congr rfl fun c _ => ?_
  rw [lhsIdx_DNT, rhsIdx_DNT]

/-! ## x · wᵀ for a batch of matrices -/

/-- The dimension numbers of [B, m, k] × [n, k] → [B, m, n]: contract the last axis of both operands. -/
abbrev D3 (w : DotDims.WF ⟨3, ![B, m, k]⟩ ⟨2, ![n, k]⟩ ⟨3, ![B, m, n]⟩ [2] [1] [0, 1] [0] [] []) :
    DotDims ⟨3, ![B, m, k]⟩ ⟨2, ![n, k]⟩ ⟨3, ![B, m, n]⟩ := ⟨[2], [1], [0, 1], [0], [], [], w⟩

theorem lhsIdx_D3 (w : DotDims.WF ⟨3, ![B, m, k]⟩ ⟨2, ![n, k]⟩ ⟨3, ![B, m, n]⟩ [2] [1] [0, 1] [0] [] [])
    (e : Fin B) (a : Fin m) (b : Fin n) (c : Fin k) :
    (D3 w).lhsIdx (ix3 e a b) ((contrEquiv1 (D3 w) k rfl rfl).symm c) = ix3 e a c := by
  have c2 := contrEquiv1_symm_val (D3 w) k rfl rfl c
  funext ax; apply Fin.ext
  match ax with
  | ⟨0, _⟩ => simp [DotDims.lhsIdx]; rfl
  | ⟨1, _⟩ => simp [DotDims.lhsIdx]; rfl
  | ⟨2, _⟩ => simp [DotDims.lhsIdx]; exact c2

theorem rhsIdx_D3 (w : DotDims.WF ⟨3, ![B, m, k]⟩ ⟨2, ![n, k]⟩ ⟨3, ![B, m, n]⟩ [2] [1] [0, 1] [0] [] [])
    (e : Fin B) (a : Fin m) (b : Fin n) (c : Fin k) :
    (D3 w).rhsIdx (ix3 e a b) ((contrEquiv1 (D3 w) k rfl rfl).symm c) = ix2 b c := by
  have c2 := contrEquiv1_symm_val (D3 w) k rfl rfl c
  funext ax; apply Fin.ext
  match ax with
  | ⟨0, _⟩ => simp [DotDims.rhsIdx]; rfl
  | ⟨1, _⟩ => simp [DotDims.rhsIdx]; exact c2

/-- The host's product of a batch of matrices with one weight at (e, a, b). -/
theorem dotGeneral3_at {φ₁ φ₂ : FTy} (w : DotDims.WF ⟨3, ![B, m, k]⟩ ⟨2, ![n, k]⟩ ⟨3, ![B, m, n]⟩ [2] [1] [0, 1] [0] [] [])
    (prec : Option ContractPrecision) (A : FVec Ideal ⟨3, ![B, m, k]⟩ φ₁) (W : FVec Ideal ⟨2, ![n, k]⟩ φ₂)
    (e : Fin B) (a : Fin m) (b : Fin n) :
    Host.dotGeneral (D3 w) prec A W (ix3 e a b) = ∑ c : Fin k, A (ix3 e a c) * W (ix2 b c) := by
  show FloatOps.dotGeneral _ prec _ A W (ix3 e a b) = _
  rw [Ideal.dotGeneral_apply, ← Equiv.sum_comp (contrEquiv1 (D3 w) k rfl rfl).symm]
  refine Finset.sum_congr rfl fun c _ => ?_
  rw [lhsIdx_D3, rhsIdx_D3]

/-! ## The exponential linear unit's two spellings -/

/-- Under one comparison bit `g` (of y against zero): the tile's `select g y (eʸ − 1)` and the host's
    `select g y (1 · expm1 (select g z y))` agree, whatever the guard's replacement value `z`. -/
theorem elu_spellings (g : BitVec 1) (y z : EReal) :
    Scalar.select g y (Ideal.exp y - 1) = Scalar.select g y (1 * (Ideal.exp (Scalar.select g z y) - 1)) := by
  rcases BitVec.eq_zero_or_eq_one g with h | h
  · subst h; rw [select_zero, select_zero, select_zero, one_mul]
  · subst h; rw [select_one, select_one]

/-! ## The layer's value at an entry, and the reshapes around a tile program -/

/-- The constant one. -/
theorem ofBits_one_f32 : Ideal.ofBits .f32 0x3F800000#32 = 1 := by
  simp [Ideal.ofBits, Ideal.ieee, -EReal.coe_mul]; norm_num

/-- The unit as a tile spells it: y where the comparison with zero holds, eʸ − 1 elsewhere. -/
def eluT (y : EReal) : EReal :=
  Scalar.select (FloatOps.cmpf (F := Ideal) (φ := .f32) .ogt y (Ideal.ofBits .f32 0x00000000#32)) y
    (Ideal.exp y - Ideal.ofBits .f32 0x3F800000#32)

/-- The pre-activation of a dense layer at the entry (r, q): the row r of x against the row q of w, plus the bias at q. -/
def pre {M K O : Nat} {φ₁ φ₂ : FTy} (x : FVec Ideal ⟨2, ![M, K]⟩ φ₁) (w : FVec Ideal ⟨2, ![O, K]⟩ φ₂) (b : FVec Ideal ⟨2, ![1, O]⟩ .f32)
    (r : Fin M) (q : Fin O) : EReal :=
  (∑ c : Fin K, x (ix2 r c) * w (ix2 q c)) + b (ix2 (0 : Fin 1) q)

/-- A dense layer with the unit, as one array. -/
def linE {M K O : Nat} {φ₁ φ₂ : FTy} (x : FVec Ideal ⟨2, ![M, K]⟩ φ₁) (w : FVec Ideal ⟨2, ![O, K]⟩ φ₂) (b : FVec Ideal ⟨2, ![1, O]⟩ .f32) :
    (⟨2, ![M, O]⟩ : Shape).Idx → EReal := fun i => eluT (pre x w b (i 0) (i 1))

/-- A dense layer without activation, as one array. -/
def linN {M K O : Nat} {φ₁ φ₂ : FTy} (x : FVec Ideal ⟨2, ![M, K]⟩ φ₁) (w : FVec Ideal ⟨2, ![O, K]⟩ φ₂) (b : FVec Ideal ⟨2, ![1, O]⟩ .f32) :
    (⟨2, ![M, O]⟩ : Shape).Idx → EReal := fun i => pre x w b (i 0) (i 1)

/-- A batch of matrices [B, n, K] flattened to [M, K] reads row e · n + a of the flat matrix at (e, a). -/
theorem flatten3_at {α : Type} {M K : Nat} (G : (⟨3, ![B, n, K]⟩ : Shape).Idx → α)
    (h : (⟨3, ![B, n, K]⟩ : Shape).ShapeCasts ⟨2, ![M, K]⟩) (e : Fin B) (a : Fin n) (c : Fin K) (r : Fin M)
    (hr : r.val = e.val * n + a.val) : shapeCast ⟨2, ![M, K]⟩ G h (ix2 r c) = G (ix3 e a c) := by
  refine shapeCast_apply G h (ix2 r c) (ix3 e a c) ?_
  rw [Shape.rowMajor_val_three, Shape.rowMajor_val_two]
  show (e.val * n + a.val) * K + c.val = r.val * K + c.val
  rw [hr]

/-- A flat matrix [M, O] cut back into a batch [B, n, O] reads (e, a) at row e · n + a. -/
theorem unflatten3_at {α : Type} {M O : Nat} (Y : (⟨2, ![M, O]⟩ : Shape).Idx → α)
    (h : (⟨2, ![M, O]⟩ : Shape).ShapeCasts ⟨3, ![B, n, O]⟩) (e : Fin B) (a : Fin n) (q : Fin O) (r : Fin M)
    (hr : r.val = e.val * n + a.val) : shapeCast ⟨3, ![B, n, O]⟩ Y h (ix3 e a q) = Y (ix2 r q) := by
  refine shapeCast_apply Y h (ix3 e a q) (ix2 r q) ?_
  rw [Shape.rowMajor_val_three, Shape.rowMajor_val_two]
  show r.val * O + q.val = (e.val * n + a.val) * O + q.val
  rw [hr]

/-- A bias vector [O] as the one-row matrix [1, O]. -/
theorem biasRow_at {α : Type} {O : Nat} (bv : (⟨1, ![O]⟩ : Shape).Idx → α) (h : (⟨1, ![O]⟩ : Shape).ShapeCasts ⟨2, ![1, O]⟩) (q : Fin O) :
    shapeCast ⟨2, ![1, O]⟩ bv h (ix2 (0 : Fin 1) q) = bv (ix1 q) := by
  refine shapeCast_apply bv h (ix2 (0 : Fin 1) q) (ix1 q) ?_
  rw [Shape.rowMajor_val_one, Shape.rowMajor_val_two]
  show q.val = 0 * O + q.val
  omega

/-- A bias vector [O] broadcast, by way of [1, 1, O], over a batch [B, n, O]. -/
theorem biasBatch_at {α : Type} {O : Nat} (bv : (⟨1, ![O]⟩ : Shape).Idx → α)
    (h1 : (⟨1, ![O]⟩ : Shape).BroadcastsInDim ⟨3, ![1, 1, O]⟩ ![2])
    (h2 : (⟨3, ![1, 1, O]⟩ : Shape).BroadcastsInDim ⟨3, ![B, n, O]⟩ ![0, 1, 2]) (e : Fin B) (a : Fin n) (q : Fin O) :
    broadcastInDim ⟨3, ![B, n, O]⟩ ![0, 1, 2] h2 (broadcastInDim ⟨3, ![1, 1, O]⟩ ![2] h1 bv) (ix3 e a q) = bv (ix1 q) := by
  rw [broadcastInDim_apply ![0, 1, 2] h2 _ (ix3 e a q) (ix3 (0 : Fin 1) (0 : Fin 1) q) (fun ax => by
    match ax with
    | ⟨0, _⟩ => rfl
    | ⟨1, _⟩ => rfl
    | ⟨2, _⟩ =>
      show q.val = if O = 1 then 0 else q.val
      split
      · have := q.isLt; omega
      · rfl)]
  exact broadcastInDim_apply ![2] h1 bv (ix3 (0 : Fin 1) (0 : Fin 1) q) (ix1 q) (fun ax => by
    match ax with
    | ⟨0, _⟩ =>
      show q.val = if O = 1 then 0 else q.val
      split
      · have := q.isLt; omega
      · rfl)

/-- A bias vector [O] broadcast along the rows of a matrix [M, O]. -/
theorem biasMat_at {α : Type} {M O : Nat} (bv : (⟨1, ![O]⟩ : Shape).Idx → α)
    (h1 : (⟨1, ![O]⟩ : Shape).BroadcastsInDim ⟨2, ![1, O]⟩ ![1])
    (h2 : (⟨2, ![1, O]⟩ : Shape).BroadcastsInDim ⟨2, ![M, O]⟩ ![0, 1]) (r : Fin M) (q : Fin O) :
    broadcastInDim ⟨2, ![M, O]⟩ ![0, 1] h2 (broadcastInDim ⟨2, ![1, O]⟩ ![1] h1 bv) (ix2 r q) = bv (ix1 q) := by
  rw [broadcastInDim_apply ![0, 1] h2 _ (ix2 r q) (ix2 (0 : Fin 1) q) (fun ax => by
    match ax with
    | ⟨0, _⟩ => rfl
    | ⟨1, _⟩ =>
      show q.val = if O = 1 then 0 else q.val
      split
      · have := q.isLt; omega
      · rfl)]
  exact broadcastInDim_apply ![1] h1 bv (ix2 (0 : Fin 1) q) (ix1 q) (fun ax => by
    match ax with
    | ⟨0, _⟩ =>
      show q.val = if O = 1 then 0 else q.val
      split
      · have := q.isLt; omega
      · rfl)

/-! ## The host's spelling of the unit, and a layer's two spellings as arrays -/

/-- A scalar broadcast over any shape reads the scalar. -/
theorem bcast0_at {α : Type} {s : Shape} (h : (⟨0, ![]⟩ : Shape).BroadcastsInDim s ![]) (v : (⟨0, ![]⟩ : Shape).Idx → α) (i : s.Idx) :
    broadcastInDim s ![] h v i = v ix0 :=
  broadcastInDim_apply ![] h v i ix0 (fun a => a.elim0)

/-- The exponential linear unit as the host spells it on an array: the comparison with a broadcast zero taken twice,
    `expm1` of the argument guarded by the second, times a broadcast one, selected by the first. -/
def eluH {s : Shape} (h : (⟨0, ![]⟩ : Shape).BroadcastsInDim s ![]) (x : FVec Ideal s .f32) : FVec Ideal s .f32 :=
  select (cmpf .ogt x (broadcastInDim s ![] h (constant (F := Ideal) ⟨0, ![]⟩ .f32 0x00000000#32))) x
    (mulf (broadcastInDim s ![] h (constant (F := Ideal) ⟨0, ![]⟩ .f32 0x3F800000#32))
      (Host.expm1 (select (cmpf .ogt x (broadcastInDim s ![] h (constant (F := Ideal) ⟨0, ![]⟩ .f32 0x00000000#32)))
        (broadcastInDim s ![] h (id (constant (F := Ideal) ⟨0, ![]⟩ .f32 0x00000000#32))) x)))

/-- At every entry the host's spelling is the tile's. -/
theorem eluH_at {s : Shape} (h : (⟨0, ![]⟩ : Shape).BroadcastsInDim s ![]) (x : FVec Ideal s .f32) (i : s.Idx) :
    eluH h x i = eluT (x i) := by
  unfold eluH eluT
  rw [select_apply, cmpf_apply, mulf_apply, bcast0_at, bcast0_at]
  show Scalar.select _ (x i) (Ideal.ofBits .f32 0x3F800000#32 * (Ideal.exp (Scalar.select _ (broadcastInDim s ![] h (id (constant (F := Ideal) ⟨0, ![]⟩ .f32 0x00000000#32)) i) (x i)) - 1)) = _
  rw [ofBits_one_f32]
  exact (elu_spellings _ (x i) _).symm

theorem row_lt {e a : Nat} (he : e < B) (ha : a < n) : e * n + a < B * n :=
  calc e * n + a < e * n + n := Nat.add_lt_add_left ha _
    _ = (e + 1) * n := (Nat.succ_mul e n).symm
    _ ≤ B * n := Nat.mul_le_mul_right n he

/-- A spiral-convolution layer with the unit: the tile program's array of the flattened, narrowed operands, cut back into
    the batch, is the host's `dot_general` plus the broadcast bias under its unit. -/
theorem layerE_batch {M K O : Nat} (hM : M = B * n)
    (G : FVec Ideal ⟨3, ![B, n, K]⟩ .f32) (W : FVec Ideal ⟨2, ![O, K]⟩ .f32) (bv : FVec Ideal ⟨1, ![O]⟩ .f32)
    (hflat : (⟨3, ![B, n, K]⟩ : Shape).ShapeCasts ⟨2, ![M, K]⟩) (hbf : FTy.bits .bf16 < FTy.bits .f32)
    (hrow : (⟨1, ![O]⟩ : Shape).ShapeCasts ⟨2, ![1, O]⟩) (hun : (⟨2, ![M, O]⟩ : Shape).ShapeCasts ⟨3, ![B, n, O]⟩)
    (wd : DotDims.WF ⟨3, ![B, n, K]⟩ ⟨2, ![O, K]⟩ ⟨3, ![B, n, O]⟩ [2] [1] [0, 1] [0] [] []) (prec : Option ContractPrecision)
    (h1 : (⟨1, ![O]⟩ : Shape).BroadcastsInDim ⟨3, ![1, 1, O]⟩ ![2])
    (h2 : (⟨3, ![1, 1, O]⟩ : Shape).BroadcastsInDim ⟨3, ![B, n, O]⟩ ![0, 1, 2])
    (h0 : (⟨0, ![]⟩ : Shape).BroadcastsInDim ⟨3, ![B, n, O]⟩ ![]) :
    shapeCast ⟨3, ![B, n, O]⟩ (linE (truncf .bf16 (shapeCast ⟨2, ![M, K]⟩ G hflat) hbf) (truncf .bf16 W hbf) (shapeCast ⟨2, ![1, O]⟩ bv hrow)) hun
      = eluH h0 (addf (Host.dotGeneral (D3 wd) prec G W) (broadcastInDim ⟨3, ![B, n, O]⟩ ![0, 1, 2] h2 (broadcastInDim ⟨3, ![1, 1, O]⟩ ![2] h1 bv))) := by
  funext i
  obtain ⟨e, a, q, rfl⟩ : ∃ (e : Fin B) (a : Fin n) (q : Fin O), i = ix3 e a q := ⟨i 0, i 1, i 2, eq_ix3 i⟩
  have hr : e.val * n + a.val < M := hM ▸ row_lt e.isLt a.isLt
  rw [eluH_at, addf_apply, dotGeneral3_at, biasBatch_at, unflatten3_at _ hun e a q ⟨e.val * n + a.val, hr⟩ rfl]
  show eluT (pre _ _ _ (⟨e.val * n + a.val, hr⟩ : Fin M) q) = _
  refine congrArg eluT ?_
  unfold pre
  refine congr (congrArg HAdd.hAdd (Finset.sum_congr rfl fun c _ => ?_)) (biasRow_at bv hrow q)
  rw [truncf_apply, truncf_apply, flatten3_at G hflat e a c ⟨e.val * n + a.val, hr⟩ rfl]

/-- The same layer without the unit. -/
theorem layerN_batch {M K O : Nat} (hM : M = B * n)
    (G : FVec Ideal ⟨3, ![B, n, K]⟩ .f32) (W : FVec Ideal ⟨2, ![O, K]⟩ .f32) (bv : FVec Ideal ⟨1, ![O]⟩ .f32)
    (hflat : (⟨3, ![B, n, K]⟩ : Shape).ShapeCasts ⟨2, ![M, K]⟩) (hbf : FTy.bits .bf16 < FTy.bits .f32)
    (hrow : (⟨1, ![O]⟩ : Shape).ShapeCasts ⟨2, ![1, O]⟩) (hun : (⟨2, ![M, O]⟩ : Shape).ShapeCasts ⟨3, ![B, n, O]⟩)
    (wd : DotDims.WF ⟨3, ![B, n, K]⟩ ⟨2, ![O, K]⟩ ⟨3, ![B, n, O]⟩ [2] [1] [0, 1] [0] [] []) (prec : Option ContractPrecision)
    (h1 : (⟨1, ![O]⟩ : Shape).BroadcastsInDim ⟨3, ![1, 1, O]⟩ ![2])
    (h2 : (⟨3, ![1, 1, O]⟩ : Shape).BroadcastsInDim ⟨3, ![B, n, O]⟩ ![0, 1, 2]) :
    shapeCast ⟨3, ![B, n, O]⟩ (linN (truncf .bf16 (shapeCast ⟨2, ![M, K]⟩ G hflat) hbf) (truncf .bf16 W hbf) (shapeCast ⟨2, ![1, O]⟩ bv hrow)) hun
      = addf (Host.dotGeneral (D3 wd) prec G W) (broadcastInDim ⟨3, ![B, n, O]⟩ ![0, 1, 2] h2 (broadcastInDim ⟨3, ![1, 1, O]⟩ ![2] h1 bv)) := by
  funext i
  obtain ⟨e, a, q, rfl⟩ : ∃ (e : Fin B) (a : Fin n) (q : Fin O), i = ix3 e a q := ⟨i 0, i 1, i 2, eq_ix3 i⟩
  have hr : e.val * n + a.val < M := hM ▸ row_lt e.isLt a.isLt
  rw [addf_apply, dotGeneral3_at, biasBatch_at, unflatten3_at _ hun e a q ⟨e.val * n + a.val, hr⟩ rfl]
  show pre _ _ _ (⟨e.val * n + a.val, hr⟩ : Fin M) q = _
  unfold pre
  refine congr (congrArg HAdd.hAdd (Finset.sum_congr rfl fun c _ => ?_)) (biasRow_at bv hrow q)
  rw [truncf_apply, truncf_apply, flatten3_at G hflat e a c ⟨e.val * n + a.val, hr⟩ rfl]

/-- A dense layer on a matrix, without the unit: the tile program's array of the narrowed operands is the host's
    `dot_general` plus the bias broadcast along the rows. -/
theorem layerN_mat {M K O : Nat}
    (X : FVec Ideal ⟨2, ![M, K]⟩ .f32) (W : FVec Ideal ⟨2, ![O, K]⟩ .f32) (bv : FVec Ideal ⟨1, ![O]⟩ .f32)
    (hbf : FTy.bits .bf16 < FTy.bits .f32) (hrow : (⟨1, ![O]⟩ : Shape).ShapeCasts ⟨2, ![1, O]⟩)
    (wd : DotDims.WF ⟨2, ![M, K]⟩ ⟨2, ![O, K]⟩ ⟨2, ![M, O]⟩ [1] [1] [0] [0] [] []) (prec : Option ContractPrecision)
    (h1 : (⟨1, ![O]⟩ : Shape).BroadcastsInDim ⟨2, ![1, O]⟩ ![1])
    (h2 : (⟨2, ![1, O]⟩ : Shape).BroadcastsInDim ⟨2, ![M, O]⟩ ![0, 1]) :
    linN (truncf .bf16 X hbf) (truncf .bf16 W hbf) (shapeCast ⟨2, ![1, O]⟩ bv hrow)
      = addf (Host.dotGeneral (DNT wd) prec X W) (broadcastInDim ⟨2, ![M, O]⟩ ![0, 1] h2 (broadcastInDim ⟨2, ![1, O]⟩ ![1] h1 bv)) := by
  funext i
  obtain ⟨r, q, rfl⟩ : ∃ (r : Fin M) (q : Fin O), i = ix2 r q := ⟨i 0, i 1, eq_ix2 i⟩
  rw [addf_apply, dotGeneralNT_at, biasMat_at]
  show pre _ _ _ r q = _
  unfold pre
  refine congr (congrArg HAdd.hAdd (Finset.sum_congr rfl fun c _ => ?_)) (biasRow_at bv hrow q)
  rw [truncf_apply, truncf_apply]

end Cert.Lib.LinearNT

end
-- ==== Proof.Region0.lean ====
/-
  The projection region as one array. Each of the 98 grid points reads rows [1024 t, 1024 t + 1024) of the
  input x : [100352, 512], the whole weight w : [1536, 512] and the one-row bias b : [1, 1536], and writes back the
  same rows of the result: at (p, q) the sum over c of x[p, c] · w[q, c], plus b[0, q] (the format changes are the
  identity on the extended reals). The 98 row blocks tile the result's rows, so the array after the region is that
  function of the three arrays as the region finds them, whatever they hold.
-/
import proofs.«110809_j36352603193925_2_alg».proof.Proof.Gen.KernelIdeal.Frame
import proofs.«110809_j36352603193925_2_alg».proof.Proof.LibLinearNT
import Idealize.ShloMosaic.Lib.Pipeline.Value
import Idealize.ShloMosaic.Lib.ValueLayout

set_option maxRecDepth 16384

noncomputable section

namespace Cert.KernelIdeal.Proj

open Idealize.ShloMosaic Idealize.ShloMosaic.ValueIdx Idealize.ShloMosaic.TcCoe Idealize.SL.Sem
open Idealize.ShloMosaic.Pipeline (Dat)
open Cert.KernelIdeal Cert.KernelIdeal.Gen

/-- The matrix product's dimension numbers: contract axis 1 of both operands. -/
theorem dot_eq : dot_S1024x512_S1536x512_S1024x1536_1_1_0_0_n_n
    = Cert.Lib.LinearNT.DNT (m := 1024) (k := 512) (n := 1536) dot_S1024x512_S1536x512_S1024x1536_1_1_0_0_n_n_wf := rfl

/-- One block's payload at (p, q): row p of the x block against row q of the weight, plus the bias at q. -/
theorem pay_at (x0 : FVec Ideal S1024x512 .f32) (x1 : FVec Ideal S1536x512 .bf16) (x2 : FVec Ideal S1x1536 .f32)
    (p : Fin 1024) (q : Fin 1536) :
    k0_pay1 (F := Ideal) x0 x1 x2 (ix2 p q) = (∑ c : Fin 512, x0 (ix2 p c) * x1 (ix2 q c)) + x2 (ix2 (0 : Fin 1) q) := by
  unfold k0_pay1
  rw [shapeCast_self, shapeCast_self, shapeCast_self, truncf_apply, addf_apply, broadcastTo_1b_ab_apply, dot_eq,
    Cert.Lib.LinearNT.matmulNT_zero_at]
  refine congrArg (· + _) (Finset.sum_congr rfl fun c _ => ?_)
  rw [truncf_apply]

/-- One block's payload at an index, as the whole arrays' layer at the index under it: the x block holds rows
    [1024 T, 1024 T + 1024) of X, the other two blocks are the whole weight and bias. -/
theorem blk_at (x0 : FVec Ideal S1024x512 .f32) (x1 : FVec Ideal S1536x512 .bf16) (x2 : FVec Ideal S1x1536 .f32)
    (X : FVec Ideal S100352x512 .f32) (W : FVec Ideal S1536x512 .bf16) (B : FVec Ideal S1x1536 .f32)
    (j : S1024x1536.Idx) (i : S100352x1536.Idx) (T : Nat)
    (h0 : ∀ (y : S1024x512.Idx) (k : S100352x512.Idx), (k 0).val = T * 1024 + (y 0).val → (k 1).val = (y 1).val → x0 y = X k)
    (h1 : x1 = W) (h2 : x2 = B)
    (hi0 : (i 0).val = T * 1024 + (j 0).val) (hi1 : (i 1).val = (j 1).val) :
    k0_pay1 (F := Ideal) x0 x1 x2 j = Cert.Lib.LinearNT.linN (truncf .bf16 X bitsLt_bf16_f32) W B i := by
  obtain ⟨p, q, rfl⟩ : ∃ (p : Fin 1024) (q : Fin 1536), j = ix2 p q := ⟨j 0, j 1, eq_ix2 j⟩
  obtain ⟨r, s, rfl⟩ : ∃ (r : Fin 100352) (s : Fin 1536), i = ix2 r s := ⟨i 0, i 1, eq_ix2 i⟩
  obtain rfl : s = q := Fin.ext hi1
  subst h1 h2
  rw [pay_at]
  show _ = Cert.Lib.LinearNT.pre _ _ _ r s
  unfold Cert.Lib.LinearNT.pre
  refine congrArg (· + _) (Finset.sum_congr rfl fun c _ => ?_)
  rw [truncf_apply, h0 (ix2 p c) (ix2 r c) hi0 rfl]

variable (V : (c : Dev nD) → (b : Ref sig .tc) → Buf (Elt Ideal) ((c : Thread nD τ).loc b))

/-- The result array: the dense layer of the three arrays as the region finds them. -/
abbrev projOut (c : Dev nD) : S100352x1536.Idx → EReal :=
  Cert.Lib.LinearNT.linN (φ₂ := .bf16) (truncf .bf16 (V c main_v10 : FVec Ideal S100352x512 .f32) bitsLt_bf16_f32)
    (V c main_v11 : FVec Ideal S1536x512 .bf16) (V c main_v12 : FVec Ideal S1x1536 .f32)

theorem zero_off : (![0, 0] : Fin 2 → Nat) = fun _ => 0 := funext fun a => by fin_cases a <;> rfl

/-- The block indices over the grid: the x window and the result window move down the rows with the point, the weight
    and the bias stay. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the result array. -/
theorem written_back (c : Dev nD) (t : Fin cfg0.N) :
    (dat0 (F := Ideal) V c).flushed 3 t = ((cfg0.win 3).blk t).view.read (Elt Ideal) (projOut V c) := by
  show (cfg0.win 3).cut (grid0.coords t) ((dat0 (F := Ideal) V c).after 3 t) = _
  rw [after0_3]
  unfold out0_3
  rw [View.canon_unit_zero zero_off]
  simp only [View.ld_unit_zero (S := S1024x512) zero_off, View.ld_unit_zero (S := S1536x512) zero_off, View.ld_unit_zero (S := S1x1536) zero_off]
  obtain ⟨e00, e01, e10, e11, e20, e21, e30, e31⟩ := block_index t
  have h0 : ∀ (y : S1024x512.Idx) (k : S100352x512.Idx), (k 0).val = t.val * 1024 + (y 0).val → (k 1).val = (y 1).val →
      (iblk0 V c 0 t : FVec Ideal S1024x512 .f32) y = (V c main_v10 : FVec Ideal S100352x512 .f32) k := by
    intro y k hk0 hk1
    show V c main_v10 (((cfg0.win 0).blk t).view.emb y) = V c main_v10 k
    refine congrArg _ (funext fun a => Fin.ext ?_)
    match a with
    | ⟨0, _⟩ => show win0_0.index t (0 : Fin 2) * 1024 + 1 * (y 0).val = (k 0).val; rw [e00, hk0]; omega
    | ⟨1, _⟩ => show win0_0.index t (1 : Fin 2) * 512 + 1 * (y 1).val = (k 1).val; rw [e01, hk1]; omega
  have h1 : (iblk0 V c 1 t : FVec Ideal S1536x512 .bf16) = (V c main_v11 : FVec Ideal S1536x512 .bf16) := by
    funext y
    show V c main_v11 (((cfg0.win 1).blk t).view.emb y) = V c main_v11 y
    refine congrArg _ (funext fun a => Fin.ext ?_)
    match a with
    | ⟨0, _⟩ => show win0_1.index t (0 : Fin 2) * 1536 + 1 * (y 0).val = (y 0).val; rw [e10]; omega
    | ⟨1, _⟩ => show win0_1.index t (1 : Fin 2) * 512 + 1 * (y 1).val = (y 1).val; rw [e11]; omega
  have h2 : (iblk0 V c 2 t : FVec Ideal S1x1536 .f32) = (V c main_v12 : FVec Ideal S1x1536 .f32) := by
    funext y
    show V c main_v12 (((cfg0.win 2).blk t).view.emb y) = V c main_v12 y
    refine congrArg _ (funext fun a => Fin.ext ?_)
    match a with
    | ⟨0, _⟩ => show win0_2.index t (0 : Fin 2) * 1 + 1 * (y 0).val = (y 0).val; rw [e20]; omega
    | ⟨1, _⟩ => show win0_2.index t (1 : Fin 2) * 1536 + 1 * (y 1).val = (y 1).val; rw [e21]; omega
  funext j
  refine blk_at (iblk0 V c 0 t) (iblk0 V c 1 t) (iblk0 V c 2 t) (V c main_v10) (V c main_v11) (V c main_v12) j
    (((cfg0.win 3).blk t).view.emb j) t.val h0 h1 h2 ?_ ?_
  · show win0_3.index t (0 : Fin 2) * 1024 + 1 * (j 0).val = t.val * 1024 + (j 0).val; rw [e30]; omega
  · show win0_3.index t (1 : Fin 2) * 1536 + 1 * (j 1).val = (j 1).val; rw [e31]; omega

/-- An index of the result array is in point t's block iff each coordinate is in the block's range on its axis. -/
theorem mem_row_block (t : Fin cfg0.N) (i : S100352x1536.Idx) :
    i ∈ ((cfg0.win 3).blk t).view.set ↔ ∀ a : Fin 2, win0_3.index t a * S1024x1536.size a ≤ (i a).val
      ∧ (i a).val < win0_3.index t a * S1024x1536.size a + S1024x1536.size a := by
  show i ∈ ((View.whole main_v13).slice (win0_3.rect t)).set ↔ _
  rw [View.set_slice_whole, Rect.mem_set_unit]
  exact Iff.rfl

/-- The 98 row blocks tile the result: row r is in the block of point r / 1024. -/
theorem rows_cover (i : S100352x1536.Idx) :
    ∃ t : Fin cfg0.N, (cfg0.win 3).flush t = true ∧ i ∈ ((cfg0.win 3).blk t).view.set := by
  have hi0 : (i 0).val < 100352 := (i 0).isLt
  have hi1 : (i 1).val < 1536 := (i 1).isLt
  have hN : cfg0.N = 98 := N_0
  obtain ⟨t, ht⟩ : ∃ t : Fin cfg0.N, t.val = (i 0).val / 1024 := ⟨⟨(i 0).val / 1024, by rw [hN]; omega⟩, rfl⟩
  obtain ⟨-, -, -, -, -, -, e30, e31⟩ := block_index t
  refine ⟨t, flush0_3 t, ?_⟩
  rw [mem_row_block]
  intro a
  match a with
  | ⟨0, _⟩ =>
    show win0_3.index t (0 : Fin 2) * 1024 ≤ (i 0).val ∧ (i 0).val < win0_3.index t (0 : Fin 2) * 1024 + 1024
    rw [e30, ht]; omega
  | ⟨1, _⟩ =>
    show win0_3.index t (1 : Fin 2) * 1536 ≤ (i 1).val ∧ (i 1).val < win0_3.index t (1 : Fin 2) * 1536 + 1536
    rw [e31]; omega

/-- The result array after the region is the dense layer of the three arrays as the region finds them. -/
theorem region0_value (c : Dev nD) :
    ((dat0 (F := Ideal) V c).arrAt 3 cfg0.N : S100352x1536.Idx → EReal)
      = Cert.Lib.LinearNT.linN (φ₂ := .bf16) (truncf .bf16 (V c main_v10 : FVec Ideal S100352x512 .f32) bitsLt_bf16_f32)
          (V c main_v11 : FVec Ideal S1536x512 .bf16) (V c main_v12 : FVec Ideal S1x1536 .f32) :=
  (dat0 (F := Ideal) V c).arrAt_eq_of_cover 3 (projOut V c) (fun t _ => written_back V c t) rows_cover

end Cert.KernelIdeal.Proj

end
-- ==== Proof.Spec.lean ====
/-
  Windowed multi-head attention over windows of 49 tokens, 16 heads of width 32, as functions of the projected
  array Y (batch window b, token n, part j ∈ {query, key, value}, head h, lane d), the relative-position bias
  (head, token, token) and the additive mask (window class b mod 64, token, token).

  For one window and head the logits are  (Σ_d q[n,d]·k[m,d])·s + bias[h,n,m] + mask[b mod 64,n,m]  when the scale s
  multiplies the contracted product, and  Σ_d (q[n,d]·s)·k[m,d] + bias + mask  when it multiplies the queries first.
  On real numbers the two agree (a factor moves across a finite sum); on the extended reals that needs the entries
  and the scale to be real. Each row of logits is then normalised by the soft maximum taken in its stable form
  (subtract the row's maximum, exponentiate, divide by the row's sum) and applied to the values.
-/
import Idealize.ShloMosaic.Lib.ValueIdx
import Idealize.ShloMosaic.PureOps.Ideal.Laws

noncomputable section

namespace Cert.WinAttn

open Idealize.ShloMosaic Idealize.ShloMosaic.ValueIdx

/-- The projected array: window, token, part (0 query, 1 key, 2 value), head, lane. -/
abbrev SY : Shape := ⟨5, ![2048, 49, 3, 16, 32]⟩
/-- The bias: head, token, token. -/
abbrev SB : Shape := ⟨3, ![16, 49, 49]⟩
/-- The mask: window class, token, token. -/
abbrev SM : Shape := ⟨3, ![64, 49, 49]⟩
/-- The result: window, token, channel = head · 32 + lane. -/
abbrev SO : Shape := ⟨3, ![2048, 49, 512]⟩
/-- Queries, keys, values, and the attention output, with window and head flattened: row = window · 16 + head. -/
abbrev SQ : Shape := ⟨3, ![32768, 49, 32]⟩

/-- The scale 1/√32 as the single-precision word both programs carry. -/
def scl : EReal := Ideal.ofBits .f32 0x3E3504F3#32
/-- The word of minus infinity, from which a row's maximum is folded. -/
def negInf : EReal := Ideal.ofBits .f32 0xFF800000#32

/-- A row's maximum, folded from minus infinity. -/
def rowMax (L : Fin 49 → EReal) : EReal := (Finset.univ : Finset (Fin 49)).fold max negInf L

/-- One head: the soft maximum of each row of logits, applied to the values. -/
def head (L : Fin 49 → Fin 49 → EReal) (v : Fin 49 → Fin 32 → EReal) (n : Fin 49) (d : Fin 32) : EReal :=
  ∑ m : Fin 49, Ideal.div (Ideal.exp (L n m - rowMax (L n))) (∑ m' : Fin 49, Ideal.exp (L n m' - rowMax (L n))) * v m d

/-- The window class of window b. -/
def wcls (b : Fin 2048) : Fin 64 := ⟨b.val % 64, Nat.mod_lt _ (by decide)⟩
/-- The head of channel c, and its lane. -/
def chHead (c : Fin 512) : Fin 16 := ⟨c.val / 32, by have := c.isLt; omega⟩
def chLane (c : Fin 512) : Fin 32 := ⟨c.val % 32, Nat.mod_lt _ (by decide)⟩

/-- Logits with the scale applied to the contracted product. -/
def logitsK (Y : SY.Idx → EReal) (bias : SB.Idx → EReal) (mask : SM.Idx → EReal) (b : Fin 2048) (h : Fin 16)
    (n m : Fin 49) : EReal :=
  ((∑ d : Fin 32, Y (ix5 b n (0 : Fin 3) h d) * Y (ix5 b m (1 : Fin 3) h d)) * scl + bias (ix3 h n m)) + mask (ix3 (wcls b) n m)

/-- Logits with the scale applied to the queries. -/
def logitsR (Y : SY.Idx → EReal) (bias : SB.Idx → EReal) (mask : SM.Idx → EReal) (b : Fin 2048) (h : Fin 16)
    (n m : Fin 49) : EReal :=
  ((∑ d : Fin 32, (Y (ix5 b n (0 : Fin 3) h d) * scl) * Y (ix5 b m (1 : Fin 3) h d)) + bias (ix3 h n m)) + mask (ix3 (wcls b) n m)

/-- The attention output as one array, from either logits. -/
def outOf (L : Fin 2048 → Fin 16 → Fin 49 → Fin 49 → EReal) (Y : SY.Idx → EReal) : SO.Idx → EReal := fun i =>
  head (L (i 0) (chHead (i 2))) (fun m d => Y (ix5 (i 0) m (2 : Fin 3) (chHead (i 2)) d)) (i 1) (chLane (i 2))

def outK (Y : SY.Idx → EReal) (bias : SB.Idx → EReal) (mask : SM.Idx → EReal) : SO.Idx → EReal :=
  outOf (logitsK Y bias mask) Y
def outR (Y : SY.Idx → EReal) (bias : SB.Idx → EReal) (mask : SM.Idx → EReal) : SO.Idx → EReal :=
  outOf (logitsR Y bias mask) Y

/-! ## The flattened form: row r = window · 16 + head -/

def rowHead (r : Fin 32768) : Fin 16 := ⟨r.val % 16, Nat.mod_lt _ (by decide)⟩
def rowWin (r : Fin 32768) : Fin 2048 := ⟨r.val / 16, by have := r.isLt; omega⟩
def rowCls (r : Fin 32768) : Fin 64 := ⟨r.val / 16 % 64, Nat.mod_lt _ (by decide)⟩

/-- Logits of flat row r from flat queries and keys. -/
def logitsFlat (q k : SQ.Idx → EReal) (bias : SB.Idx → EReal) (mask : SM.Idx → EReal) (r : Fin 32768) (n m : Fin 49) : EReal :=
  ((∑ d : Fin 32, q (ix3 r n d) * k (ix3 r m d)) * scl + bias (ix3 (rowHead r) n m)) + mask (ix3 (rowCls r) n m)

/-- The attention output on flat rows. -/
def attnFlat (q k v : SQ.Idx → EReal) (bias : SB.Idx → EReal) (mask : SM.Idx → EReal) : SQ.Idx → EReal := fun i =>
  head (logitsFlat q k bias mask (i 0)) (fun m d => v (ix3 (i 0) m d)) (i 1) (i 2)

/-! ## The scale moves across the contraction -/

/-- The coercion from the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The scale word denotes a real number. -/
theorem scl_real : ∃ r : ℝ, scl = (r : EReal) := by
  unfold scl Ideal.ofBits Ideal.ieee
  dsimp only
  rw [if_neg (by decide), if_neg (by decide)]
  exact ⟨_, rfl⟩

/-- With real entries, a factor moves across the contracted sum. -/
theorem sum_mul_scale {ι : Type*} [Fintype ι] (a b : ι → EReal) (s : EReal) (ha : ∀ i, ∃ r : ℝ, a i = r) (hb : ∀ i, ∃ r : ℝ, b i = r)
    (hs : ∃ r : ℝ, s = r) : (∑ i, a i * b i) * s = ∑ i, (a i * s) * b i := by
  choose a' ha' using ha
  choose b' hb' using hb
  obtain ⟨s', rfl⟩ := hs
  simp only [ha', hb', ← EReal.coe_mul, ← coe_sum]
  rw [Finset.sum_mul]
  exact congrArg _ (Finset.sum_congr rfl fun i _ => by ring)

theorem logits_eq (Y : SY.Idx → EReal) (bias : SB.Idx → EReal) (mask : SM.Idx → EReal) (hY : ∀ i, ∃ r : ℝ, Y i = r) :
    logitsK Y bias mask = logitsR Y bias mask := by
  funext b h n m
  unfold logitsK logitsR
  rw [sum_mul_scale _ _ scl (fun d => hY _) (fun d => hY _) scl_real]

/-- With a real projected array the two outputs are one array. -/
theorem outK_eq_outR (Y : SY.Idx → EReal) (bias : SB.Idx → EReal) (mask : SM.Idx → EReal) (hY : ∀ i, ∃ r : ℝ, Y i = r) :
    outK Y bias mask = outR Y bias mask := by
  unfold outK outR
  rw [logits_eq Y bias mask hY]

end Cert.WinAttn

end
-- ==== Proof.Region1Pay.lean ====
/-
  One block of the attention region, read entry by entry at the ideal values.

  A block holds 128 flat rows: 8 windows of 16 heads, row r = lb · 16 + h. For row r the body contracts the queries with
  the keys over the 32 lanes, multiplies by the scale, adds the bias of head h and the mask of window lb (both reached by
  re-laying the rows as [8, 16] and broadcasting along the missing axis), takes the soft maximum of each row of 49 logits
  in its stable form (subtract the row's maximum, exponentiate, divide by the row's sum), and applies the result to the
  values. Each layout step moves an entry without changing it, each contraction is a finite sum, the row maximum is the
  fold of max from minus infinity: together the entry (r, n, d) of the body's result is the head of the specification.
-/
import proofs.«110809_j36352603193925_2_alg».proof.Proof.Spec
import proofs.«110809_j36352603193925_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Attn

open Idealize.ShloMosaic Idealize.ShloMosaic.ValueIdx Cert.KernelIdeal Cert.KernelIdeal.Gen Cert.WinAttn

/-! ## Batched products -/

section Products
variable {B n m k : Nat}

/-- [B, n, k] × [B, m, k] → [B, n, m]: axis 0 is the batch, the last axis of both operands is contracted. -/
abbrev DQK (w : DotDims.WF ⟨3, ![B, n, k]⟩ ⟨3, ![B, m, k]⟩ ⟨3, ![B, n, m]⟩ [2] [2] [1] [1] [0] [0]) :
    DotDims ⟨3, ![B, n, k]⟩ ⟨3, ![B, m, k]⟩ ⟨3, ![B, n, m]⟩ := ⟨[2], [2], [1], [1], [0], [0], w⟩

/-- The left operand's index at output (e, a, b) and contracted coordinate c is (e, a, c). -/
theorem lhsIdx_DQK (w : DotDims.WF ⟨3, ![B, n, k]⟩ ⟨3, ![B, m, k]⟩ ⟨3, ![B, n, m]⟩ [2] [2] [1] [1] [0] [0])
    (e : Fin B) (a : Fin n) (b : Fin m) (c : Fin k) :
    (DQK w).lhsIdx (ix3 e a b) ((contrEquiv1 (DQK w) k rfl rfl).symm c) = ix3 e a c := by
  have c2 := contrEquiv1_symm_val (DQK w) k rfl rfl c
  funext ax; apply Fin.ext
  match ax with
  | ⟨0, _⟩ => simp [DotDims.lhsIdx]; rfl
  | ⟨1, _⟩ => simp [DotDims.lhsIdx]; rfl
  | ⟨2, _⟩ => simp [DotDims.lhsIdx]; exact c2

/-- The right operand's index at output (e, a, b) and contracted coordinate c is (e, b, c). -/
theorem rhsIdx_DQK (w : DotDims.WF ⟨3, ![B, n, k]⟩ ⟨3, ![B, m, k]⟩ ⟨3, ![B, n, m]⟩ [2] [2] [1] [1] [0] [0])
    (e : Fin B) (a : Fin n) (b : Fin m) (c : Fin k) :
    (DQK w).rhsIdx (ix3 e a b) ((contrEquiv1 (DQK w) k rfl rfl).symm c) = ix3 e b c := by
  have c2 := contrEquiv1_symm_val (DQK w) k rfl rfl c
  funext ax; apply Fin.ext
  match ax with
  | ⟨0, _⟩ => simp [DotDims.rhsIdx]; rfl
  | ⟨1, _⟩ => simp [DotDims.rhsIdx]; rfl
  | ⟨2, _⟩ => simp [DotDims.rhsIdx]; exact c2

/-- The batched product of queries with keys into the zero accumulator at (e, a, b). -/
theorem matmulQK_at {φ₁ φ₂ : FTy} (w : DotDims.WF ⟨3, ![B, n, k]⟩ ⟨3, ![B, m, k]⟩ ⟨3, ![B, n, m]⟩ [2] [2] [1] [1] [0] [0])
    (prec : Option ContractPrecision) (A : FVec Ideal ⟨3, ![B, n, k]⟩ φ₁) (W : FVec Ideal ⟨3, ![B, m, k]⟩ φ₂)
    (e : Fin B) (a : Fin n) (b : Fin m) :
    matmul (DQK w) prec A W (constant ⟨3, ![B, n, m]⟩ .f32 0x00000000#32) (ix3 e a b) = ∑ c : Fin k, A (ix3 e a c) * W (ix3 e b c) := by
  show FloatOps.matmul _ prec A W _ (ix3 e a b) = _
  rw [Ideal.matmul_constant_zero_apply, ← Equiv.sum_comp (contrEquiv1 (DQK w) k rfl rfl).symm]
  refine Finset.sum_congr rfl fun c _ => ?_
  rw [lhsIdx_DQK, rhsIdx_DQK]

/-- [B, n, m] × [B, m, k] → [B, n, k]: axis 0 is the batch, the left operand's last axis meets the right operand's middle one. -/
abbrev DPV (w : DotDims.WF ⟨3, ![B, n, m]⟩ ⟨3, ![B, m, k]⟩ ⟨3, ![B, n, k]⟩ [2] [1] [1] [2] [0] [0]) :
    DotDims ⟨3, ![B, n, m]⟩ ⟨3, ![B, m, k]⟩ ⟨3, ![B, n, k]⟩ := ⟨[2], [1], [1], [2], [0], [0], w⟩

/-- The left operand's index at output (e, a, c) and contracted coordinate b is (e, a, b). -/
theorem lhsIdx_DPV (w : DotDims.WF ⟨3, ![B, n, m]⟩ ⟨3, ![B, m, k]⟩ ⟨3, ![B, n, k]⟩ [2] [1] [1] [2] [0] [0])
    (e : Fin B) (a : Fin n) (c : Fin k) (b : Fin m) :
    (DPV w).lhsIdx (ix3 e a c) ((contrEquiv1 (DPV w) m rfl rfl).symm b) = ix3 e a b := by
  have c2 := contrEquiv1_symm_val (DPV w) m rfl rfl b
  funext ax; apply Fin.ext
  match ax with
  | ⟨0, _⟩ => simp [DotDims.lhsIdx]; rfl
  | ⟨1, _⟩ => simp [DotDims.lhsIdx]; rfl
  | ⟨2, _⟩ => simp [DotDims.lhsIdx]; exact c2

/-- The right operand's index at output (e, a, c) and contracted coordinate b is (e, b, c). -/
theorem rhsIdx_DPV (w : DotDims.WF ⟨3, ![B, n, m]⟩ ⟨3, ![B, m, k]⟩ ⟨3, ![B, n, k]⟩ [2] [1] [1] [2] [0] [0])
    (e : Fin B) (a : Fin n) (c : Fin k) (b : Fin m) :
    (DPV w).rhsIdx (ix3 e a c) ((contrEquiv1 (DPV w) m rfl rfl).symm b) = ix3 e b c := by
  have c2 := contrEquiv1_symm_val (DPV w) m rfl rfl b
  funext ax; apply Fin.ext
  match ax with
  | ⟨0, _⟩ => simp [DotDims.rhsIdx]; rfl
  | ⟨1, _⟩ => simp [DotDims.rhsIdx]; exact c2
  | ⟨2, _⟩ => simp [DotDims.rhsIdx]; rfl

/-- The batched product of weights with values into the zero accumulator at (e, a, c). -/
theorem matmulPV_at {φ₁ φ₂ : FTy} (w : DotDims.WF ⟨3, ![B, n, m]⟩ ⟨3, ![B, m, k]⟩ ⟨3, ![B, n, k]⟩ [2] [1] [1] [2] [0] [0])
    (prec : Option ContractPrecision) (P : FVec Ideal ⟨3, ![B, n, m]⟩ φ₁) (V : FVec Ideal ⟨3, ![B, m, k]⟩ φ₂)
    (e : Fin B) (a : Fin n) (c : Fin k) :
    matmul (DPV w) prec P V (constant ⟨3, ![B, n, k]⟩ .f32 0x00000000#32) (ix3 e a c) = ∑ b : Fin m, P (ix3 e a b) * V (ix3 e b c) := by
  show FloatOps.matmul _ prec P V _ (ix3 e a c) = _
  rw [Ideal.matmul_constant_zero_apply, ← Equiv.sum_comp (contrEquiv1 (DPV w) m rfl rfl).symm]
  refine Finset.sum_congr rfl fun b _ => ?_
  rw [lhsIdx_DPV, rhsIdx_DPV]

end Products

/-! ## Re-laying rows, and broadcasting along a missing axis -/

section Layout
variable {α : Type}

/-- 128 rows as 8 groups of 16: the entry (lb, h, a, b) is row lb · 16 + h. -/
theorem rows_split_at (x : (⟨3, ![128, 49, 49]⟩ : Shape).Idx → α)
    (hc : (⟨3, ![128, 49, 49]⟩ : Shape).ShapeCasts ⟨4, ![8, 16, 49, 49]⟩) (lb : Fin 8) (h : Fin 16) (a b : Fin 49) (r : Fin 128)
    (hr : r.val = lb.val * 16 + h.val) : shapeCast ⟨4, ![8, 16, 49, 49]⟩ x hc (ix4 lb h a b) = x (ix3 r a b) := by
  refine shapeCast_apply x hc (ix4 lb h a b) (ix3 r a b) ?_
  rw [Shape.rowMajor_val_three, Shape.rowMajor_val_four]
  show (r.val * 49 + a.val) * 49 + b.val = ((lb.val * 16 + h.val) * 49 + a.val) * 49 + b.val
  rw [hr]

/-- 8 groups of 16 rows as 128 rows: row lb · 16 + h is the entry (lb, h, a, b). -/
theorem rows_join_at (x : (⟨4, ![8, 16, 49, 49]⟩ : Shape).Idx → α)
    (hc : (⟨4, ![8, 16, 49, 49]⟩ : Shape).ShapeCasts ⟨3, ![128, 49, 49]⟩) (lb : Fin 8) (h : Fin 16) (a b : Fin 49) (r : Fin 128)
    (hr : r.val = lb.val * 16 + h.val) : shapeCast ⟨3, ![128, 49, 49]⟩ x hc (ix3 r a b) = x (ix4 lb h a b) := by
  refine shapeCast_apply x hc (ix3 r a b) (ix4 lb h a b) ?_
  rw [Shape.rowMajor_val_three, Shape.rowMajor_val_four]
  show ((lb.val * 16 + h.val) * 49 + a.val) * 49 + b.val = (r.val * 49 + a.val) * 49 + b.val
  rw [hr]

/-- The bias of 16 heads, given a leading unit axis and broadcast over the 8 groups: every group reads head h's. -/
theorem bias_bcast_at (x : (⟨3, ![16, 49, 49]⟩ : Shape).Idx → α)
    (h1 : (⟨3, ![16, 49, 49]⟩ : Shape).ShapeCasts ⟨4, ![1, 16, 49, 49]⟩)
    (h2 : (⟨4, ![1, 16, 49, 49]⟩ : Shape).Broadcasts ⟨4, ![8, 16, 49, 49]⟩) (lb : Fin 8) (h : Fin 16) (a b : Fin 49) :
    broadcastTo ⟨4, ![8, 16, 49, 49]⟩ (shapeCast ⟨4, ![1, 16, 49, 49]⟩ x h1) h2 (ix4 lb h a b) = x (ix3 h a b) := by
  refine (broadcastTo_apply _ h2 (ix4 lb h a b) (ix4 (0 : Fin 1) h a b) fun ax => ?_).trans
    (shapeCast_abc_1abc_apply x h1 (0 : Fin 1) h a b)
  match ax with
  | ⟨0, _⟩ => rfl
  | ⟨1, _⟩ => rfl
  | ⟨2, _⟩ => rfl
  | ⟨3, _⟩ => rfl

/-- The mask of 8 windows, given a unit head axis and broadcast over the 16 heads: every head reads window lb's. -/
theorem mask_bcast_at (x : (⟨3, ![8, 49, 49]⟩ : Shape).Idx → α)
    (h1 : (⟨3, ![8, 49, 49]⟩ : Shape).ShapeCasts ⟨4, ![8, 1, 49, 49]⟩)
    (h2 : (⟨4, ![8, 1, 49, 49]⟩ : Shape).Broadcasts ⟨4, ![8, 16, 49, 49]⟩) (lb : Fin 8) (h : Fin 16) (a b : Fin 49) :
    broadcastTo ⟨4, ![8, 16, 49, 49]⟩ (shapeCast ⟨4, ![8, 1, 49, 49]⟩ x h1) h2 (ix4 lb h a b) = x (ix3 lb a b) := by
  refine (broadcastTo_apply _ h2 (ix4 lb h a b) (ix4 lb (0 : Fin 1) a b) fun ax => ?_).trans
    (shapeCast_apply x h1 (ix4 lb (0 : Fin 1) a b) (ix3 lb a b) ?_)
  · match ax with
    | ⟨0, _⟩ => rfl
    | ⟨1, _⟩ => rfl
    | ⟨2, _⟩ => rfl
    | ⟨3, _⟩ => rfl
  · rw [Shape.rowMajor_val_three, Shape.rowMajor_val_four]
    show (lb.val * 49 + a.val) * 49 + b.val = ((lb.val * 1 + 0) * 49 + a.val) * 49 + b.val
    omega

/-- A value per row and token, given a trailing unit axis and broadcast along the 49 columns: every column reads it. -/
theorem keep_bcast_at (x : (⟨2, ![128, 49]⟩ : Shape).Idx → α)
    (h1 : (⟨2, ![128, 49]⟩ : Shape).ShapeCasts ⟨3, ![128, 49, 1]⟩)
    (h2 : (⟨3, ![128, 49, 1]⟩ : Shape).Broadcasts ⟨3, ![128, 49, 49]⟩) (r : Fin 128) (a b : Fin 49) :
    broadcastTo ⟨3, ![128, 49, 49]⟩ (shapeCast ⟨3, ![128, 49, 1]⟩ x h1) h2 (ix3 r a b) = x (ix2 r a) := by
  refine (broadcastTo_apply _ h2 (ix3 r a b) (ix3 r a (0 : Fin 1)) fun ax => ?_).trans
    (shapeCast_apply x h1 (ix3 r a (0 : Fin 1)) (ix2 r a) ?_)
  · match ax with
    | ⟨0, _⟩ => rfl
    | ⟨1, _⟩ => rfl
    | ⟨2, _⟩ => rfl
  · rw [Shape.rowMajor_val_two, Shape.rowMajor_val_three]
    show r.val * 49 + a.val = (r.val * 49 + a.val) * 1 + 0
    omega

end Layout

/-! ## A row's maximum and a row's sum -/

/-- The index of row (r, a) with the column c put back. -/
theorem lift_row (hd : (⟨3, ![128, 49, 49]⟩ : Shape).Reduces [2] ⟨2, ![128, 49]⟩) (r : Fin 128) (a c : Fin 49) :
    hd.lift (ix2 r a) c = ix3 r a c := by
  funext ax; apply Fin.ext
  match ax with
  | ⟨0, _⟩ => rfl
  | ⟨1, _⟩ => rfl
  | ⟨2, _⟩ => rfl

/-- The maximum over the columns, folded from minus infinity, is the row's maximum. -/
theorem rowMax_at (L : FVec Ideal ⟨3, ![128, 49, 49]⟩ .f32) (hd : (⟨3, ![128, 49, 49]⟩ : Shape).Reduces [2] ⟨2, ![128, 49]⟩)
    (hφ : FKind.Formats .f32) (hacc : (0xFF800000#32 : BitVec 32) = FKind.maximumf.neutral .f32 hφ) (r : Fin 128) (a : Fin 49) :
    multiReduction .maximumf [2] ⟨2, ![128, 49]⟩ L 0xFF800000#32 hd hφ hacc (ix2 r a) = rowMax (fun c => L (ix3 r a c)) := by
  refine (Ideal.multiReduction_maximumf_single L _ hd hφ hacc (ix2 r a)).trans ?_
  have e : (L ∘ hd.lift (ix2 r a) : Fin 49 → EReal) = fun c => L (ix3 r a c) := funext fun c => congrArg L (lift_row hd r a c)
  exact congrArg (fun f : Fin 49 → EReal => (Finset.univ : Finset (Fin 49)).fold max (Ideal.ofBits .f32 0xFF800000#32) f) e

/-- The sum over the columns is the row's sum. -/
theorem rowSum_at (E : FVec Ideal ⟨3, ![128, 49, 49]⟩ .f32) (hd : (⟨3, ![128, 49, 49]⟩ : Shape).Reduces [2] ⟨2, ![128, 49]⟩)
    (hφ : FKind.Formats .f32) (hacc : (0x00000000#32 : BitVec 32) = FKind.add.neutral .f32 hφ) (r : Fin 128) (a : Fin 49) :
    multiReduction .add [2] ⟨2, ![128, 49]⟩ E 0x00000000#32 hd hφ hacc (ix2 r a) = ∑ c : Fin 49, E (ix3 r a c) := by
  refine (Ideal.multiReduction_add_single E _ hd hφ hacc (ix2 r a)).trans ?_
  exact Finset.sum_congr rfl fun c _ => congrArg E (lift_row hd r a c)

/-! ## The block's logits -/

/-- The logits of a block as the body builds them: the batched product of queries and keys times the scale, re-laid as
    [8, 16] rows, plus the broadcast bias, plus the broadcast mask, re-laid as 128 rows. -/
def logitsBlk (q k : Vec Ideal S128x49x32 .bf16) (bias : Vec Ideal S16x49x49 .f32) (mask : Vec Ideal S8x49x49 .f32) :
    FVec Ideal S128x49x49 .f32 :=
  shapeCast S128x49x49
    (addf
      (addf
        (shapeCast S8x16x49x49
          (mulf
            (matmul dot_S128x49x32_S128x49x32_S128x49x49_2_2_1_1_0_0 none
              (shapeCast S128x49x32 q shapeCasts_S128x49x32_S128x49x32 : FVec Ideal S128x49x32 .bf16)
              (shapeCast S128x49x32 k shapeCasts_S128x49x32_S128x49x32 : FVec Ideal S128x49x32 .bf16)
              (constant S128x49x49 .f32 0x00000000#32))
            (broadcast S128x49x49 (Scalar.ofBits .f32 0x3E3504F3#32)))
          shapeCasts_S128x49x49_S8x16x49x49)
        (broadcastTo S8x16x49x49
          (shapeCast S1x16x49x49 (shapeCast S16x49x49 bias shapeCasts_S16x49x49_S16x49x49) shapeCasts_S16x49x49_S1x16x49x49)
          broadcasts_S1x16x49x49_S8x16x49x49))
      (broadcastTo S8x16x49x49 (shapeCast S8x1x49x49 mask shapeCasts_S8x49x49_S8x1x49x49) broadcasts_S8x1x49x49_S8x16x49x49))
    shapeCasts_S8x16x49x49_S128x49x49

/-- Row r = lb · 16 + h of the block's logits: the scaled contraction over the lanes, plus head h's bias, plus window lb's mask. -/
theorem logitsBlk_at (q k : Vec Ideal S128x49x32 .bf16) (bias : Vec Ideal S16x49x49 .f32) (mask : Vec Ideal S8x49x49 .f32)
    (lb : Fin 8) (h : Fin 16) (r : Fin 128) (hr : r.val = lb.val * 16 + h.val) (a b : Fin 49) :
    logitsBlk q k bias mask (ix3 r a b)
      = ((∑ c : Fin 32, (q (ix3 r a c) : EReal) * (k (ix3 r b c) : EReal)) * scl + (bias (ix3 h a b) : EReal)) + (mask (ix3 lb a b) : EReal) := by
  unfold logitsBlk
  refine (rows_join_at _ _ lb h a b r hr).trans ?_
  refine congr (congrArg HAdd.hAdd (congr (congrArg HAdd.hAdd ?_) ?_)) ?_
  · refine (rows_split_at _ _ lb h a b r hr).trans ?_
    refine congrArg (fun z : EReal => z * scl) ?_
    refine (matmulQK_at _ none _ _ r a b).trans ?_
    rw [shapeCast_self, shapeCast_self]
  · exact (bias_bcast_at _ _ _ lb h a b).trans (congrFun (shapeCast_self bias _) _)
  · exact mask_bcast_at _ _ _ lb h a b

/-! ## The soft maximum of the rows, applied to the values -/

/-- The exponentials of the logits less their row's maximum, as the body builds them. -/
def expBlk (L : FVec Ideal S128x49x49 .f32) : FVec Ideal S128x49x49 .f32 :=
  exp (subf L
    (broadcastTo S128x49x49
      (shapeCast S128x49x1 (multiReduction .maximumf [2] S128x49 L 0xFF800000#32 reduces_S128x49x49_S128x49 (.inl rfl) rfl)
        shapeCasts_S128x49_S128x49x1)
      broadcasts_S128x49x1_S128x49x49))

theorem expBlk_at (L : FVec Ideal S128x49x49 .f32) (r : Fin 128) (a b : Fin 49) :
    expBlk L (ix3 r a b) = Ideal.exp (L (ix3 r a b) - rowMax (fun c => L (ix3 r a c))) := by
  unfold expBlk
  refine congrArg (fun z : EReal => Ideal.exp (L (ix3 r a b) - z)) ?_
  exact (keep_bcast_at _ _ _ r a b).trans (rowMax_at L _ _ _ r a)

/-- The body's result from the logits: the exponentials divided by their row's sum, contracted with the values. -/
def softBlk (L : FVec Ideal S128x49x49 .f32) (v : Vec Ideal S128x49x32 .bf16) : FVec Ideal S128x49x32 .f32 :=
  matmul dot_S128x49x49_S128x49x32_S128x49x32_2_1_1_2_0_0 none
    (truncf .bf16
      (divf (expBlk L)
        (broadcastTo S128x49x49
          (shapeCast S128x49x1 (multiReduction .add [2] S128x49 (expBlk L) 0x00000000#32 reduces_S128x49x49_S128x49 (.inl rfl) rfl)
            shapeCasts_S128x49_S128x49x1)
          broadcasts_S128x49x1_S128x49x49))
      bitsLt_bf16_f32)
    (shapeCast S128x49x32 v shapeCasts_S128x49x32_S128x49x32 : FVec Ideal S128x49x32 .bf16)
    (constant S128x49x32 .f32 0x00000000#32)

/-- Entry (r, a, c) of the body's result is the head of row r's logits and values. -/
theorem softBlk_at (L : FVec Ideal S128x49x49 .f32) (v : Vec Ideal S128x49x32 .bf16) (r : Fin 128) (a : Fin 49) (c : Fin 32) :
    softBlk L v (ix3 r a c) = head (fun a' b => L (ix3 r a' b)) (fun b c' => (v (ix3 r b c') : EReal)) a c := by
  unfold softBlk head
  refine (matmulPV_at _ none _ _ r a c).trans ?_
  refine Finset.sum_congr rfl fun b _ => ?_
  refine congr (congrArg HMul.hMul ?_) (congrFun (shapeCast_self v _) _)
  refine congr (congrArg Ideal.div (expBlk_at L r a b)) ?_
  refine (keep_bcast_at _ _ _ r a b).trans ((rowSum_at (expBlk L) _ _ _ r a).trans ?_)
  exact Finset.sum_congr rfl fun b' _ => expBlk_at L r a b'

/-- The body's arithmetic is the soft maximum of the block's logits applied to the values. -/
theorem pay_eq (q k v : Vec Ideal S128x49x32 .bf16) (bias : Vec Ideal S16x49x49 .f32) (mask : Vec Ideal S8x49x49 .f32) :
    k1_pay1 (F := Ideal) q k v bias mask = softBlk (logitsBlk q k bias mask) v := rfl

/-- Entry (r, n, d) of the body's result, for row r = lb · 16 + h: the head of that row's logits — the scaled contraction of
    queries and keys, plus head h's bias, plus window lb's mask — and of that row's values. -/
theorem pay_at (q k v : Vec Ideal S128x49x32 .bf16) (bias : Vec Ideal S16x49x49 .f32) (mask : Vec Ideal S8x49x49 .f32)
    (lb : Fin 8) (h : Fin 16) (r : Fin 128) (hr : r.val = lb.val * 16 + h.val) (n : Fin 49) (d : Fin 32) :
    k1_pay1 (F := Ideal) q k v bias mask (ix3 r n d)
      = head (fun n' m => ((∑ d' : Fin 32, q (ix3 r n' d') * k (ix3 r m d')) * scl + bias (ix3 h n' m)) + mask (ix3 lb n' m))
          (fun m d' => v (ix3 r m d')) n d := by
  rw [pay_eq]
  refine (softBlk_at _ v r n d).trans ?_
  refine congrArg (fun Lf : Fin 49 → Fin 49 → EReal => head Lf (fun m d' => (v (ix3 r m d') : EReal)) n d) ?_
  funext a b
  exact logitsBlk_at q k bias mask lb h r hr a b

end Cert.KernelIdeal.Attn

end
-- ==== Proof.Region1.lean ====
/-
  The attention region as one array.

  The grid has 32 × 8 points; point t = g · 8 + s reads and writes block t of the 32768 flat rows (rows t · 128 … t · 128 + 127
  of queries, keys, values and of the result), the whole bias, and block s = t mod 8 of the mask's 64 window classes. Row r
  of block t is flat row R = t · 128 + r; with r = lb · 16 + h its head is R mod 16 = h and its window class
  R / 16 mod 64 = s · 8 + lb, which is row lb of the mask block the point reads. So what point t writes back is block t of
  the attention output on flat rows, the blocks tile the array, and the array ends holding that output.
-/
import proofs.«110809_j36352603193925_2_alg».proof.Proof.Region1Pay
import proofs.«110809_j36352603193925_2_alg».proof.Proof.Gen.KernelIdeal.Frame
import Idealize.ShloMosaic.Lib.Pipeline.Value

set_option maxRecDepth 16384

noncomputable section

namespace Cert.KernelIdeal.Attn

open Idealize.ShloMosaic Idealize.ShloMosaic.ValueIdx Idealize.ShloMosaic.TcCoe Idealize.SL.Sem
open Idealize.ShloMosaic.Pipeline (Dat)
open Cert.KernelIdeal Cert.KernelIdeal.Gen Cert.WinAttn

variable (V : (c : Dev nD) → (b : Ref sig .tc) → Buf (Elt Ideal) ((c : Thread nD τ).loc b))

theorem zero3 : (![0, 0, 0] : Fin 3 → Nat) = fun _ => 0 := funext fun a => by fin_cases a <;> rfl

/-- The index maps over the grid: queries, keys, values and the result move to block t of the rows at point t, the bias
    stays whole, the mask moves to block t mod 8 of its window classes. -/
theorem idx_facts : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = 0 ∧ win1_3.index t (1 : Fin 3) = 0 ∧ win1_3.index t (2 : Fin 3) = 0)
    ∧ (win1_4.index t (0 : Fin 3) = t.val % 8 ∧ win1_4.index t (1 : Fin 3) = 0 ∧ win1_4.index t (2 : Fin 3) = 0)
    ∧ (win1_5.index t (0 : Fin 3) = t.val ∧ win1_5.index t (1 : Fin 3) = 0 ∧ win1_5.index t (2 : Fin 3) = 0) :=
  (by decide +kernel : ∀ t : Fin grid1.N, _)

/-- The block of queries at point t: row r of the block is flat row t · 128 + r. -/
theorem blk_q (c : Dev nD) (t : Fin cfg1.N) (r : Fin 128) (a : Fin 49) (d : Fin 32) (R : Fin 32768)
    (hR : R.val = t.val * 128 + r.val) :
    (iblk1 V c 0 t : Vec Ideal S128x49x32 .bf16) (ix3 r a d) = (V c main_v22 : S32768x49x32.Idx → EReal) (ix3 R a d) := by
  obtain ⟨⟨e0, e1, e2⟩, -⟩ := idx_facts t
  unfold iblk1
  rw [View.read_apply]
  show V c main_v22 _ = V c main_v22 _
  refine congrArg (V c main_v22) ?_
  funext ax; apply Fin.ext
  match ax with
  | ⟨0, _⟩ => show win1_0.index t (0 : Fin 3) * 128 + 1 * r.val = R.val; rw [e0, hR]; omega
  | ⟨1, _⟩ => show win1_0.index t (1 : Fin 3) * 49 + 1 * a.val = a.val; rw [e1]; omega
  | ⟨2, _⟩ => show win1_0.index t (2 : Fin 3) * 32 + 1 * d.val = d.val; rw [e2]; omega

/-- The block of keys at point t. -/
theorem blk_k (c : Dev nD) (t : Fin cfg1.N) (r : Fin 128) (a : Fin 49) (d : Fin 32) (R : Fin 32768)
    (hR : R.val = t.val * 128 + r.val) :
    (iblk1 V c 1 t : Vec Ideal S128x49x32 .bf16) (ix3 r a d) = (V c main_v24 : S32768x49x32.Idx → EReal) (ix3 R a d) := by
  obtain ⟨-, ⟨e0, e1, e2⟩, -⟩ := idx_facts t
  unfold iblk1
  rw [View.read_apply]
  show V c main_v24 _ = V c main_v24 _
  refine congrArg (V c main_v24) ?_
  funext ax; apply Fin.ext
  match ax with
  | ⟨0, _⟩ => show win1_1.index t (0 : Fin 3) * 128 + 1 * r.val = R.val; rw [e0, hR]; omega
  | ⟨1, _⟩ => show win1_1.index t (1 : Fin 3) * 49 + 1 * a.val = a.val; rw [e1]; omega
  | ⟨2, _⟩ => show win1_1.index t (2 : Fin 3) * 32 + 1 * d.val = d.val; rw [e2]; omega

/-- The block of values at point t. -/
theorem blk_v (c : Dev nD) (t : Fin cfg1.N) (r : Fin 128) (a : Fin 49) (d : Fin 32) (R : Fin 32768)
    (hR : R.val = t.val * 128 + r.val) :
    (iblk1 V c 2 t : Vec Ideal S128x49x32 .bf16) (ix3 r a d) = (V c main_v26 : S32768x49x32.Idx → EReal) (ix3 R a d) := by
  obtain ⟨-, -, ⟨e0, e1, e2⟩, -⟩ := idx_facts t
  unfold iblk1
  rw [View.read_apply]
  show V c main_v26 _ = V c main_v26 _
  refine congrArg (V c main_v26) ?_
  funext ax; apply Fin.ext
  match ax with
  | ⟨0, _⟩ => show win1_2.index t (0 : Fin 3) * 128 + 1 * r.val = R.val; rw [e0, hR]; omega
  | ⟨1, _⟩ => show win1_2.index t (1 : Fin 3) * 49 + 1 * a.val = a.val; rw [e1]; omega
  | ⟨2, _⟩ => show win1_2.index t (2 : Fin 3) * 32 + 1 * d.val = d.val; rw [e2]; omega

/-- The bias is read whole at every point. -/
theorem blk_bias (c : Dev nD) (t : Fin cfg1.N) (h : Fin 16) (a b : Fin 49) (H : Fin 16) (hH : H.val = h.val) :
    (iblk1 V c 3 t : Vec Ideal S16x49x49 .f32) (ix3 h a b) = (V c main_v9 : S16x49x49.Idx → EReal) (ix3 H a b) := by
  obtain ⟨-, -, -, ⟨e0, e1, e2⟩, -⟩ := idx_facts t
  unfold iblk1
  rw [View.read_apply]
  show V c main_v9 _ = V c main_v9 _
  refine congrArg (V c main_v9) ?_
  funext ax; apply Fin.ext
  match ax with
  | ⟨0, _⟩ => show win1_3.index t (0 : Fin 3) * 16 + 1 * h.val = H.val; rw [e0, hH]; omega
  | ⟨1, _⟩ => show win1_3.index t (1 : Fin 3) * 49 + 1 * a.val = a.val; rw [e1]; omega
  | ⟨2, _⟩ => show win1_3.index t (2 : Fin 3) * 49 + 1 * b.val = b.val; rw [e2]; omega

/-- The block of the mask at point t: row lb of the block is window class (t mod 8) · 8 + lb. -/
theorem blk_mask (c : Dev nD) (t : Fin cfg1.N) (lb : Fin 8) (a b : Fin 49) (C : Fin 64) (hC : C.val = t.val % 8 * 8 + lb.val) :
    (iblk1 V c 4 t : Vec Ideal S8x49x49 .f32) (ix3 lb a b) = (V c main_arg1 : S64x49x49.Idx → EReal) (ix3 C a b) := by
  obtain ⟨-, -, -, -, ⟨e0, e1, e2⟩, -⟩ := idx_facts t
  unfold iblk1
  rw [View.read_apply]
  show V c main_arg1 _ = V c main_arg1 _
  refine congrArg (V c main_arg1) ?_
  funext ax; apply Fin.ext
  match ax with
  | ⟨0, _⟩ => show win1_4.index t (0 : Fin 3) * 8 + 1 * lb.val = C.val; rw [e0, hC]; omega
  | ⟨1, _⟩ => show win1_4.index t (1 : Fin 3) * 49 + 1 * a.val = a.val; rw [e1]; omega
  | ⟨2, _⟩ => show win1_4.index t (2 : Fin 3) * 49 + 1 * b.val = b.val; rw [e2]; omega

/-- Entry (r, a, d) of the result's block at point t sits at flat row t · 128 + r. -/
theorem blk_out_emb (t : Fin cfg1.N) (r : Fin 128) (a : Fin 49) (d : Fin 32) (R : Fin 32768) (hR : R.val = t.val * 128 + r.val) :
    (((cfg1.win 5).blk t).view.emb (ix3 r a d) : S32768x49x32.Idx) = ix3 R a d := by
  obtain ⟨-, -, -, -, -, ⟨e0, e1, e2⟩⟩ := idx_facts t
  funext ax; apply Fin.ext
  match ax with
  | ⟨0, _⟩ => show win1_5.index t (0 : Fin 3) * 128 + 1 * r.val = R.val; rw [e0, hR]; omega
  | ⟨1, _⟩ => show win1_5.index t (1 : Fin 3) * 49 + 1 * a.val = a.val; rw [e1]; omega
  | ⟨2, _⟩ => show win1_5.index t (2 : Fin 3) * 32 + 1 * d.val = d.val; rw [e2]; omega

/-- Equal logits and equal values give equal heads. -/
theorem head_congr {L L' : Fin 49 → Fin 49 → EReal} {v v' : Fin 49 → Fin 32 → EReal} (hL : L = L') (hv : v = v')
    (n : Fin 49) (d : Fin 32) : head L v n d = head L' v' n d := by
  subst hL hv; rfl

/-- What point t writes back is block t of the attention output on flat rows. -/
theorem flushed_eq (c : Dev nD) (t : Fin cfg1.N) :
    (dat1 (F := Ideal) V c).flushed 5 t = ((cfg1.win 5).blk t).view.read (Elt Ideal)
      (attnFlat (V c main_v22) (V c main_v24) (V c main_v26) (V c main_v9) (V c main_arg1)) := by
  show (cfg1.win 5).cut (grid1.coords t) ((dat1 (F := Ideal) V c).after 5 t) = _
  rw [after1_5]
  unfold out1_5
  rw [View.canon_unit_zero zero3]
  simp only [View.ld_unit_zero (S := S128x49x32) zero3, View.ld_unit_zero (S := S16x49x49) zero3, View.ld_unit_zero (S := S8x49x49) zero3]
  funext j
  obtain ⟨r, n, d, rfl⟩ : ∃ (r : Fin 128) (n : Fin 49) (d : Fin 32), j = ix3 r n d := ⟨j 0, j 1, j 2, eq_ix3 j⟩
  have hN : cfg1.N = 256 := N_1
  have ht : t.val < 256 := hN ▸ t.isLt
  have hr : r.val < 128 := r.isLt
  let lb : Fin 8 := ⟨r.val / 16, by omega⟩
  let h : Fin 16 := ⟨r.val % 16, Nat.mod_lt _ (by decide)⟩
  have hrow : r.val = lb.val * 16 + h.val := by show r.val = r.val / 16 * 16 + r.val % 16; omega
  let R : Fin 32768 := ⟨t.val * 128 + r.val, by omega⟩
  show k1_pay1 (F := Ideal) (iblk1 V c 0 t) (iblk1 V c 1 t) (iblk1 V c 2 t) (iblk1 V c 3 t) (iblk1 V c 4 t) (ix3 r n d)
    = attnFlat (V c main_v22) (V c main_v24) (V c main_v26) (V c main_v9) (V c main_arg1) (((cfg1.win 5).blk t).view.emb (ix3 r n d))
  rw [blk_out_emb t r n d R rfl]
  refine (pay_at _ _ _ _ _ lb h r hrow n d).trans ?_
  show _ = head (logitsFlat (V c main_v22) (V c main_v24) (V c main_v9) (V c main_arg1) R) (fun m d' => (V c main_v26 : S32768x49x32.Idx → EReal) (ix3 R m d')) n d
  refine head_congr ?_ ?_ n d
  · funext n' m
    unfold logitsFlat
    refine congr (congrArg HAdd.hAdd (congr (congrArg HAdd.hAdd (congrArg (fun z : EReal => z * scl) ?_)) ?_)) ?_
    · exact Finset.sum_congr rfl fun d' _ => by rw [blk_q V c t r n' d' R rfl, blk_k V c t r m d' R rfl]
    · exact blk_bias V c t h n' m (rowHead R) (by show (t.val * 128 + r.val) % 16 = r.val % 16; omega)
    · exact blk_mask V c t lb n' m (rowCls R) (by show (t.val * 128 + r.val) / 16 % 64 = t.val % 8 * 8 + r.val / 16; omega)
  · funext m d'
    exact blk_v V c t r m d' R rfl

/-- An index of the array is in point t's block iff each coordinate is in the block's range on its axis. -/
theorem mem_blk (t : Fin cfg1.N) (i : S32768x49x32.Idx) :
    i ∈ ((cfg1.win 5).blk t).view.set ↔ ∀ a : Fin 3, win1_5.index t a * S128x49x32.size a ≤ (i a).val
      ∧ (i a).val < win1_5.index t a * S128x49x32.size a + S128x49x32.size a := by
  show i ∈ ((View.whole main_v27).slice (win1_5.rect t)).set ↔ _
  rw [View.set_slice_whole, Rect.mem_set_unit]
  exact Iff.rfl

/-- The blocks tile the array: flat row R is in the block of point R / 128. -/
theorem cover (i : S32768x49x32.Idx) : ∃ t : Fin cfg1.N, (cfg1.win 5).flush t = true ∧ i ∈ ((cfg1.win 5).blk t).view.set := by
  have hN : cfg1.N = 256 := N_1
  have h0 : (i 0).val < 32768 := (i 0).isLt
  have h1 : (i 1).val < 49 := (i 1).isLt
  have h2 : (i 2).val < 32 := (i 2).isLt
  refine ⟨⟨(i 0).val / 128, by rw [hN]; omega⟩, flush1_5 _, ?_⟩
  obtain ⟨-, -, -, -, -, ⟨e0, e1, e2⟩⟩ := idx_facts ⟨(i 0).val / 128, by rw [hN]; omega⟩
  rw [mem_blk]
  intro a
  match a with
  | ⟨0, _⟩ =>
    show win1_5.index _ (0 : Fin 3) * 128 ≤ (i 0).val ∧ (i 0).val < win1_5.index _ (0 : Fin 3) * 128 + 128
    rw [e0]; show (i 0).val / 128 * 128 ≤ (i 0).val ∧ (i 0).val < (i 0).val / 128 * 128 + 128; omega
  | ⟨1, _⟩ =>
    show win1_5.index _ (1 : Fin 3) * 49 ≤ (i 1).val ∧ (i 1).val < win1_5.index _ (1 : Fin 3) * 49 + 49
    rw [e1]; omega
  | ⟨2, _⟩ =>
    show win1_5.index _ (2 : Fin 3) * 32 ≤ (i 2).val ∧ (i 2).val < win1_5.index _ (2 : Fin 3) * 32 + 32
    rw [e2]; omega

/-- The result array after the region: the attention output on flat rows, of the region's entry contents. -/
theorem region1_value (c : Dev nD) :
    ((dat1 (F := Ideal) V c).arrAt 5 cfg1.N : S32768x49x32.Idx → EReal)
      = attnFlat (V c main_v22) (V c main_v24) (V c main_v26) (V c main_v9) (V c main_arg1) :=
  (dat1 (F := Ideal) V c).arrAt_eq_of_cover 5 (attnFlat (V c main_v22) (V c main_v24) (V c main_v26) (V c main_v9) (V c main_arg1))
    (fun t _ => flushed_eq V c t) cover

end Cert.KernelIdeal.Attn

end
-- ==== Proof.KLayout.lean ====
/-
  The host's layout operations between and after the two regions, read at an index.

  The projected array Y : [100352, 1536] is viewed as [2048, 49, 3, 16, 32] (window, token, part, head, lane). Each part
  j ∈ {query, key, value} is cut out along the third axis, its unit axis dropped, the token and head axes exchanged, and
  window and head flattened into one row r = window · 16 + head: at (r, n, d) that reads Y's view at
  (r / 16, n, j, r mod 16, d). After the attention region its result O : [32768, 49, 32] goes the way back: rows are split
  into (window, head), head and token exchanged, head and lane flattened into the channel ch = head · 32 + lane: at
  (b, n, ch) that reads O at (b · 16 + ch / 32, n, ch mod 32). A reshape keeps the row-major position, a transpose permutes
  the coordinates, a slice shifts one coordinate: each step is one equation between coordinates.
-/
import proofs.«110809_j36352603193925_2_alg».proof.Proof.Gen.KernelIdeal
import proofs.«110809_j36352603193925_2_alg».proof.Proof.Spec
import Idealize.ShloMosaic.Lib.Pipeline.Value

noncomputable section

namespace Cert.KernelIdeal.Layout

open Idealize.ShloMosaic Idealize.ShloMosaic.ValueIdx Cert.KernelIdeal Cert.KernelIdeal.Gen

variable {α : Type}

/-- One part of the five-axis view, cut along the part axis at offset o, re-laid as flat rows: at (r, n, d) it reads the
    view at (r / 16, n, o, r mod 16, d). -/
theorem part_of (Z : S2048x49x3x16x32.Idx → α) (o : Nat) (j : Fin 3) (hj : j.val = o)
    (hs : S2048x49x3x16x32.Slices ![0, 0, o, 0, 0] S2048x49x1x16x32) (r : Fin 32768) (n : Fin 49) (d : Fin 32) :
    shapeCast S32768x49x32 (transpose S2048x16x49x32 [0, 2, 1, 3] (shapeCast S2048x49x16x32
        (extractStridedSlice S2048x49x1x16x32 ![0, 0, o, 0, 0] Z hs) shapeCasts_S2048x49x1x16x32_S2048x49x16x32)
        transposes_S2048x49x16x32_S2048x16x49x32_0_2_1_3) shapeCasts_S2048x16x49x32_S32768x49x32 (ix3 r n d)
      = Z (ix5 (Cert.WinAttn.rowWin r) n j (Cert.WinAttn.rowHead r) d) := by
  have hr : r.val < 32768 := r.isLt
  refine (shapeCast_apply _ shapeCasts_S2048x16x49x32_S32768x49x32 (ix3 r n d)
    (ix4 (Cert.WinAttn.rowWin r) (Cert.WinAttn.rowHead r) n d) ?_).trans ?_
  · rw [Shape.rowMajor_val_four, Shape.rowMajor_val_three]
    show ((r.val / 16 * 16 + r.val % 16) * 49 + n.val) * 32 + d.val = (r.val * 49 + n.val) * 32 + d.val
    omega
  refine (transpose_apply _ _ transposes_S2048x49x16x32_S2048x16x49x32_0_2_1_3
    (ix4 (Cert.WinAttn.rowWin r) (Cert.WinAttn.rowHead r) n d)
    (ix4 (Cert.WinAttn.rowWin r) n (Cert.WinAttn.rowHead r) d) (fun b => ?_)).trans ?_
  · match b with
    | ⟨0, _⟩ => rfl
    | ⟨1, _⟩ => rfl
    | ⟨2, _⟩ => rfl
    | ⟨3, _⟩ => rfl
  refine (shapeCast_apply _ shapeCasts_S2048x49x1x16x32_S2048x49x16x32
    (ix4 (Cert.WinAttn.rowWin r) n (Cert.WinAttn.rowHead r) d)
    (ix5 (Cert.WinAttn.rowWin r) n (0 : Fin 1) (Cert.WinAttn.rowHead r) d) ?_).trans ?_
  · rw [Shape.rowMajor_val_five, Shape.rowMajor_val_four]
    show (((r.val / 16 * 49 + n.val) * 1 + 0) * 16 + r.val % 16) * 32 + d.val
      = ((r.val / 16 * 49 + n.val) * 16 + r.val % 16) * 32 + d.val
    omega
  refine extractStridedSlice_apply _ Z hs _ _ (fun a => ?_)
  match a with
  | ⟨0, _⟩ => exact (Nat.zero_add _).symm
  | ⟨1, _⟩ => exact (Nat.zero_add _).symm
  | ⟨2, _⟩ => show j.val = o + 0; omega
  | ⟨3, _⟩ => exact (Nat.zero_add _).symm
  | ⟨4, _⟩ => exact (Nat.zero_add _).symm

/-- The queries as flat rows read the projected array's view at part 0. -/
theorem part0_at (Yf : S100352x1536.Idx → α) (r : Fin 32768) (n : Fin 49) (d : Fin 32) :
    shapeCast S32768x49x32 (transpose S2048x16x49x32 [0, 2, 1, 3] (shapeCast S2048x49x16x32
        (extractStridedSlice S2048x49x1x16x32 ![0, 0, 0, 0, 0]
          (shapeCast S2048x49x3x16x32 Yf shapeCasts_S100352x1536_S2048x49x3x16x32)
          slices_S2048x49x3x16x32_S2048x49x1x16x32_0_0_0_0_0) shapeCasts_S2048x49x1x16x32_S2048x49x16x32)
        transposes_S2048x49x16x32_S2048x16x49x32_0_2_1_3) shapeCasts_S2048x16x49x32_S32768x49x32 (ix3 r n d)
      = shapeCast S2048x49x3x16x32 Yf shapeCasts_S100352x1536_S2048x49x3x16x32
          (ix5 (Cert.WinAttn.rowWin r) n (0 : Fin 3) (Cert.WinAttn.rowHead r) d) :=
  part_of _ 0 0 rfl slices_S2048x49x3x16x32_S2048x49x1x16x32_0_0_0_0_0 r n d

/-- The keys as flat rows read the projected array's view at part 1. -/
theorem part1_at (Yf : S100352x1536.Idx → α) (r : Fin 32768) (n : Fin 49) (d : Fin 32) :
    shapeCast S32768x49x32 (transpose S2048x16x49x32 [0, 2, 1, 3] (shapeCast S2048x49x16x32
        (extractStridedSlice S2048x49x1x16x32 ![0, 0, 1, 0, 0]
          (shapeCast S2048x49x3x16x32 Yf shapeCasts_S100352x1536_S2048x49x3x16x32)
          slices_S2048x49x3x16x32_S2048x49x1x16x32_0_0_1_0_0) shapeCasts_S2048x49x1x16x32_S2048x49x16x32)
        transposes_S2048x49x16x32_S2048x16x49x32_0_2_1_3) shapeCasts_S2048x16x49x32_S32768x49x32 (ix3 r n d)
      = shapeCast S2048x49x3x16x32 Yf shapeCasts_S100352x1536_S2048x49x3x16x32
          (ix5 (Cert.WinAttn.rowWin r) n (1 : Fin 3) (Cert.WinAttn.rowHead r) d) :=
  part_of _ 1 1 rfl slices_S2048x49x3x16x32_S2048x49x1x16x32_0_0_1_0_0 r n d

/-- The values as flat rows read the projected array's view at part 2. -/
theorem part2_at (Yf : S100352x1536.Idx → α) (r : Fin 32768) (n : Fin 49) (d : Fin 32) :
    shapeCast S32768x49x32 (transpose S2048x16x49x32 [0, 2, 1, 3] (shapeCast S2048x49x16x32
        (extractStridedSlice S2048x49x1x16x32 ![0, 0, 2, 0, 0]
          (shapeCast S2048x49x3x16x32 Yf shapeCasts_S100352x1536_S2048x49x3x16x32)
          slices_S2048x49x3x16x32_S2048x49x1x16x32_0_0_2_0_0) shapeCasts_S2048x49x1x16x32_S2048x49x16x32)
        transposes_S2048x49x16x32_S2048x16x49x32_0_2_1_3) shapeCasts_S2048x16x49x32_S32768x49x32 (ix3 r n d)
      = shapeCast S2048x49x3x16x32 Yf shapeCasts_S100352x1536_S2048x49x3x16x32
          (ix5 (Cert.WinAttn.rowWin r) n (2 : Fin 3) (Cert.WinAttn.rowHead r) d) :=
  part_of _ 2 2 rfl slices_S2048x49x3x16x32_S2048x49x1x16x32_0_0_2_0_0 r n d

/-- The attention result brought back to (window, token, channel): at (b, n, ch) it reads the flat rows at
    row b · 16 + ch / 32, token n, lane ch mod 32. -/
theorem out_at (O : S32768x49x32.Idx → α) (b : Fin 2048) (n : Fin 49) (ch : Fin 512) (r : Fin 32768)
    (hr : r.val = b.val * 16 + ch.val / 32) :
    shapeCast S2048x49x512 (transpose S2048x49x16x32 [0, 2, 1, 3]
        (shapeCast S2048x16x49x32 O shapeCasts_S32768x49x32_S2048x16x49x32)
        transposes_S2048x16x49x32_S2048x49x16x32_0_2_1_3) shapeCasts_S2048x49x16x32_S2048x49x512 (ix3 b n ch)
      = O (ix3 r n (Cert.WinAttn.chLane ch)) := by
  have hch : ch.val < 512 := ch.isLt
  refine (shapeCast_apply _ shapeCasts_S2048x49x16x32_S2048x49x512 (ix3 b n ch)
    (ix4 b n (Cert.WinAttn.chHead ch) (Cert.WinAttn.chLane ch)) ?_).trans ?_
  · rw [Shape.rowMajor_val_four, Shape.rowMajor_val_three]
    show ((b.val * 49 + n.val) * 16 + ch.val / 32) * 32 + ch.val % 32 = (b.val * 49 + n.val) * 512 + ch.val
    omega
  refine (transpose_apply _ _ transposes_S2048x16x49x32_S2048x49x16x32_0_2_1_3
    (ix4 b n (Cert.WinAttn.chHead ch) (Cert.WinAttn.chLane ch))
    (ix4 b (Cert.WinAttn.chHead ch) n (Cert.WinAttn.chLane ch)) (fun a => ?_)).trans ?_
  · match a with
    | ⟨0, _⟩ => rfl
    | ⟨1, _⟩ => rfl
    | ⟨2, _⟩ => rfl
    | ⟨3, _⟩ => rfl
  refine shapeCast_apply O shapeCasts_S32768x49x32_S2048x16x49x32
    (ix4 b (Cert.WinAttn.chHead ch) n (Cert.WinAttn.chLane ch)) (ix3 r n (Cert.WinAttn.chLane ch)) ?_
  rw [Shape.rowMajor_val_three, Shape.rowMajor_val_four]
  show (r.val * 49 + n.val) * 32 + ch.val % 32 = ((b.val * 16 + ch.val / 32) * 49 + n.val) * 32 + ch.val % 32
  rw [hr]

end Cert.KernelIdeal.Layout

end
-- ==== Proof.KValue.lean ====
/-
  The kernel's result, entry by entry: the attention rows of the second region (row = window · 16 + head) moved back to
  (window, token, channel), where the second region read queries, keys and values cut from the first region's projected
  rows, the gathered bias, and the mask: the specification's output with the scale applied to the contracted product.
-/
import proofs.«110809_j36352603193925_2_alg».proof.Proof.KHost
import proofs.«110809_j36352603193925_2_alg».proof.Proof.Region0
import proofs.«110809_j36352603193925_2_alg».proof.Proof.Region1
import proofs.«110809_j36352603193925_2_alg».proof.Proof.KLayout

noncomputable section

namespace Cert.KernelIdeal.KValue

open Cert.KernelIdeal Cert.KernelIdeal.Gen Cert.KernelIdeal.Host Cert.WinAttn
open Idealize.ShloMosaic Idealize.ShloMosaic.TcCoe Idealize.ShloMosaic.ValueIdx Idealize.SL.Sem

/-- Row window · 16 + head of channel ch's head: its window, head and window class. -/
theorem row_lt (b : Fin 2048) (ch : Fin 512) : b.val * 16 + ch.val / 32 < 32768 := by
  have := b.isLt; have := ch.isLt; omega
theorem rowWin_row (b : Fin 2048) (ch : Fin 512) : rowWin ⟨b.val * 16 + ch.val / 32, row_lt b ch⟩ = b := by
  apply Fin.ext; show (b.val * 16 + ch.val / 32) / 16 = b.val; have := ch.isLt; omega
theorem rowHead_row (b : Fin 2048) (ch : Fin 512) : rowHead ⟨b.val * 16 + ch.val / 32, row_lt b ch⟩ = chHead ch := by
  apply Fin.ext; show (b.val * 16 + ch.val / 32) % 16 = ch.val / 32; have := ch.isLt; omega
theorem rowCls_row (b : Fin 2048) (ch : Fin 512) : rowCls ⟨b.val * 16 + ch.val / 32, row_lt b ch⟩ = wcls b := by
  apply Fin.ext; show (b.val * 16 + ch.val / 32) / 16 % 64 = b.val % 64; have := ch.isLt; omega

variable (m : (ℓ : Loc nD τ sig) → Buf (Elt Ideal) ℓ) (ρ : Dev nD → PrngReg) (c : Dev nD)

/-- The projected array as the second host stretch reads it: the first region's rows reshaped to
    (window, token, part, head, lane). -/
def Yk : S2048x49x3x16x32.Idx → EReal :=
  shapeCast S2048x49x3x16x32
    (Cert.Lib.LinearNT.linN
      (truncf .bf16 (shapeCast S100352x512 (m ((c : Thread nD τ).loc main_arg0)) shapeCasts_S2048x49x512_S100352x512) bitsLt_bf16_f32)
      (truncf (F := Ideal) .bf16 (m ((c : Thread nD τ).loc main_arg2) : FVec Ideal S1536x512 .f32) bitsLt_bf16_f32 : FVec Ideal S1536x512 .bf16)
      (shapeCast S1x1536 (m ((c : Thread nD τ).loc main_arg3)) shapeCasts_S1536_S1x1536))
    shapeCasts_S100352x1536_S2048x49x3x16x32

/-- The first region's output rows, reshaped, are that array. -/
theorem Y_eq : shapeCast S2048x49x3x16x32 ((dat0 (F := Ideal) (V1 m ρ) c).arrAt 3 cfg0.N : S100352x1536.Idx → EReal)
    shapeCasts_S100352x1536_S2048x49x3x16x32 = Yk m c := by
  rw [Cert.KernelIdeal.Proj.region0_value (V1 m ρ) c, V1_v10, V1_v11, V1_v12]
  rfl

theorem kernel_value : (W5 m ρ c (Proc.devRef .tc main_v30) : S2048x49x512.Idx → EReal)
    = outK (Yk m c) (biasK (m ((c : Thread nD τ).loc main_arg4))) (m ((c : Thread nD τ).loc main_arg1)) := by
  funext i
  obtain ⟨b, n, ch, rfl⟩ : ∃ (b : Fin 2048) (n : Fin 49) (ch : Fin 512), i = ix3 b n ch := ⟨i 0, i 1, i 2, eq_ix3 i⟩
  rw [W5_v30, Cert.KernelIdeal.Layout.out_at _ b n ch ⟨b.val * 16 + ch.val / 32, row_lt b ch⟩ rfl,
    Cert.KernelIdeal.Attn.region1_value (V3 m ρ) c]
  show head (logitsFlat _ _ _ _ ⟨b.val * 16 + ch.val / 32, row_lt b ch⟩) (fun m' d => _) n (chLane ch)
    = head (logitsK (Yk m c) _ _ b (chHead ch)) (fun m' d => Yk m c (ix5 b m' (2 : Fin 3) (chHead ch) d)) n (chLane ch)
  have hL : logitsFlat (V3 m ρ c main_v22) (V3 m ρ c main_v24) (V3 m ρ c main_v9) (V3 m ρ c main_arg1) ⟨b.val * 16 + ch.val / 32, row_lt b ch⟩
      = logitsK (Yk m c) (biasK (m ((c : Thread nD τ).loc main_arg4))) (m ((c : Thread nD τ).loc main_arg1)) b (chHead ch) := by
    funext n' m'
    unfold logitsFlat logitsK
    rw [V3_v9, V1_v9, V3_arg1, V1_arg1, rowHead_row, rowCls_row]
    refine congrArg (· + _) (congrArg (· + _) (congrArg (· * scl) (Finset.sum_congr rfl fun d _ => ?_)))
    rw [V3_v22, V3_v24, Cert.KernelIdeal.Layout.part0_at, Cert.KernelIdeal.Layout.part1_at, Y_eq, rowWin_row, rowHead_row]
  have hV : (fun m' d => (V3 m ρ c main_v26 : S32768x49x32.Idx → EReal) (ix3 ⟨b.val * 16 + ch.val / 32, row_lt b ch⟩ m' d))
      = fun m' d => Yk m c (ix5 b m' (2 : Fin 3) (chHead ch) d) := by
    funext m' d
    rw [V3_v26, Cert.KernelIdeal.Layout.part2_at, Y_eq, rowWin_row, rowHead_row]
  rw [hL]
  exact congrArg (fun v => head _ v n (chLane ch)) hV

end Cert.KernelIdeal.KValue

end
-- ==== Proof.RefTerms.lean ====
/-
  The reference program's result as a pure term of its arguments, cut into named stages: the projected array
  (the dense layer x·wᵀ + b reshaped to window, token, part, head, lane), the relative-position bias (the table's
  rows gathered at the fixed index table, laid out head-major), the three parts moved to head-major order, the logits
  (scaled queries against keys, plus bias, plus the mask of the window's class), and the soft maximum applied to the
  values and laid back to window, token, channel.
-/
import proofs.«110809_j36352603193925_2_alg».proof.Proof.Gen.ReferenceIdeal
import Idealize.ShloMosaic.PureOps.Ideal

noncomputable section

namespace Cert.ReferenceIdeal.Terms

open Idealize.ShloMosaic Cert.ReferenceIdeal Cert.ReferenceIdeal.Gen

/-- The dense layer, reshaped to (window, token, part, head, lane). -/
def projTerm (x : FVec Ideal S2048x49x512 .f32) (w : FVec Ideal S1536x512 .f32) (bq : FVec Ideal S1536 .f32) :
    FVec Ideal S2048x49x3x16x32 .f32 :=
  shapeCast S2048x49x3x16x32
    (addf (Host.dotGeneral dot_S2048x49x512_S1536x512_S2048x49x1536_2_1_01_0_n_n none x w)
      (broadcastInDim S2048x49x1536 ![0, 1, 2] bcast_S1x1x1536_S2048x49x1536_0_1_2
        (broadcastInDim S1x1x1536 ![2] bcast_S1536_S1x1x1536_2 bq)))
    shapeCasts_S2048x49x1536_S2048x49x3x16x32

/-- The fixed table of relative-position indices, flattened, with negative entries wrapped by the table's length. -/
def relIdx : IVec S2401x1 32 :=
  let c : IVec S49x49 32 := fun i => lit0 (S49x49.rowMajor i)
  let v15 : IVec S2401 32 := shapeCast S2401 c shapeCasts_S49x49_S2401
  let v16 : IVec S2401 32 := broadcastInDim S2401 ![] bcast_S_S2401 (constantI S_ 32 0#32)
  let v17 : IVec S2401 1 := cmpi .slt v15 v16
  let v18 : IVec S2401 32 := broadcastInDim S2401 ![] bcast_S_S2401 (constantI S_ 32 169#32)
  let v19 : IVec S2401 32 := addi v15 v18
  let v20 : IVec S2401 32 := select v17 v19 v15
  broadcastInDim S2401x1 ![0] bcast_S2401_S2401x1_0 v20

/-- The bias: the table's rows at the fixed indices, as (head, token, token). -/
def biasTerm (tbl : FVec Ideal S169x16 .f32) : FVec Ideal S16x49x49 .f32 :=
  transpose S16x49x49 [2, 0, 1]
    (shapeCast S49x49x16 (Host.gather gather_S169x16_S2401x1_S2401x16_1_0_n_n_0_1_116 tbl relIdx) shapeCasts_S2401x16_S49x49x16)
    transposes_S49x49x16_S16x49x49_2_0_1

/-- The projected array with the part axis first and heads before tokens. -/
def partsTerm (Y : FVec Ideal S2048x49x3x16x32 .f32) : FVec Ideal S3x2048x16x49x32 .f32 :=
  transpose S3x2048x16x49x32 [2, 0, 3, 1, 4] Y transposes_S2048x49x3x16x32_S3x2048x16x49x32_2_0_3_1_4

/-- Queries, keys, values: (window, head, token, lane). -/
def qTerm (Y : FVec Ideal S2048x49x3x16x32 .f32) : FVec Ideal S2048x16x49x32 .f32 :=
  shapeCast S2048x16x49x32
    (extractStridedSlice S1x2048x16x49x32 ![0, 0, 0, 0, 0] (partsTerm Y) slices_S3x2048x16x49x32_S1x2048x16x49x32_0_0_0_0_0)
    shapeCasts_S1x2048x16x49x32_S2048x16x49x32
def kTerm (Y : FVec Ideal S2048x49x3x16x32 .f32) : FVec Ideal S2048x16x49x32 .f32 :=
  shapeCast S2048x16x49x32
    (extractStridedSlice S1x2048x16x49x32 ![1, 0, 0, 0, 0] (partsTerm Y) slices_S3x2048x16x49x32_S1x2048x16x49x32_1_0_0_0_0)
    shapeCasts_S1x2048x16x49x32_S2048x16x49x32
def vTerm (Y : FVec Ideal S2048x49x3x16x32 .f32) : FVec Ideal S2048x16x49x32 .f32 :=
  shapeCast S2048x16x49x32
    (extractStridedSlice S1x2048x16x49x32 ![2, 0, 0, 0, 0] (partsTerm Y) slices_S3x2048x16x49x32_S1x2048x16x49x32_2_0_0_0_0)
    shapeCasts_S1x2048x16x49x32_S2048x16x49x32

/-- The logits: scaled queries against keys, plus the bias, plus the mask of the window's class. -/
def logitsTerm (q k : FVec Ideal S2048x16x49x32 .f32) (bias : FVec Ideal S16x49x49 .f32) (mask : FVec Ideal S64x49x49 .f32) :
    FVec Ideal S2048x16x49x49 .f32 :=
  let v12 : FVec Ideal S2048x16x49x32 .f32 := broadcastInDim S2048x16x49x32 ![] bcast_S_S2048x16x49x32 (constant (F := Ideal) S_ .f32 0x3E3504F3#32)
  let v13 : FVec Ideal S2048x16x49x32 .f32 := mulf q v12
  let v14 : FVec Ideal S2048x16x49x49 .f32 := Host.dotGeneral dot_S2048x16x49x32_S2048x16x49x32_S2048x16x49x49_3_3_2_2_01_01 none v13 k
  let v25 : FVec Ideal S1x16x49x49 .f32 := broadcastInDim S1x16x49x49 ![1, 2, 3] bcast_S16x49x49_S1x16x49x49_1_2_3 bias
  let v26 : FVec Ideal S2048x16x49x49 .f32 := broadcastInDim S2048x16x49x49 ![0, 1, 2, 3] bcast_S1x16x49x49_S2048x16x49x49_0_1_2_3 v25
  let v27 : FVec Ideal S2048x16x49x49 .f32 := addf v14 v26
  let v28 : FVec Ideal S32x64x16x49x49 .f32 := shapeCast S32x64x16x49x49 v27 shapeCasts_S2048x16x49x49_S32x64x16x49x49
  let v29 : FVec Ideal S1x64x1x49x49 .f32 := broadcastInDim S1x64x1x49x49 ![1, 3, 4] bcast_S64x49x49_S1x64x1x49x49_1_3_4 mask
  let v30 : FVec Ideal S32x64x16x49x49 .f32 := broadcastInDim S32x64x16x49x49 ![0, 1, 2, 3, 4] bcast_S1x64x1x49x49_S32x64x16x49x49_0_1_2_3_4 v29
  let v31 : FVec Ideal S32x64x16x49x49 .f32 := addf v28 v30
  shapeCast S2048x16x49x49 v31 shapeCasts_S32x64x16x49x49_S2048x16x49x49

/-- The soft maximum of each row of logits applied to the values, laid back to (window, token, channel). -/
def tailTerm (L : FVec Ideal S2048x16x49x49 .f32) (v : FVec Ideal S2048x16x49x32 .f32) : FVec Ideal S2048x49x512 .f32 :=
  let v33 : FVec Ideal S2048x16x49 .f32 := Host.reduce FloatOps.maximumf L (constant (F := Ideal) S_ .f32 0xFF800000#32) reducesTo_S2048x16x49x49_S2048x16x49_d3 h_S_
  let v34 : FVec Ideal S2048x16x49 .f32 := broadcastInDim S2048x16x49 ![] bcast_S_S2048x16x49 (constant (F := Ideal) S_ .f32 0xFF800000#32)
  let v35 : FVec Ideal S2048x16x49 .f32 := maximumf v34 v33
  let v36 : FVec Ideal S2048x16x49x1 .f32 := broadcastInDim S2048x16x49x1 ![0, 1, 2] bcast_S2048x16x49_S2048x16x49x1_0_1_2 v35
  let v37 : FVec Ideal S2048x16x49x49 .f32 := broadcastInDim S2048x16x49x49 ![0, 1, 2, 3] bcast_S2048x16x49x1_S2048x16x49x49_0_1_2_3 v36
  let v38 : FVec Ideal S2048x16x49x49 .f32 := subf L v37
  let v39 : FVec Ideal S2048x16x49x49 .f32 := Host.exp v38
  let v40 : FVec Ideal S2048x16x49 .f32 := Host.reduceAdd v39 (constant (F := Ideal) S_ .f32 0x00000000#32) reducesTo_S2048x16x49x49_S2048x16x49_d3 h_S_
  let v41 : FVec Ideal S2048x16x49x1 .f32 := broadcastInDim S2048x16x49x1 ![0, 1, 2] bcast_S2048x16x49_S2048x16x49x1_0_1_2 v40
  let v42 : FVec Ideal S2048x16x49x49 .f32 := broadcastInDim S2048x16x49x49 ![0, 1, 2, 3] bcast_S2048x16x49x1_S2048x16x49x49_0_1_2_3 v41
  let v43 : FVec Ideal S2048x16x49x49 .f32 := Host.divf v39 v42
  let v44 : FVec Ideal S2048x16x49x32 .f32 := Host.dotGeneral dot_S2048x16x49x49_S2048x16x49x32_S2048x16x49x32_3_2_2_3_01_01 none v43 v
  let v45 : FVec Ideal S2048x49x16x32 .f32 := transpose S2048x49x16x32 [0, 2, 1, 3] v44 transposes_S2048x16x49x32_S2048x49x16x32_0_2_1_3
  shapeCast S2048x49x512 v45 shapeCasts_S2048x49x16x32_S2048x49x512

/-- The attention from the projected array, the bias and the mask. -/
def attnTerm (Y : FVec Ideal S2048x49x3x16x32 .f32) (bias : FVec Ideal S16x49x49 .f32) (mask : FVec Ideal S64x49x49 .f32) :
    FVec Ideal S2048x49x512 .f32 :=
  tailTerm (logitsTerm (qTerm Y) (kTerm Y) bias mask) (vTerm Y)

/-- The whole reference as a term of its five arguments. -/
def refTerm (x : FVec Ideal S2048x49x512 .f32) (mask : FVec Ideal S64x49x49 .f32) (w : FVec Ideal S1536x512 .f32)
    (bq : FVec Ideal S1536 .f32) (tbl : FVec Ideal S169x16 .f32) : FVec Ideal S2048x49x512 .f32 :=
  attnTerm (projTerm x w bq) (biasTerm tbl) mask

end Cert.ReferenceIdeal.Terms

end
-- ==== Proof.RefRun.lean ====
/-
  The reference program's run. Its @main is a straight line of 54 array operations and no kernel: listed in order,
  every weakly fair execution terminates with each buffer at the fold of the operations' results over the launch
  contents. Read at the result buffer, that fold is the composed term of the five arguments — the dense layer, the
  gathered bias, the logits, the soft maximum applied to the values —, and the arguments' buffers, which no operation
  writes, are unchanged.
-/
import proofs.«110809_j36352603193925_2_alg».proof.Proof.Gen.ReferenceIdeal
import proofs.«110809_j36352603193925_2_alg».proof.Proof.RefTerms
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's 54 operations, in order. -/
abbrev ops : List (HloOp τ sig (Elt F)) :=
  [
    nullary main_c (fun i => lit0 (S49x49.rowMajor i)),
    binary main_arg0 main_arg2 main_v0 ((fun l r => Host.dotGeneral dot_S2048x49x512_S1536x512_S2048x49x1536_2_1_01_0_n_n none l r) : (⟨S2048x49x512, .f32⟩ : BufTy).Contents (Elt F) → (⟨S1536x512, .f32⟩ : BufTy).Contents (Elt F) → (⟨S2048x49x1536, .f32⟩ : BufTy).Contents (Elt F)),
    unary main_arg3 main_v1 (broadcastInDim S1x1x1536 ![2] bcast_S1536_S1x1x1536_2 : (⟨S1536, .f32⟩ : BufTy).Contents (Elt F) → (⟨S1x1x1536, .f32⟩ : BufTy).Contents (Elt F)),
    unary main_v1 main_v2 (broadcastInDim S2048x49x1536 ![0, 1, 2] bcast_S1x1x1536_S2048x49x1536_0_1_2 : (⟨S1x1x1536, .f32⟩ : BufTy).Contents (Elt F) → (⟨S2048x49x1536, .f32⟩ : BufTy).Contents (Elt F)),
    binary main_v0 main_v2 main_v3 (addf : (⟨S2048x49x1536, .f32⟩ : BufTy).Contents (Elt F) → (⟨S2048x49x1536, .f32⟩ : BufTy).Contents (Elt F) → (⟨S2048x49x1536, .f32⟩ : BufTy).Contents (Elt F)),
    reshape main_v3 main_v4 rfl shapeCasts_S2048x49x1536_S2048x49x3x16x32,
    unary main_v4 main_v5 ((transpose S3x2048x16x49x32 [2, 0, 3, 1, 4] · transposes_S2048x49x3x16x32_S3x2048x16x49x32_2_0_3_1_4) : (⟨S2048x49x3x16x32, .f32⟩ : BufTy).Contents (Elt F) → (⟨S3x2048x16x49x32, .f32⟩ : BufTy).Contents (Elt F)),
    unary main_v5 main_v6 ((extractStridedSlice S1x2048x16x49x32 ![0, 0, 0, 0, 0] · slices_S3x2048x16x49x32_S1x2048x16x49x32_0_0_0_0_0) : (⟨S3x2048x16x49x32, .f32⟩ : BufTy).Contents (Elt F) → (⟨S1x2048x16x49x32, .f32⟩ : BufTy).Contents (Elt F)),
    reshape main_v6 main_v7 rfl shapeCasts_S1x2048x16x49x32_S2048x16x49x32,
    unary main_v5 main_v8 ((extractStridedSlice S1x2048x16x49x32 ![1, 0, 0, 0, 0] · slices_S3x2048x16x49x32_S1x2048x16x49x32_1_0_0_0_0) : (⟨S3x2048x16x49x32, .f32⟩ : BufTy).Contents (Elt F) → (⟨S1x2048x16x49x32, .f32⟩ : BufTy).Contents (Elt F)),
    reshape main_v8 main_v9 rfl shapeCasts_S1x2048x16x49x32_S2048x16x49x32,
    unary main_v5 main_v10 ((extractStridedSlice S1x2048x16x49x32 ![2, 0, 0, 0, 0] · slices_S3x2048x16x49x32_S1x2048x16x49x32_2_0_0_0_0) : (⟨S3x2048x16x49x32, .f32⟩ : BufTy).Contents (Elt F) → (⟨S1x2048x16x49x32, .f32⟩ : BufTy).Contents (Elt F)),
    reshape main_v10 main_v11 rfl shapeCasts_S1x2048x16x49x32_S2048x16x49x32,
    nullary main_cst (constant S_ .f32 0x3E3504F3#32),
    unary main_cst main_v12 (broadcastInDim S2048x16x49x32 ![] bcast_S_S2048x16x49x32 : (⟨S_, .f32⟩ : BufTy).Contents (Elt F) → (⟨S2048x16x49x32, .f32⟩ : BufTy).Contents (Elt F)),
    binary main_v7 main_v12 main_v13 (mulf : (⟨S2048x16x49x32, .f32⟩ : BufTy).Contents (Elt F) → (⟨S2048x16x49x32, .f32⟩ : BufTy).Contents (Elt F) → (⟨S2048x16x49x32, .f32⟩ : BufTy).Contents (Elt F)),
    binary main_v13 main_v9 main_v14 ((fun l r => Host.dotGeneral dot_S2048x16x49x32_S2048x16x49x32_S2048x16x49x49_3_3_2_2_01_01 none l r) : (⟨S2048x16x49x32, .f32⟩ : BufTy).Contents (Elt F) → (⟨S2048x16x49x32, .f32⟩ : BufTy).Contents (Elt F) → (⟨S2048x16x49x49, .f32⟩ : BufTy).Contents (Elt F)),
    reshape main_c main_v15 rfl shapeCasts_S49x49_S2401,
    nullary main_c_0 (constantI S_ 32 0#32),
    unary main_c_0 main_v16 (broadcastInDim S2401 ![] bcast_S_S2401 : (⟨S_, .i32⟩ : BufTy).Contents (Elt F) → (⟨S2401, .i32⟩ : BufTy).Contents (Elt F)),
    binary main_v15 main_v16 main_v17 (cmpi .slt : (⟨S2401, .i32⟩ : BufTy).Contents (Elt F) → (⟨S2401, .i32⟩ : BufTy).Contents (Elt F) → (⟨S2401, .i1⟩ : BufTy).Contents (Elt F)),
    nullary main_c_1 (constantI S_ 32 169#32),
    unary main_c_1 main_v18 (broadcastInDim S2401 ![] bcast_S_S2401 : (⟨S_, .i32⟩ : BufTy).Contents (Elt F) → (⟨S2401, .i32⟩ : BufTy).Contents (Elt F)),
    binary main_v15 main_v18 main_v19 (addi : (⟨S2401, .i32⟩ : BufTy).Contents (Elt F) → (⟨S2401, .i32⟩ : BufTy).Contents (Elt F) → (⟨S2401, .i32⟩ : BufTy).Contents (Elt F)),
    ternary main_v17 main_v19 main_v15 main_v20 (select : (⟨S2401, .i1⟩ : BufTy).Contents (Elt F) → (⟨S2401, .i32⟩ : BufTy).Contents (Elt F) → (⟨S2401, .i32⟩ : BufTy).Contents (Elt F) → (⟨S2401, .i32⟩ : BufTy).Contents (Elt F)),
    unary main_v20 main_v21 (broadcastInDim S2401x1 ![0] bcast_S2401_S2401x1_0 : (⟨S2401, .i32⟩ : BufTy).Contents (Elt F) → (⟨S2401x1, .i32⟩ : BufTy).Contents (Elt F)),
    binary main_arg4 main_v21 main_v22 ((fun x i => Host.gather gather_S169x16_S2401x1_S2401x16_1_0_n_n_0_1_116 x i) : (⟨S169x16, .f32⟩ : BufTy).Contents (Elt F) → (⟨S2401x1, .i32⟩ : BufTy).Contents (Elt F) → (⟨S2401x16, .f32⟩ : BufTy).Contents (Elt F)),
    reshape main_v22 main_v23 rfl shapeCasts_S2401x16_S49x49x16,
    unary main_v23 main_v24 ((transpose S16x49x49 [2, 0, 1] · transposes_S49x49x16_S16x49x49_2_0_1) : (⟨S49x49x16, .f32⟩ : BufTy).Contents (Elt F) → (⟨S16x49x49, .f32⟩ : BufTy).Contents (Elt F)),
    unary main_v24 main_v25 (broadcastInDim S1x16x49x49 ![1, 2, 3] bcast_S16x49x49_S1x16x49x49_1_2_3 : (⟨S16x49x49, .f32⟩ : BufTy).Contents (Elt F) → (⟨S1x16x49x49, .f32⟩ : BufTy).Contents (Elt F)),
    unary main_v25 main_v26 (broadcastInDim S2048x16x49x49 ![0, 1, 2, 3] bcast_S1x16x49x49_S2048x16x49x49_0_1_2_3 : (⟨S1x16x49x49, .f32⟩ : BufTy).Contents (Elt F) → (⟨S2048x16x49x49, .f32⟩ : BufTy).Contents (Elt F)),
    binary main_v14 main_v26 main_v27 (addf : (⟨S2048x16x49x49, .f32⟩ : BufTy).Contents (Elt F) → (⟨S2048x16x49x49, .f32⟩ : BufTy).Contents (Elt F) → (⟨S2048x16x49x49, .f32⟩ : BufTy).Contents (Elt F)),
    reshape main_v27 main_v28 rfl shapeCasts_S2048x16x49x49_S32x64x16x49x49,
    unary main_arg1 main_v29 (broadcastInDim S1x64x1x49x49 ![1, 3, 4] bcast_S64x49x49_S1x64x1x49x49_1_3_4 : (⟨S64x49x49, .f32⟩ : BufTy).Contents (Elt F) → (⟨S1x64x1x49x49, .f32⟩ : BufTy).Contents (Elt F)),
    unary main_v29 main_v30 (broadcastInDim S32x64x16x49x49 ![0, 1, 2, 3, 4] bcast_S1x64x1x49x49_S32x64x16x49x49_0_1_2_3_4 : (⟨S1x64x1x49x49, .f32⟩ : BufTy).Contents (Elt F) → (⟨S32x64x16x49x49, .f32⟩ : BufTy).Contents (Elt F)),
    binary main_v28 main_v30 main_v31 (addf : (⟨S32x64x16x49x49, .f32⟩ : BufTy).Contents (Elt F) → (⟨S32x64x16x49x49, .f32⟩ : BufTy).Contents (Elt F) → (⟨S32x64x16x49x49, .f32⟩ : BufTy).Contents (Elt F)),
    reshape main_v31 main_v32 rfl shapeCasts_S32x64x16x49x49_S2048x16x49x49,
    nullary main_cst_2 (constant S_ .f32 0xFF800000#32),
    binary main_v32 main_cst_2 main_v33 ((fun x v => Host.reduce FloatOps.maximumf x v reducesTo_S2048x16x49x49_S2048x16x49_d3 h_S_) : (⟨S2048x16x49x49, .f32⟩ : BufTy).Contents (Elt F) → (⟨S_, .f32⟩ : BufTy).Contents (Elt F) → (⟨S2048x16x49, .f32⟩ : BufTy).Contents (Elt F)),
    nullary main_cst_3 (constant S_ .f32 0xFF800000#32),
    unary main_cst_3 main_v34 (broadcastInDim S2048x16x49 ![] bcast_S_S2048x16x49 : (⟨S_, .f32⟩ : BufTy).Contents (Elt F) → (⟨S2048x16x49, .f32⟩ : BufTy).Contents (Elt F)),
    binary main_v34 main_v33 main_v35 (maximumf : (⟨S2048x16x49, .f32⟩ : BufTy).Contents (Elt F) → (⟨S2048x16x49, .f32⟩ : BufTy).Contents (Elt F) → (⟨S2048x16x49, .f32⟩ : BufTy).Contents (Elt F)),
    unary main_v35 main_v36 (broadcastInDim S2048x16x49x1 ![0, 1, 2] bcast_S2048x16x49_S2048x16x49x1_0_1_2 : (⟨S2048x16x49, .f32⟩ : BufTy).Contents (Elt F) → (⟨S2048x16x49x1, .f32⟩ : BufTy).Contents (Elt F)),
    unary main_v36 main_v37 (broadcastInDim S2048x16x49x49 ![0, 1, 2, 3] bcast_S2048x16x49x1_S2048x16x49x49_0_1_2_3 : (⟨S2048x16x49x1, .f32⟩ : BufTy).Contents (Elt F) → (⟨S2048x16x49x49, .f32⟩ : BufTy).Contents (Elt F)),
    binary main_v32 main_v37 main_v38 (subf : (⟨S2048x16x49x49, .f32⟩ : BufTy).Contents (Elt F) → (⟨S2048x16x49x49, .f32⟩ : BufTy).Contents (Elt F) → (⟨S2048x16x49x49, .f32⟩ : BufTy).Contents (Elt F)),
    unary main_v38 main_v39 (Host.exp : (⟨S2048x16x49x49, .f32⟩ : BufTy).Contents (Elt F) → (⟨S2048x16x49x49, .f32⟩ : BufTy).Contents (Elt F)),
    nullary main_cst_4 (constant S_ .f32 0x00000000#32),
    binary main_v39 main_cst_4 main_v40 ((fun x v => Host.reduceAdd x v reducesTo_S2048x16x49x49_S2048x16x49_d3 h_S_) : (⟨S2048x16x49x49, .f32⟩ : BufTy).Contents (Elt F) → (⟨S_, .f32⟩ : BufTy).Contents (Elt F) → (⟨S2048x16x49, .f32⟩ : BufTy).Contents (Elt F)),
    unary main_v40 main_v41 (broadcastInDim S2048x16x49x1 ![0, 1, 2] bcast_S2048x16x49_S2048x16x49x1_0_1_2 : (⟨S2048x16x49, .f32⟩ : BufTy).Contents (Elt F) → (⟨S2048x16x49x1, .f32⟩ : BufTy).Contents (Elt F)),
    unary main_v41 main_v42 (broadcastInDim S2048x16x49x49 ![0, 1, 2, 3] bcast_S2048x16x49x1_S2048x16x49x49_0_1_2_3 : (⟨S2048x16x49x1, .f32⟩ : BufTy).Contents (Elt F) → (⟨S2048x16x49x49, .f32⟩ : BufTy).Contents (Elt F)),
    binary main_v39 main_v42 main_v43 (Host.divf : (⟨S2048x16x49x49, .f32⟩ : BufTy).Contents (Elt F) → (⟨S2048x16x49x49, .f32⟩ : BufTy).Contents (Elt F) → (⟨S2048x16x49x49, .f32⟩ : BufTy).Contents (Elt F)),
    binary main_v43 main_v11 main_v44 ((fun l r => Host.dotGeneral dot_S2048x16x49x49_S2048x16x49x32_S2048x16x49x32_3_2_2_3_01_01 none l r) : (⟨S2048x16x49x49, .f32⟩ : BufTy).Contents (Elt F) → (⟨S2048x16x49x32, .f32⟩ : BufTy).Contents (Elt F) → (⟨S2048x16x49x32, .f32⟩ : BufTy).Contents (Elt F)),
    unary main_v44 main_v45 ((transpose S2048x49x16x32 [0, 2, 1, 3] · transposes_S2048x16x49x32_S2048x49x16x32_0_2_1_3) : (⟨S2048x16x49x32, .f32⟩ : BufTy).Contents (Elt F) → (⟨S2048x49x16x32, .f32⟩ : BufTy).Contents (Elt F)),
    reshape main_v45 main_v46 rfl shapeCasts_S2048x49x16x32_S2048x49x512 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨
    nullary_bufs_sub .., binary_bufs_sub .., unary_bufs_sub .., unary_bufs_sub .., binary_bufs_sub .., reshape_bufs_sub .., unary_bufs_sub .., unary_bufs_sub ..,
    reshape_bufs_sub .., unary_bufs_sub .., reshape_bufs_sub .., unary_bufs_sub .., reshape_bufs_sub .., nullary_bufs_sub .., unary_bufs_sub .., binary_bufs_sub ..,
    binary_bufs_sub .., reshape_bufs_sub .., nullary_bufs_sub .., unary_bufs_sub .., binary_bufs_sub .., nullary_bufs_sub .., unary_bufs_sub .., binary_bufs_sub ..,
    ternary_bufs_sub .., unary_bufs_sub .., binary_bufs_sub .., reshape_bufs_sub .., unary_bufs_sub .., unary_bufs_sub .., unary_bufs_sub .., binary_bufs_sub ..,
    reshape_bufs_sub .., unary_bufs_sub .., unary_bufs_sub .., binary_bufs_sub .., reshape_bufs_sub .., nullary_bufs_sub .., binary_bufs_sub .., nullary_bufs_sub ..,
    unary_bufs_sub .., binary_bufs_sub .., unary_bufs_sub .., unary_bufs_sub .., binary_bufs_sub .., unary_bufs_sub .., nullary_bufs_sub .., binary_bufs_sub ..,
    unary_bufs_sub .., unary_bufs_sub .., binary_bufs_sub .., binary_bufs_sub .., unary_bufs_sub .., reshape_bufs_sub ..⟩

/-- The result buffer after the 54 operations, from any contents: the composed term of the five argument buffers. -/
theorem after_v46 (V : Valuation τ sig (Elt Ideal)) :
    after (ops (F := Ideal)) V (Proc.devRef .tc main_v46)
      = Cert.ReferenceIdeal.Terms.refTerm (V (Proc.devRef .tc main_arg0)) (V (Proc.devRef .tc main_arg1)) (V (Proc.devRef .tc main_arg2))
          (V (Proc.devRef .tc main_arg3)) (V (Proc.devRef .tc main_arg4)) := by
  after_results_simp
  unfold Terms.refTerm Terms.attnTerm Terms.tailTerm Terms.logitsTerm Terms.qTerm Terms.kTerm Terms.vTerm Terms.partsTerm
    Terms.biasTerm Terms.relIdx Terms.projTerm
  rfl

/-- On every device, from any memory with zero counters: every weakly fair execution of @main terminates with the
    result buffer at the composed term of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v46) = Cert.ReferenceIdeal.Terms.refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v46).trans (after_v46 _),
      (h c main_arg0).trans (by after_results_simp),
      (h c main_arg1).trans (by after_results_simp),
      (h c main_arg2).trans (by after_results_simp),
      (h c main_arg3).trans (by after_results_simp),
      (h c main_arg4).trans (by after_results_simp)⟩)
    (run_seq scopedRefs_eq scopedSems_eq defs main (fun _ => ops) main_eq (fun _ => ops_sub) m ρ)

end Cert.ReferenceIdeal.Value

end
-- ==== Proof.RefLogits.lean ====
/-
  The reference's three parts and its logits, read at an index.

  The projected array Y is laid out (window, token, part, head, lane). The reference moves the part axis to the
  front and heads before tokens, cuts the block of one part, and drops the unit axis: queries, keys and values
  at (window b, head h, token n, lane d) are Y at (b, n, part, h, d) with part 0, 1, 2.

  The logits at (b, h, n, m) are the contraction over the lane d of the scaled query (q[b,h,n,d] · s) against the
  key k[b,h,m,d], plus the bias at (h, n, m), plus the mask at (b mod 64, n, m): the mask is added after the
  window axis 2048 is split as 32 × 64, so window b sits at (b / 64, b mod 64), and the array is joined back.
-/
import proofs.«110809_j36352603193925_2_alg».proof.Proof.RefTerms
import proofs.«110809_j36352603193925_2_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.ReferenceIdeal.Logits

open Idealize.ShloMosaic Idealize.ShloMosaic.ValueIdx Cert.ReferenceIdeal Cert.ReferenceIdeal.Gen Cert.ReferenceIdeal.Terms
  Cert.WinAttn

/-! ## The three parts -/

section Parts
variable {α : Type}

/-- The array with the part axis first and heads before tokens reads, at (part j, window b, head h, token n, lane d),
    the operand at (b, n, j, h, d). -/
theorem parts_at (Y : S2048x49x3x16x32.Idx → α) (j : Fin 3) (b : Fin 2048) (h : Fin 16) (n : Fin 49) (d : Fin 32) :
    transpose S3x2048x16x49x32 [2, 0, 3, 1, 4] Y transposes_S2048x49x3x16x32_S3x2048x16x49x32_2_0_3_1_4 (ix5 j b h n d)
      = Y (ix5 b n j h d) :=
  transpose_apply _ Y _ (ix5 j b h n d) (ix5 b n j h d) fun c =>
    match c with | ⟨0, _⟩ => rfl | ⟨1, _⟩ => rfl | ⟨2, _⟩ => rfl | ⟨3, _⟩ => rfl | ⟨4, _⟩ => rfl

/-- The block of part p, of extent one along the part axis, reads the whole array at part p. -/
theorem partBlock_at (X : S3x2048x16x49x32.Idx → α) (p : Fin 3) (hs : S3x2048x16x49x32.Slices ![p.val, 0, 0, 0, 0] S1x2048x16x49x32)
    (b : Fin 2048) (h : Fin 16) (n : Fin 49) (d : Fin 32) :
    extractStridedSlice S1x2048x16x49x32 ![p.val, 0, 0, 0, 0] X hs (ix5 (0 : Fin 1) b h n d) = X (ix5 p b h n d) :=
  extractStridedSlice_apply _ X hs (ix5 (0 : Fin 1) b h n d) (ix5 p b h n d) fun a =>
    match a with
    | ⟨0, _⟩ => by show p.val = p.val + 0; omega
    | ⟨1, _⟩ => by show b.val = 0 + b.val; omega
    | ⟨2, _⟩ => by show h.val = 0 + h.val; omega
    | ⟨3, _⟩ => by show n.val = 0 + n.val; omega
    | ⟨4, _⟩ => by show d.val = 0 + d.val; omega

/-- Dropping the leading unit axis: (b, h, n, d) reads (0, b, h, n, d). -/
theorem dropUnit_at (X : S1x2048x16x49x32.Idx → α) (b : Fin 2048) (h : Fin 16) (n : Fin 49) (d : Fin 32) :
    shapeCast S2048x16x49x32 X shapeCasts_S1x2048x16x49x32_S2048x16x49x32 (ix4 b h n d) = X (ix5 (0 : Fin 1) b h n d) :=
  shapeCast_apply X _ (ix4 b h n d) (ix5 (0 : Fin 1) b h n d) (by
    rw [Shape.rowMajor_val_five, Shape.rowMajor_val_four]
    show (((0 * 2048 + b.val) * 16 + h.val) * 49 + n.val) * 32 + d.val = ((b.val * 16 + h.val) * 49 + n.val) * 32 + d.val
    rw [Nat.zero_mul, Nat.zero_add])

end Parts

theorem partsTerm_at (Y : FVec Ideal S2048x49x3x16x32 .f32) (j : Fin 3) (b : Fin 2048) (h : Fin 16) (n : Fin 49) (d : Fin 32) :
    partsTerm Y (ix5 j b h n d) = Y (ix5 b n j h d) :=
  parts_at Y j b h n d

/-- The queries at (window, head, token, lane) are part 0 of the projected array. -/
theorem qTerm_at (Y : FVec Ideal S2048x49x3x16x32 .f32) (b : Fin 2048) (h : Fin 16) (n : Fin 49) (d : Fin 32) :
    qTerm Y (ix4 b h n d) = Y (ix5 b n (0 : Fin 3) h d) := by
  unfold qTerm
  rw [dropUnit_at]
  exact (partBlock_at (partsTerm Y) (0 : Fin 3) _ b h n d).trans (partsTerm_at Y 0 b h n d)

/-- The keys are part 1. -/
theorem kTerm_at (Y : FVec Ideal S2048x49x3x16x32 .f32) (b : Fin 2048) (h : Fin 16) (n : Fin 49) (d : Fin 32) :
    kTerm Y (ix4 b h n d) = Y (ix5 b n (1 : Fin 3) h d) := by
  unfold kTerm
  rw [dropUnit_at]
  exact (partBlock_at (partsTerm Y) (1 : Fin 3) _ b h n d).trans (partsTerm_at Y 1 b h n d)

/-- The values are part 2. -/
theorem vTerm_at (Y : FVec Ideal S2048x49x3x16x32 .f32) (b : Fin 2048) (h : Fin 16) (n : Fin 49) (d : Fin 32) :
    vTerm Y (ix4 b h n d) = Y (ix5 b n (2 : Fin 3) h d) := by
  unfold vTerm
  rw [dropUnit_at]
  exact (partBlock_at (partsTerm Y) (2 : Fin 3) _ b h n d).trans (partsTerm_at Y 2 b h n d)

/-! ## The logits -/

/-- The scale word broadcast from a scalar reads the scale everywhere. -/
theorem scale_at (i : S2048x16x49x32.Idx) :
    broadcastInDim S2048x16x49x32 ![] bcast_S_S2048x16x49x32 (constant (F := Ideal) S_ .f32 0x3E3504F3#32) i = scl := by
  rw [broadcastInDim_scalar_apply, constant_apply]
  rfl

/-- The left operand of the contraction at output (b, h, n, m) and lane d is read at (b, h, n, d). -/
theorem lhsIdx_logits (b : Fin 2048) (h : Fin 16) (n m : Fin 49) (d : Fin 32) :
    dot_S2048x16x49x32_S2048x16x49x32_S2048x16x49x49_3_3_2_2_01_01.lhsIdx (ix4 b h n m)
      ((contrEquiv1 dot_S2048x16x49x32_S2048x16x49x32_S2048x16x49x49_3_3_2_2_01_01 32 rfl rfl).symm d) = ix4 b h n d := by
  have c2 := contrEquiv1_symm_val dot_S2048x16x49x32_S2048x16x49x32_S2048x16x49x49_3_3_2_2_01_01 32 rfl rfl d
  funext ax; apply Fin.ext
  match ax with
  | ⟨0, _⟩ => simp [DotDims.lhsIdx, dot_S2048x16x49x32_S2048x16x49x32_S2048x16x49x49_3_3_2_2_01_01]; rfl
  | ⟨1, _⟩ => simp [DotDims.lhsIdx, dot_S2048x16x49x32_S2048x16x49x32_S2048x16x49x49_3_3_2_2_01_01]; rfl
  | ⟨2, _⟩ => simp [DotDims.lhsIdx, dot_S2048x16x49x32_S2048x16x49x32_S2048x16x49x49_3_3_2_2_01_01]; rfl
  | ⟨3, _⟩ => simp [DotDims.lhsIdx, dot_S2048x16x49x32_S2048x16x49x32_S2048x16x49x49_3_3_2_2_01_01]; exact c2

/-- The right operand is read at (b, h, m, d). -/
theorem rhsIdx_logits (b : Fin 2048) (h : Fin 16) (n m : Fin 49) (d : Fin 32) :
    dot_S2048x16x49x32_S2048x16x49x32_S2048x16x49x49_3_3_2_2_01_01.rhsIdx (ix4 b h n m)
      ((contrEquiv1 dot_S2048x16x49x32_S2048x16x49x32_S2048x16x49x49_3_3_2_2_01_01 32 rfl rfl).symm d) = ix4 b h m d := by
  have c2 := contrEquiv1_symm_val dot_S2048x16x49x32_S2048x16x49x32_S2048x16x49x49_3_3_2_2_01_01 32 rfl rfl d
  funext ax; apply Fin.ext
  match ax with
  | ⟨0, _⟩ => simp [DotDims.rhsIdx, dot_S2048x16x49x32_S2048x16x49x32_S2048x16x49x49_3_3_2_2_01_01]; rfl
  | ⟨1, _⟩ => simp [DotDims.rhsIdx, dot_S2048x16x49x32_S2048x16x49x32_S2048x16x49x49_3_3_2_2_01_01]; rfl
  | ⟨2, _⟩ => simp [DotDims.rhsIdx, dot_S2048x16x49x32_S2048x16x49x32_S2048x16x49x49_3_3_2_2_01_01]; rfl
  | ⟨3, _⟩ => simp [DotDims.rhsIdx, dot_S2048x16x49x32_S2048x16x49x32_S2048x16x49x49_3_3_2_2_01_01]; exact c2

/-- Queries against keys: for each window and head, the contraction over the lane. -/
theorem dot_at (A K : FVec Ideal S2048x16x49x32 .f32) (b : Fin 2048) (h : Fin 16) (n m : Fin 49) :
    Host.dotGeneral dot_S2048x16x49x32_S2048x16x49x32_S2048x16x49x49_3_3_2_2_01_01 none A K (ix4 b h n m)
      = ∑ d : Fin 32, A (ix4 b h n d) * K (ix4 b h m d) := by
  show FloatOps.dotGeneral _ none _ A K (ix4 b h n m) = _
  rw [Ideal.dotGeneral_apply,
    ← Equiv.sum_comp (contrEquiv1 dot_S2048x16x49x32_S2048x16x49x32_S2048x16x49x49_3_3_2_2_01_01 32 rfl rfl).symm]
  refine Finset.sum_congr rfl fun d _ => ?_
  rw [lhsIdx_logits, rhsIdx_logits]

section Layout
variable {α : Type}

/-- The bias (head, token, token) broadcast over the windows by way of a leading unit axis. -/
theorem biasBcast_at (bias : S16x49x49.Idx → α) (b : Fin 2048) (h : Fin 16) (n m : Fin 49) :
    broadcastInDim S2048x16x49x49 ![0, 1, 2, 3] bcast_S1x16x49x49_S2048x16x49x49_0_1_2_3
      (broadcastInDim S1x16x49x49 ![1, 2, 3] bcast_S16x49x49_S1x16x49x49_1_2_3 bias) (ix4 b h n m) = bias (ix3 h n m) := by
  rw [broadcastInDim_apply ![0, 1, 2, 3] bcast_S1x16x49x49_S2048x16x49x49_0_1_2_3 _ (ix4 b h n m) (ix4 (0 : Fin 1) h n m)
    (fun ax => match ax with | ⟨0, _⟩ => rfl | ⟨1, _⟩ => rfl | ⟨2, _⟩ => rfl | ⟨3, _⟩ => rfl)]
  exact broadcastInDim_apply ![1, 2, 3] bcast_S16x49x49_S1x16x49x49_1_2_3 bias (ix4 (0 : Fin 1) h n m) (ix3 h n m)
    (fun ax => match ax with | ⟨0, _⟩ => rfl | ⟨1, _⟩ => rfl | ⟨2, _⟩ => rfl)

/-- The mask (class, token, token) broadcast over the 32 groups of windows and the heads. -/
theorem maskBcast_at (mask : S64x49x49.Idx → α) (g : Fin 32) (c : Fin 64) (h : Fin 16) (n m : Fin 49) :
    broadcastInDim S32x64x16x49x49 ![0, 1, 2, 3, 4] bcast_S1x64x1x49x49_S32x64x16x49x49_0_1_2_3_4
      (broadcastInDim S1x64x1x49x49 ![1, 3, 4] bcast_S64x49x49_S1x64x1x49x49_1_3_4 mask) (ix5 g c h n m) = mask (ix3 c n m) := by
  rw [broadcastInDim_apply ![0, 1, 2, 3, 4] bcast_S1x64x1x49x49_S32x64x16x49x49_0_1_2_3_4 _ (ix5 g c h n m)
    (ix5 (0 : Fin 1) c (0 : Fin 1) n m)
    (fun ax => match ax with | ⟨0, _⟩ => rfl | ⟨1, _⟩ => rfl | ⟨2, _⟩ => rfl | ⟨3, _⟩ => rfl | ⟨4, _⟩ => rfl)]
  exact broadcastInDim_apply ![1, 3, 4] bcast_S64x49x49_S1x64x1x49x49_1_3_4 mask (ix5 (0 : Fin 1) c (0 : Fin 1) n m) (ix3 c n m)
    (fun ax => match ax with | ⟨0, _⟩ => rfl | ⟨1, _⟩ => rfl | ⟨2, _⟩ => rfl)

/-- The window axis split as 32 × 64: (g, c, h, n, m) reads window g · 64 + c. -/
theorem splitWin_at (X : S2048x16x49x49.Idx → α) (g : Fin 32) (c : Fin 64) (h : Fin 16) (n m : Fin 49) (b : Fin 2048)
    (hb : b.val = g.val * 64 + c.val) :
    shapeCast S32x64x16x49x49 X shapeCasts_S2048x16x49x49_S32x64x16x49x49 (ix5 g c h n m) = X (ix4 b h n m) :=
  shapeCast_apply X _ (ix5 g c h n m) (ix4 b h n m) (by
    rw [Shape.rowMajor_val_five, Shape.rowMajor_val_four]
    show ((b.val * 16 + h.val) * 49 + n.val) * 49 + m.val = (((g.val * 64 + c.val) * 16 + h.val) * 49 + n.val) * 49 + m.val
    rw [hb])

/-- The two axes joined back: window b reads (g, c) with b = g · 64 + c. -/
theorem joinWin_at (X : S32x64x16x49x49.Idx → α) (g : Fin 32) (c : Fin 64) (h : Fin 16) (n m : Fin 49) (b : Fin 2048)
    (hb : b.val = g.val * 64 + c.val) :
    shapeCast S2048x16x49x49 X shapeCasts_S32x64x16x49x49_S2048x16x49x49 (ix4 b h n m) = X (ix5 g c h n m) :=
  shapeCast_apply X _ (ix4 b h n m) (ix5 g c h n m) (by
    rw [Shape.rowMajor_val_five, Shape.rowMajor_val_four]
    show (((g.val * 64 + c.val) * 16 + h.val) * 49 + n.val) * 49 + m.val = ((b.val * 16 + h.val) * 49 + n.val) * 49 + m.val
    rw [hb])

end Layout

/-- The logits at (window b, head h, token n, token m): scaled queries against keys over the lane, plus the bias of
    the head, plus the mask of the window's class b mod 64. -/
theorem logitsTerm_at (q k : FVec Ideal S2048x16x49x32 .f32) (bias : FVec Ideal S16x49x49 .f32) (mask : FVec Ideal S64x49x49 .f32)
    (b : Fin 2048) (h : Fin 16) (n m : Fin 49) :
    logitsTerm q k bias mask (ix4 b h n m)
      = ((∑ d : Fin 32, (q (ix4 b h n d) * scl) * k (ix4 b h m d)) + bias (ix3 h n m)) + mask (ix3 (wcls b) n m) := by
  have hg : b.val / 64 < 32 := by have := b.isLt; omega
  have hb : b.val = (⟨b.val / 64, hg⟩ : Fin 32).val * 64 + (wcls b).val := by
    show b.val = b.val / 64 * 64 + b.val % 64
    omega
  unfold logitsTerm
  dsimp only
  rw [joinWin_at _ ⟨b.val / 64, hg⟩ (wcls b) h n m b hb, addf_apply, splitWin_at _ ⟨b.val / 64, hg⟩ (wcls b) h n m b hb,
    maskBcast_at, addf_apply, biasBcast_at, dot_at]
  refine congrArg (· + mask (ix3 (wcls b) n m)) (congrArg (· + bias (ix3 h n m)) (Finset.sum_congr rfl fun d _ => ?_))
  rw [mulf_apply, scale_at]

end Cert.ReferenceIdeal.Logits

end
-- ==== Proof.RefTail.lean ====
/-
  The reference's soft maximum and output stage, read at one entry.

  For window b, head h and token n the row of logits L[b,h,n,·] is reduced to its maximum (folded from minus infinity,
  and taken once more against minus infinity, which changes nothing), the maximum is subtracted, the exponentials are
  divided by their row sum, and the resulting weights are contracted with the values v[b,h,·,d]. The result is laid out
  as (window, token, channel) with channel = head · 32 + lane, so entry (b, n, c) is head c / 32 at lane c % 32.
-/
import proofs.«110809_j36352603193925_2_alg».proof.Proof.RefTerms
import proofs.«110809_j36352603193925_2_alg».proof.Proof.Spec
import Idealize.ShloMosaic.Lib.IdealHost
import Idealize.ShloMosaic.Lib.ValueLayout
import Idealize.ShloMosaic.Lib.Pipeline.Value

noncomputable section

namespace Cert.ReferenceIdeal.Tail

open Idealize.ShloMosaic Idealize.ShloMosaic.ValueIdx Cert.ReferenceIdeal Cert.ReferenceIdeal.Gen Cert.ReferenceIdeal.Terms Cert.WinAttn

/-! ## The row reductions -/

/-- The index of the logits obtained by inserting the key token m into (window, head, token). -/
theorem lift_eq (h : S2048x16x49x49.Reduces [3] S2048x16x49) (b : Fin 2048) (hh : Fin 16) (n : Fin 49) (m : Fin 49) :
    h.lift (ix3 b hh n) m = ix4 b hh n m := by
  funext c; apply Fin.ext
  match c with
  | ⟨0, _⟩ => rfl
  | ⟨1, _⟩ => rfl
  | ⟨2, _⟩ => rfl
  | ⟨3, _⟩ => rfl

/-- The maximum over the key axis, folded from minus infinity, is the row's maximum. -/
theorem max_read (L : FVec Ideal S2048x16x49x49 .f32) (h' : S2048x16x49x49.ReducesTo [3] S2048x16x49) (hu : 0 < S_.numel)
    (b : Fin 2048) (hh : Fin 16) (n : Fin 49) :
    Host.reduce FloatOps.maximumf L (constant (F := Ideal) S_ .f32 0xFF800000#32) h' hu (ix3 b hh n)
      = rowMax (fun m => L (ix4 b hh n m)) := by
  have h : S2048x16x49x49.Reduces [3] S2048x16x49 := by decide
  refine (Host.reduce_eq_fold_single FloatOps.maximumf L _ h' h hu (ix3 b hh n)).trans ?_
  have e : (L ∘ h.lift (ix3 b hh n)) = fun m : Fin 49 => L (ix4 b hh n m) :=
    funext fun m => congrArg L (lift_eq h b hh n m)
  rw [e]
  rfl

/-- The sum over the key axis from the zero word is the row's sum. -/
theorem sum_read (E : FVec Ideal S2048x16x49x49 .f32) (h' : S2048x16x49x49.ReducesTo [3] S2048x16x49) (hu : 0 < S_.numel)
    (b : Fin 2048) (hh : Fin 16) (n : Fin 49) :
    Host.reduceAdd E (constant (F := Ideal) S_ .f32 0x00000000#32) h' hu (ix3 b hh n) = ∑ m : Fin 49, E (ix4 b hh n m) := by
  have h : S2048x16x49x49.Reduces [3] S2048x16x49 := by decide
  rw [hostReduceAdd_apply, Ideal.hostReduceAdd_single h' h, constant_apply, Ideal.ofBits_zero_f32, zero_add]
  exact Finset.sum_congr rfl fun m _ => congrArg E (lift_eq h b hh n m)

/-- The maximum taken once more against minus infinity is still the row's maximum. -/
theorem max_again (f : Fin 49 → EReal) : max negInf (rowMax f) = rowMax f :=
  max_eq_right (by unfold rowMax; exact (Finset.le_fold_max _).mpr (Or.inl le_rfl))

/-! ## The layout operations -/

/-- A per-row value broadcast back along the key axis reads the row's value. -/
theorem keep_read {α : Type} (x : S2048x16x49.Idx → α)
    (h1 : S2048x16x49.BroadcastsInDim S2048x16x49x1 ![0, 1, 2])
    (h2 : S2048x16x49x1.BroadcastsInDim S2048x16x49x49 ![0, 1, 2, 3])
    (b : Fin 2048) (hh : Fin 16) (n : Fin 49) (m : Fin 49) :
    broadcastInDim S2048x16x49x49 ![0, 1, 2, 3] h2 (broadcastInDim S2048x16x49x1 ![0, 1, 2] h1 x) (ix4 b hh n m)
      = x (ix3 b hh n) := by
  rw [broadcastInDim_apply ![0, 1, 2, 3] h2 _ (ix4 b hh n m) (ix4 b hh n (0 : Fin 1)) (fun ax => by
    match ax with
    | ⟨0, _⟩ =>
      show b.val = if (2048 : Nat) = 1 then 0 else b.val
      split
      · omega
      · rfl
    | ⟨1, _⟩ =>
      show hh.val = if (16 : Nat) = 1 then 0 else hh.val
      split
      · omega
      · rfl
    | ⟨2, _⟩ =>
      show n.val = if (49 : Nat) = 1 then 0 else n.val
      split
      · omega
      · rfl
    | ⟨3, _⟩ => rfl)]
  exact broadcastInDim_apply ![0, 1, 2] h1 x (ix4 b hh n (0 : Fin 1)) (ix3 b hh n) (fun ax => by
    match ax with
    | ⟨0, _⟩ =>
      show b.val = if (2048 : Nat) = 1 then 0 else b.val
      split
      · omega
      · rfl
    | ⟨1, _⟩ =>
      show hh.val = if (16 : Nat) = 1 then 0 else hh.val
      split
      · omega
      · rfl
    | ⟨2, _⟩ =>
      show n.val = if (49 : Nat) = 1 then 0 else n.val
      split
      · omega
      · rfl)

/-- Moving heads behind tokens: entry (b, n, h, d) of the result is entry (b, h, n, d) of the operand. -/
theorem swap_read {α : Type} (x : S2048x16x49x32.Idx → α) (h : S2048x16x49x32.Transposes [0, 2, 1, 3] S2048x49x16x32)
    (b : Fin 2048) (n : Fin 49) (hh : Fin 16) (d : Fin 32) :
    transpose S2048x49x16x32 [0, 2, 1, 3] x h (ix4 b n hh d) = x (ix4 b hh n d) :=
  transpose_apply [0, 2, 1, 3] x h (ix4 b n hh d) (ix4 b hh n d) (fun ax => by
    match ax with
    | ⟨0, _⟩ => rfl
    | ⟨1, _⟩ => rfl
    | ⟨2, _⟩ => rfl
    | ⟨3, _⟩ => rfl)

/-- Merging head and lane into one channel: channel c is head c / 32 at lane c % 32. -/
theorem merge_read {α : Type} (x : S2048x49x16x32.Idx → α) (h : S2048x49x16x32.ShapeCasts S2048x49x512)
    (b : Fin 2048) (n : Fin 49) (c : Fin 512) :
    shapeCast S2048x49x512 x h (ix3 b n c) = x (ix4 b n (chHead c) (chLane c)) := by
  refine shapeCast_apply x h (ix3 b n c) (ix4 b n (chHead c) (chLane c)) ?_
  rw [Shape.rowMajor_val_four, Shape.rowMajor_val_three]
  show ((b.val * 49 + n.val) * 16 + c.val / 32) * 32 + c.val % 32 = (b.val * 49 + n.val) * 512 + c.val
  omega

/-! ## The weights against the values -/

/-- The product's dimension numbers: windows and heads are batch axes, the key axis is contracted. -/
abbrev DV : DotDims S2048x16x49x49 S2048x16x49x32 S2048x16x49x32 :=
  dot_S2048x16x49x49_S2048x16x49x32_S2048x16x49x32_3_2_2_3_01_01

/-- The weights' index at output (b, h, n, d) and contracted key m is (b, h, n, m). -/
theorem lhsIdx_DV (b : Fin 2048) (hh : Fin 16) (n : Fin 49) (d : Fin 32) (m : Fin 49) :
    DV.lhsIdx (ix4 b hh n d) ((contrEquiv1 DV 49 rfl rfl).symm m) = ix4 b hh n m := by
  have c2 := contrEquiv1_symm_val DV 49 rfl rfl m
  funext ax; apply Fin.ext
  match ax with
  | ⟨0, _⟩ => simp [DotDims.lhsIdx, DV, dot_S2048x16x49x49_S2048x16x49x32_S2048x16x49x32_3_2_2_3_01_01]; rfl
  | ⟨1, _⟩ => simp [DotDims.lhsIdx, DV, dot_S2048x16x49x49_S2048x16x49x32_S2048x16x49x32_3_2_2_3_01_01]; rfl
  | ⟨2, _⟩ => simp [DotDims.lhsIdx, DV, dot_S2048x16x49x49_S2048x16x49x32_S2048x16x49x32_3_2_2_3_01_01]; rfl
  | ⟨3, _⟩ => simp [DotDims.lhsIdx, DV, dot_S2048x16x49x49_S2048x16x49x32_S2048x16x49x32_3_2_2_3_01_01]; exact c2

/-- The values' index at output (b, h, n, d) and contracted key m is (b, h, m, d). -/
theorem rhsIdx_DV (b : Fin 2048) (hh : Fin 16) (n : Fin 49) (d : Fin 32) (m : Fin 49) :
    DV.rhsIdx (ix4 b hh n d) ((contrEquiv1 DV 49 rfl rfl).symm m) = ix4 b hh m d := by
  have c2 := contrEquiv1_symm_val DV 49 rfl rfl m
  funext ax; apply Fin.ext
  match ax with
  | ⟨0, _⟩ => simp [DotDims.rhsIdx, DV, dot_S2048x16x49x49_S2048x16x49x32_S2048x16x49x32_3_2_2_3_01_01]; rfl
  | ⟨1, _⟩ => simp [DotDims.rhsIdx, DV, dot_S2048x16x49x49_S2048x16x49x32_S2048x16x49x32_3_2_2_3_01_01]; rfl
  | ⟨2, _⟩ => simp [DotDims.rhsIdx, DV, dot_S2048x16x49x49_S2048x16x49x32_S2048x16x49x32_3_2_2_3_01_01]; exact c2
  | ⟨3, _⟩ => simp [DotDims.rhsIdx, DV, dot_S2048x16x49x49_S2048x16x49x32_S2048x16x49x32_3_2_2_3_01_01]; rfl

/-- The batched product at (b, h, n, d): the sum over keys m of weight (b, h, n, m) times value (b, h, m, d). -/
theorem dot_read (prec : Option ContractPrecision) (P : FVec Ideal S2048x16x49x49 .f32) (v : FVec Ideal S2048x16x49x32 .f32)
    (b : Fin 2048) (hh : Fin 16) (n : Fin 49) (d : Fin 32) :
    Host.dotGeneral DV prec P v (ix4 b hh n d) = ∑ m : Fin 49, P (ix4 b hh n m) * v (ix4 b hh m d) := by
  show FloatOps.dotGeneral _ prec _ P v (ix4 b hh n d) = _
  rw [Ideal.dotGeneral_apply, ← Equiv.sum_comp (contrEquiv1 DV 49 rfl rfl).symm]
  refine Finset.sum_congr rfl fun m _ => ?_
  rw [lhsIdx_DV, rhsIdx_DV]

/-! ## The stage at an entry -/

/-- The row's maximum as the reference takes it: the fold from minus infinity, then once more against minus infinity. -/
theorem mx_read (L : FVec Ideal S2048x16x49x49 .f32) (h' : S2048x16x49x49.ReducesTo [3] S2048x16x49) (hu : 0 < S_.numel)
    (h0 : S_.BroadcastsInDim S2048x16x49 ![]) (b : Fin 2048) (hh : Fin 16) (n : Fin 49) :
    maximumf (broadcastInDim S2048x16x49 ![] h0 (constant (F := Ideal) S_ .f32 0xFF800000#32))
        (Host.reduce FloatOps.maximumf L (constant (F := Ideal) S_ .f32 0xFF800000#32) h' hu) (ix3 b hh n)
      = rowMax (fun m => L (ix4 b hh n m)) := by
  rw [maximumf_apply, broadcastInDim_scalar_apply, constant_apply, max_read]
  exact max_again _

/-- The stabilised exponentials: with a per-row value M subtracted, entry (b, h, n, m) is exp (L − M). -/
theorem exp_read (L : FVec Ideal S2048x16x49x49 .f32) (M : FVec Ideal S2048x16x49 .f32)
    (h1 : S2048x16x49.BroadcastsInDim S2048x16x49x1 ![0, 1, 2])
    (h2 : S2048x16x49x1.BroadcastsInDim S2048x16x49x49 ![0, 1, 2, 3])
    (b : Fin 2048) (hh : Fin 16) (n : Fin 49) (m : Fin 49) :
    Host.exp (subf L (broadcastInDim S2048x16x49x49 ![0, 1, 2, 3] h2 (broadcastInDim S2048x16x49x1 ![0, 1, 2] h1 M))) (ix4 b hh n m)
      = Ideal.exp (L (ix4 b hh n m) - M (ix3 b hh n)) := by
  show Ideal.exp (L (ix4 b hh n m)
    - broadcastInDim S2048x16x49x49 ![0, 1, 2, 3] h2 (broadcastInDim S2048x16x49x1 ![0, 1, 2] h1 M) (ix4 b hh n m)) = _
  rw [keep_read]

/-- The normalisation: each entry divided by its row's sum. -/
theorem norm_read (E : FVec Ideal S2048x16x49x49 .f32) (h' : S2048x16x49x49.ReducesTo [3] S2048x16x49) (hu : 0 < S_.numel)
    (h1 : S2048x16x49.BroadcastsInDim S2048x16x49x1 ![0, 1, 2])
    (h2 : S2048x16x49x1.BroadcastsInDim S2048x16x49x49 ![0, 1, 2, 3])
    (b : Fin 2048) (hh : Fin 16) (n : Fin 49) (m : Fin 49) :
    Host.divf E (broadcastInDim S2048x16x49x49 ![0, 1, 2, 3] h2 (broadcastInDim S2048x16x49x1 ![0, 1, 2] h1
        (Host.reduceAdd E (constant (F := Ideal) S_ .f32 0x00000000#32) h' hu))) (ix4 b hh n m)
      = Ideal.div (E (ix4 b hh n m)) (∑ m' : Fin 49, E (ix4 b hh n m')) := by
  rw [hostDivf_apply, keep_read, sum_read]

/-- The reference's soft maximum and output stage at entry (b, n, c): head c / 32 of window b, at token n and lane c % 32. -/
theorem tailTerm_at (L : FVec Ideal S2048x16x49x49 .f32) (v : FVec Ideal S2048x16x49x32 .f32) (b : Fin 2048) (n : Fin 49) (c : Fin 512) :
    tailTerm L v (ix3 b n c)
      = head (fun n' m => L (ix4 b (chHead c) n' m)) (fun m d => v (ix4 b (chHead c) m d)) n (chLane c) := by
  unfold tailTerm
  dsimp only
  rw [merge_read, swap_read]
  refine (dot_read none _ v b (chHead c) n (chLane c)).trans ?_
  unfold head
  refine Finset.sum_congr rfl fun m _ => ?_
  rw [norm_read, exp_read, mx_read]
  refine congrArg (fun s => Ideal.div _ s * _) (Finset.sum_congr rfl fun m' _ => ?_)
  rw [exp_read, mx_read]

end Cert.ReferenceIdeal.Tail

end
-- ==== Proof.RefValue.lean ====
/-
  The reference's attention stages, composed: from the projected array, the bias and the mask, the result is the
  specification's output with the scale applied to the queries.
-/
import proofs.«110809_j36352603193925_2_alg».proof.Proof.RefLogits
import proofs.«110809_j36352603193925_2_alg».proof.Proof.RefTail

noncomputable section

namespace Cert.ReferenceIdeal.RefValue

open Idealize.ShloMosaic Idealize.ShloMosaic.ValueIdx Cert.ReferenceIdeal Cert.ReferenceIdeal.Gen Cert.ReferenceIdeal.Terms Cert.WinAttn

/-- Entry by entry, the staged term is one head's soft maximum over the reference's logits, applied to its values. -/
theorem attnTerm_eq (Y : FVec Ideal S2048x49x3x16x32 .f32) (bias : FVec Ideal S16x49x49 .f32) (mask : FVec Ideal S64x49x49 .f32) :
    attnTerm Y bias mask = outR Y bias mask := by
  funext i
  obtain ⟨b, n, c, rfl⟩ : ∃ (b : Fin 2048) (n : Fin 49) (c : Fin 512), i = ix3 b n c := ⟨i 0, i 1, i 2, eq_ix3 i⟩
  unfold attnTerm
  rw [Cert.ReferenceIdeal.Tail.tailTerm_at]
  show _ = head (logitsR Y bias mask b (chHead c)) (fun m d => Y (ix5 b m (2 : Fin 3) (chHead c) d)) n (chLane c)
  have hL : (fun n' m => logitsTerm (qTerm Y) (kTerm Y) bias mask (ix4 b (chHead c) n' m)) = logitsR Y bias mask b (chHead c) := by
    funext n' m
    rw [Cert.ReferenceIdeal.Logits.logitsTerm_at]
    unfold logitsR
    simp only [Cert.ReferenceIdeal.Logits.qTerm_at, Cert.ReferenceIdeal.Logits.kTerm_at]
  have hV : (fun m d => vTerm Y (ix4 b (chHead c) m d)) = fun m d => Y (ix5 b m (2 : Fin 3) (chHead c) d) := by
    funext m d
    exact Cert.ReferenceIdeal.Logits.vTerm_at Y b (chHead c) m d
  rw [hL, hV]

/-- The whole reference is the specification's output at its own projected array and bias. -/
theorem refTerm_eq (x : FVec Ideal S2048x49x512 .f32) (mask : FVec Ideal S64x49x49 .f32) (w : FVec Ideal S1536x512 .f32)
    (bq : FVec Ideal S1536 .f32) (tbl : FVec Ideal S169x16 .f32) :
    refTerm x mask w bq tbl = outR (projTerm x w bq) (biasTerm tbl) mask := by
  unfold refTerm
  exact attnTerm_eq _ _ _

end Cert.ReferenceIdeal.RefValue

end
-- ==== Proof.BiasEq.lean ====
/-
  The relative-position bias is one array in both programs: each gathers the table's rows at the same fixed index
  table (2401 entries, equal entry by entry) and lays the rows out head-major.
-/
import proofs.«110809_j36352603193925_2_alg».proof.Proof.KHost
import proofs.«110809_j36352603193925_2_alg».proof.Proof.RefTerms

noncomputable section

namespace Cert.BiasEq

open Idealize.ShloMosaic

/-- The two printed index tables agree at every entry. -/
theorem lit_eq : ∀ i : Fin 2401, Cert.KernelIdeal.lit0 i = Cert.ReferenceIdeal.lit0 i := by decide +kernel

/-- The two bias arrays are one. -/
theorem bias_eq (tbl : FVec Ideal Cert.KernelIdeal.S169x16 .f32) :
    Cert.KernelIdeal.Host.biasK tbl = Cert.ReferenceIdeal.Terms.biasTerm tbl := by
  unfold Cert.KernelIdeal.Host.biasK Cert.ReferenceIdeal.Terms.biasTerm Cert.KernelIdeal.Host.relIdx Cert.ReferenceIdeal.Terms.relIdx
  rw [show Cert.KernelIdeal.lit0 = Cert.ReferenceIdeal.lit0 from funext lit_eq]
  rfl

end Cert.BiasEq

end
-- ==== Proof.ProjEq.lean ====
/-
  The projected array of the two programs is one array.

  The kernel's first region computes the dense layer x · wᵀ + b on the input flattened to 2048 · 49 rows, with the
  operands narrowed (at the ideal values narrowing changes nothing), and the host then reads its 100352 × 1536 result
  as (window, token, part, head, lane). The reference computes the same layer on the batch of 2048 matrices and reads
  its 2048 × 49 × 1536 result under the same five axes. Cutting the flat rows back into the batch gives the reference's
  layer entry by entry, and a reshape of a reshape reads the same row-major position as the direct reshape.
-/
import proofs.«110809_j36352603193925_2_alg».proof.Proof.KHost
import proofs.«110809_j36352603193925_2_alg».proof.Proof.RefTerms
import proofs.«110809_j36352603193925_2_alg».proof.Proof.LibLinearNT

noncomputable section

namespace Cert.ProjEq

open Idealize.ShloMosaic Idealize.ShloMosaic.ValueIdx

/-- Two reshapes in a row read the same row-major position as one. -/
theorem shapeCast_comp {s t u : Shape} {α : Type} (v : s.Idx → α) (h1 : s.ShapeCasts t) (h2 : t.ShapeCasts u)
    (h3 : s.ShapeCasts u) : shapeCast u (shapeCast t v h1) h2 = shapeCast u v h3 :=
  funext fun i => congrArg v (by
    show Shape.reshapeEquiv _ (Shape.reshapeEquiv _ i) = Shape.reshapeEquiv _ i
    rw [Shape.reshapeEquiv_reshapeEquiv])

/-- The flat result 100352 × 1536 has as many entries as the batch 2048 × 49 × 1536. -/
theorem unflat : (⟨2, ![100352, 1536]⟩ : Shape).ShapeCasts ⟨3, ![2048, 49, 1536]⟩ := by decide

/-- The kernel's projected array, as the next reshape reads it, is the reference's. -/
theorem proj_eq (x : FVec Ideal Cert.KernelIdeal.S2048x49x512 .f32) (w : FVec Ideal Cert.KernelIdeal.S1536x512 .f32)
    (bq : FVec Ideal Cert.KernelIdeal.S1536 .f32) :
    shapeCast Cert.KernelIdeal.S2048x49x3x16x32
      (Cert.Lib.LinearNT.linN
        (truncf .bf16 (shapeCast Cert.KernelIdeal.S100352x512 x Cert.KernelIdeal.Gen.shapeCasts_S2048x49x512_S100352x512)
          Cert.KernelIdeal.Gen.bitsLt_bf16_f32)
        (truncf (F := Ideal) .bf16 w Cert.KernelIdeal.Gen.bitsLt_bf16_f32 : FVec Ideal Cert.KernelIdeal.S1536x512 .bf16)
        (shapeCast Cert.KernelIdeal.S1x1536 bq Cert.KernelIdeal.Gen.shapeCasts_S1536_S1x1536))
      Cert.KernelIdeal.Gen.shapeCasts_S100352x1536_S2048x49x3x16x32
      = Cert.ReferenceIdeal.Terms.projTerm x w bq := by
  have e := Cert.Lib.LinearNT.layerN_batch (B := 2048) (n := 49) (M := 100352) (K := 512) (O := 1536) rfl x w bq
    Cert.KernelIdeal.Gen.shapeCasts_S2048x49x512_S100352x512 Cert.KernelIdeal.Gen.bitsLt_bf16_f32
    Cert.KernelIdeal.Gen.shapeCasts_S1536_S1x1536 unflat
    Cert.ReferenceIdeal.Gen.dot_S2048x49x512_S1536x512_S2048x49x1536_2_1_01_0_n_n_wf none
    Cert.ReferenceIdeal.Gen.bcast_S1536_S1x1x1536_2 Cert.ReferenceIdeal.Gen.bcast_S1x1x1536_S2048x49x1536_0_1_2
  exact (shapeCast_comp _ unflat Cert.ReferenceIdeal.Gen.shapeCasts_S2048x49x1536_S2048x49x3x16x32
      Cert.KernelIdeal.Gen.shapeCasts_S100352x1536_S2048x49x3x16x32).symm.trans
    (congrArg (fun v => shapeCast Cert.ReferenceIdeal.S2048x49x3x16x32 v
      Cert.ReferenceIdeal.Gen.shapeCasts_S2048x49x1536_S2048x49x3x16x32) e)

end Cert.ProjEq

end
-- ==== Proof.LibFiniteCheck.lean ====
/-
  One finiteness check of a printed precondition, read back (general: any shape, any reduced axes).

  A precondition "every float input is finite" prints, per argument x, as a reduction by "and" over all axes of the
  one-bit array (|x| < +inf), started from the constant 1, and the claim states that the result is 1. Then the
  comparison is 1 at every index; an extended real whose absolute value max(x, -x) is below plus infinity is neither
  infinity; so every entry of x is a real number.
-/
import Idealize.ShloMosaic.Lib.ReduceAll
import Idealize.ShloMosaic.Lib.ValueIdx
import Idealize.ShloMosaic.Lib.Pipeline.Value
import Idealize.ShloMosaic.PureOps.Ideal

noncomputable section

namespace Cert.Lib.FiniteCheck

open Idealize.ShloMosaic Idealize.ShloMosaic.ValueIdx

/-- `Cert.Lib.FiniteCheck.scalarIdx_subsingleton`: the result of a reduction over all axes has one index. -/
instance scalarIdx_subsingleton : Subsingleton (⟨0, ![]⟩ : Shape).Idx := ⟨fun a b => funext fun d => d.elim0⟩

/-- `Cert.Lib.FiniteCheck.ofBits_inf`: the f32 pattern of plus infinity denotes plus infinity. -/
theorem ofBits_inf : Ideal.ofBits .f32 0x7F800000#32 = (⊤ : EReal) := by
  simp [Ideal.ofBits, Ideal.ieee]

/-- `Cert.Lib.FiniteCheck.real_of_abs_lt_top`: an extended real whose absolute value is below plus infinity is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- `Cert.Lib.FiniteCheck.all_real`: one check of the precondition. If "all entries have absolute value below plus
    infinity" came out 1, every entry is a real number. The shape relations are whatever the program states. -/
theorem all_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x)
        (broadcastInDim s (![] : Fin 0 → Fin s.rank) hb (constant (F := Ideal) ⟨0, ![]⟩ .f32 0x7F800000#32)))
        (constantI ⟨0, ![]⟩ 1 1#1) hr hu ix0 = 1#1) (i : s.Idx) : ∃ r : ℝ, x i = (r : EReal) := by
  have h1 := Host.reduce_andi_all _ _ hr hu ix0 e i
  rw [cmpf_apply, broadcastInDim_apply _ hb _ i ix0 (fun ax => ax.elim0)] at h1
  apply real_of_abs_lt_top
  have h2 : Ideal.cmp .olt (max (x i) (-(x i))) (Ideal.ofBits .f32 0x7F800000#32) = 1#1 := h1
  rw [ofBits_inf] at h2
  unfold Ideal.cmp at h2
  by_contra hn
  simp [hn] at h2

end Cert.Lib.FiniteCheck

end
-- ==== Proof.Finite.lean ====
/-
  Finiteness of the projected array. The precondition states, argument by argument, that every entry has absolute
  value below plus infinity; read back, every entry of the activations, the weight and the bias is a real number.
  An entry of the projected array is an entry of the dense layer x·wᵀ + b (the reshape only renames the index): a
  finite sum of products of real numbers plus a real number, hence a real number.
-/
import proofs.«110809_j36352603193925_2_alg».proof.Proof.RefTerms
import proofs.«110809_j36352603193925_2_alg».proof.Proof.LibFiniteCheck
import proofs.«110809_j36352603193925_2_alg».proof.Proof.LibLinearNT
import proofs.«110809_j36352603193925_2_alg».proof.Proof.Spec
import proofs.«110809_j36352603193925_2_alg».proof.Pre_finite_inputs
import proofs.«110809_j36352603193925_2_alg».proof.Proof.Gen.Pre_finite_inputs

noncomputable section

namespace Cert.Finite

open Idealize.ShloMosaic Idealize.ShloMosaic.ValueIdx

/-- The precondition read back: the five checks are joined by "and", so each came out 1, and each check that came
    out 1 says every entry of its argument is a real number. -/
theorem inputs_real (x : FVec Ideal Cert.ReferenceIdeal.S2048x49x512 .f32) (mask : FVec Ideal Cert.ReferenceIdeal.S64x49x49 .f32)
    (w : FVec Ideal Cert.ReferenceIdeal.S1536x512 .f32) (bq : FVec Ideal Cert.ReferenceIdeal.S1536 .f32)
    (tbl : FVec Ideal Cert.ReferenceIdeal.S169x16 .f32)
    (hpre : Cert.Pre_finite_inputs.fn (F := Ideal) x mask w bq tbl = fun _ => 1#1) :
    (∀ i, ∃ r : ℝ, x i = (r : EReal)) ∧ (∀ i, ∃ r : ℝ, mask i = (r : EReal)) ∧ (∀ i, ∃ r : ℝ, w i = (r : EReal))
      ∧ (∀ i, ∃ r : ℝ, bq i = (r : EReal)) ∧ (∀ i, ∃ r : ℝ, tbl i = (r : EReal)) := by
  have h := congrFun hpre ix0
  dsimp only [Cert.Pre_finite_inputs.fn, Cert.Pre_finite_inputs.fn_part1] at h
  obtain ⟨h0123, h4⟩ := IntOp.andi_eq_one.1 h
  obtain ⟨h012, h3⟩ := IntOp.andi_eq_one.1 h0123
  obtain ⟨h01, h2⟩ := IntOp.andi_eq_one.1 h012
  obtain ⟨h0, h1⟩ := IntOp.andi_eq_one.1 h01
  exact ⟨Cert.Lib.FiniteCheck.all_real x _ _ _ h0, Cert.Lib.FiniteCheck.all_real mask _ _ _ h1,
    Cert.Lib.FiniteCheck.all_real w _ _ _ h2, Cert.Lib.FiniteCheck.all_real bq _ _ _ h3,
    Cert.Lib.FiniteCheck.all_real tbl _ _ _ h4⟩

/-- An entry (e, a, q) of the dense layer: the row (e, a) of x against the row q of w, plus the bias at q — a real
    number when the entries of x, w and the bias are. -/
theorem dense_real (x : FVec Ideal Cert.ReferenceIdeal.S2048x49x512 .f32) (w : FVec Ideal Cert.ReferenceIdeal.S1536x512 .f32)
    (bq : FVec Ideal Cert.ReferenceIdeal.S1536 .f32)
    (hx : ∀ i, ∃ r : ℝ, x i = (r : EReal)) (hw : ∀ i, ∃ r : ℝ, w i = (r : EReal)) (hb : ∀ i, ∃ r : ℝ, bq i = (r : EReal))
    (k : Cert.ReferenceIdeal.S2048x49x1536.Idx) :
    ∃ r : ℝ, addf (Host.dotGeneral Cert.ReferenceIdeal.dot_S2048x49x512_S1536x512_S2048x49x1536_2_1_01_0_n_n none x w)
        (broadcastInDim Cert.ReferenceIdeal.S2048x49x1536 ![0, 1, 2] Cert.ReferenceIdeal.Gen.bcast_S1x1x1536_S2048x49x1536_0_1_2
          (broadcastInDim Cert.ReferenceIdeal.S1x1x1536 ![2] Cert.ReferenceIdeal.Gen.bcast_S1536_S1x1x1536_2 bq)) k = (r : EReal) := by
  obtain ⟨e, a, q, rfl⟩ : ∃ (e : Fin 2048) (a : Fin 49) (q : Fin 1536), k = ix3 e a q := ⟨k 0, k 1, k 2, eq_ix3 k⟩
  have hd : Host.dotGeneral Cert.ReferenceIdeal.dot_S2048x49x512_S1536x512_S2048x49x1536_2_1_01_0_n_n none x w (ix3 e a q)
      = ∑ c : Fin 512, x (ix3 e a c) * w (ix2 q c) :=
    Cert.Lib.LinearNT.dotGeneral3_at Cert.ReferenceIdeal.Gen.dot_S2048x49x512_S1536x512_S2048x49x1536_2_1_01_0_n_n_wf none x w e a q
  have hbias : broadcastInDim Cert.ReferenceIdeal.S2048x49x1536 ![0, 1, 2] Cert.ReferenceIdeal.Gen.bcast_S1x1x1536_S2048x49x1536_0_1_2
      (broadcastInDim Cert.ReferenceIdeal.S1x1x1536 ![2] Cert.ReferenceIdeal.Gen.bcast_S1536_S1x1x1536_2 bq) (ix3 e a q) = bq (ix1 q) :=
    Cert.Lib.LinearNT.biasBatch_at bq _ _ e a q
  choose xr hxr using hx
  choose wr hwr using hw
  choose br hbr using hb
  rw [addf_apply, hd, hbias]
  simp only [hxr, hwr, hbr, ← EReal.coe_mul, ← Cert.WinAttn.coe_sum, ← EReal.coe_add]
  exact ⟨_, rfl⟩

/-- Under the precondition every entry of the projected array is a real number. -/
theorem proj_real (x : FVec Ideal Cert.ReferenceIdeal.S2048x49x512 .f32) (mask : FVec Ideal Cert.ReferenceIdeal.S64x49x49 .f32)
    (w : FVec Ideal Cert.ReferenceIdeal.S1536x512 .f32) (bq : FVec Ideal Cert.ReferenceIdeal.S1536 .f32)
    (tbl : FVec Ideal Cert.ReferenceIdeal.S169x16 .f32)
    (hpre : Cert.Pre_finite_inputs.fn (F := Ideal) x mask w bq tbl = fun _ => 1#1) :
    ∀ i, ∃ r : ℝ, Cert.ReferenceIdeal.Terms.projTerm x w bq i = (r : EReal) := by
  obtain ⟨hx, -, hw, hb, -⟩ := inputs_real x mask w bq tbl hpre
  intro i
  unfold Cert.ReferenceIdeal.Terms.projTerm shapeCast
  exact dense_real x w bq hx hw hb _

end Cert.Finite

end
-- ==== Proof.lean ====
/-
  Windowed multi-head attention (windows of 49 tokens, 16 heads of width 32) computed by two tiled kernels — a dense
  projection x·wᵀ + b over row tiles, then per tile of 128 (window, head) rows the scaled products q·kᵀ plus a gathered
  relative-position bias plus a per-window-class mask, a stable soft maximum along each row, and the product with the
  values — against the same computation written with whole-array operations.

  Both programs end with the specification's output (Proof/Spec.lean) at one projected array Y, one bias array and
  the mask. The kernel's side: the run with its result named (Proof/KRun.lean), the host reshapes around the regions
  (Proof/KHost.lean, Proof/KLayout.lean), the first region's rows as the dense layer (Proof/Region0.lean) and the second
  region's rows as one head's attention (Proof/Region1Pay.lean, Proof/Region1.lean), combined in Proof/KValue.lean. The
  reference's side: its run as a term of the arguments (Proof/RefTerms.lean, Proof/RefRun.lean) read stage by stage
  (Proof/RefLogits.lean, Proof/RefTail.lean, Proof/RefValue.lean). The two projected arrays are one (Proof/ProjEq.lean),
  the two bias arrays are one (Proof/BiasEq.lean). The only difference left is where the scale 1/√32 multiplies: the
  kernel scales the contracted product Σ_d q·k, the reference scales q first. A factor moves across a finite sum of
  extended reals when the summands are real, and the precondition (all inputs finite) makes every entry of the
  projected array a real number (Proof/Finite.lean).
-/
import proofs.«110809_j36352603193925_2_alg».proof.Defs
import proofs.«110809_j36352603193925_2_alg».proof.Proof.Gen.Kernel.Frame
import proofs.«110809_j36352603193925_2_alg».proof.Proof.Gen.Pre_finite_inputs
import proofs.«110809_j36352603193925_2_alg».proof.Proof.KRun
import proofs.«110809_j36352603193925_2_alg».proof.Proof.KValue
import proofs.«110809_j36352603193925_2_alg».proof.Proof.RefRun
import proofs.«110809_j36352603193925_2_alg».proof.Proof.RefValue
import proofs.«110809_j36352603193925_2_alg».proof.Proof.BiasEq
import proofs.«110809_j36352603193925_2_alg».proof.Proof.ProjEq
import proofs.«110809_j36352603193925_2_alg».proof.Proof.Finite

noncomputable section

namespace Cert.Proof

open Idealize.ShloMosaic Idealize.ShloMosaic.TcCoe Idealize.SL.Sem

/-- The word-level kernel terminates without a fault and leaves its arguments as launched. -/
theorem frame_k : Cert.frame_Kernel := fun m ρ _ => Cert.Kernel.Gen.frame m ρ
/-- So does the idealized kernel. -/
theorem frame_ki : Cert.frame_KernelIdeal := fun m ρ _ => Cert.KernelIdeal.Gen.frame m ρ
/-- So does the reference: its run, with the result dropped. -/
theorem frame_ri : Cert.frame_ReferenceIdeal := fun m ρ _ =>
  (θ_run Cert.ReferenceIdeal.defs _ _).mono (fun _ h c => (h c).2) (Cert.ReferenceIdeal.Value.run m ρ)

/-- From memories agreeing on the arguments both programs end with the specification's output at the kernel's
    projected array, bias and mask: the kernel by its value, the reference by its value, the projected arrays and
    biases identified, and the scale moved across the contraction because the projected array is real. -/
theorem algebraic : Cert.algebraic_KernelIdeal_ReferenceIdeal := by
  intro m ρ m' ρ' hpre hagree
  refine ⟨fun c => Cert.WinAttn.outK (Cert.KernelIdeal.KValue.Yk m c)
      (Cert.KernelIdeal.Host.biasK (m ((c.tc : Thread Cert.KernelIdeal.nD Cert.KernelIdeal.τ).loc Cert.KernelIdeal.main_arg4)))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.KValue.kernel_value m ρ c), (h c).2⟩)
      (Cert.KernelIdeal.Run.run_main (F := Ideal) m ρ)
  · refine (θ_run Cert.ReferenceIdeal.defs _ _).mono (fun r h c => ⟨(h c).1.trans ?_, (h c).2⟩)
      (Cert.ReferenceIdeal.Value.run m' ρ')
    obtain ⟨h0, h1, h2, h3, h4⟩ := hagree c
    rw [h0, h1, h2, h3, h4, Cert.ReferenceIdeal.RefValue.refTerm_eq, ← Cert.BiasEq.bias_eq]
    have hY : Cert.KernelIdeal.KValue.Yk m c = Cert.ReferenceIdeal.Terms.projTerm
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) :=
      Cert.ProjEq.proj_eq _ _ _
    show _ = Cert.WinAttn.outK (Cert.KernelIdeal.KValue.Yk m c) _ _
    rw [hY]
    exact (Cert.WinAttn.outK_eq_outR _ _ _ (Cert.Finite.proj_real _ _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
